-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x8192 .f32) (main_arg1 : FVec F S8192x512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x8192 : Shape := ⟨2, ![8192, 8192]⟩
abbrev S8192x512 : Shape := ⟨2, ![8192, 512]⟩
abbrev S8192 : Shape := ⟨1, ![8192]⟩
abbrev S2x1x8192 : Shape := ⟨3, ![2, 1, 8192]⟩
abbrev S256x8192 : Shape := ⟨2, ![256, 8192]⟩
abbrev S256 : Shape := ⟨1, ![256]⟩
abbrev S1x1x8192 : Shape := ⟨3, ![1, 1, 8192]⟩
abbrev S_ : Shape := ⟨0, ![]⟩
abbrev S1024x512 : Shape := ⟨2, ![1024, 512]⟩
abbrev S1024 : Shape := ⟨1, ![1024]⟩
abbrev S512 : Shape := ⟨1, ![512]⟩
abbrev S512x512 : Shape := ⟨2, ![512, 512]⟩
abbrev S512x1 : Shape := ⟨2, ![512, 1]⟩
abbrev S1024x1 : Shape := ⟨2, ![1024, 1]⟩

abbrev nBuf : Space → Nat
  | .hbm => 30
  | .vmem => 19
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S8192, .f32⟩
  | .hbm, ⟨3, _⟩ => ⟨S2x1x8192, .f32⟩
  | .hbm, ⟨4, _⟩ => ⟨S1x1x8192, .f32⟩
  | .hbm, ⟨5, _⟩ => ⟨S8192, .f32⟩
  | .hbm, ⟨6, _⟩ => ⟨S1x1x8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .i1⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1024x512, .f32⟩
  | .local _ .vmem, ⟨8, _⟩ => ⟨S1024x512, .f32⟩
  | .local _ .vmem, ⟨9, _⟩ => ⟨S8192x512, .f32⟩
  | .local _ .vmem, ⟨10, _⟩ => ⟨S1024, .f32⟩
  | .local _ .vmem, ⟨11, _⟩ => ⟨S1024, .f32⟩
  | .local _ .vmem, ⟨12, _⟩ => ⟨S512, .f32⟩
  | .local _ .vmem, ⟨13, _⟩ => ⟨S512, .f32⟩
  | .local _ .vmem, ⟨14, _⟩ => ⟨S1024, .f32⟩
  | .local _ .vmem, ⟨15, _⟩ => ⟨S1024, .f32⟩
  | .local _ .vmem, ⟨16, _⟩ => ⟨S1024, .f32⟩
  | .local _ .vmem, ⟨17, _⟩ => ⟨S1024, .f32⟩
  | .local _ .vmem, ⟨18, _⟩ => ⟨S1024x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_v13 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 1 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  ![v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_mult1 (i : grid1.Coords) : BitVec 32 :=
  let arg1 : BitVec 32 := BitVec.ofNat 32 (i 1).val
  let c512_i32 : BitVec 32 := 512#32
  let v5 : BitVec 32 := Scalar.muli arg1 c512_i32
  v5
def k1_off1 (i : grid1.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_8 : BitVec 32 := 0#32
  let v23 : BitVec 1 := Scalar.cmpi .ne v22 c0_i32_8
  v23

def k1_mult2 (i : grid1.Coords) : BitVec 32 :=
  let arg0 : BitVec 32 := BitVec.ofNat 32 (i 0).val
  let c1024_i32 : BitVec 32 := 1024#32
  let v24 : BitVec 32 := Scalar.muli arg0 c1024_i32
  v24
def k1_off2 (i : grid1.Coords) : Fin 2 → Nat :=
  let arg0 : BitVec 32 := BitVec.ofNat 32 (i 0).val
  let c1024_i32 : BitVec 32 := 1024#32
  let v24 : BitVec 32 := Scalar.muli arg0 c1024_i32
  let v25 : BitVec 32 := v24
  let v30 : Index := Scalar.indexCast v25
  let c0_11 : Index := 0#32
  ![v30.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x1x8192 : S1x1x8192.ShapeCasts S1x1x8192
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  reduces_S256x8192_S8192 : S256x8192.Reduces [0] S8192
  shapeCasts_S8192_S1x1x8192 : S8192.ShapeCasts S1x1x8192
  slices_S2x1x8192_S1x1x8192_0_0_0 : S2x1x8192.Slices ![0, 0, 0] S1x1x8192
  shapeCasts_S1x1x8192_S8192 : S1x1x8192.ShapeCasts S8192
  slices_S2x1x8192_S1x1x8192_1_0_0 : S2x1x8192.Slices ![1, 0, 0] S1x1x8192
  bcast_S_S8192 : S_.BroadcastsInDim S8192 (![] : Fin 0 → Fin S8192.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  h_S512x512 : 0 < S512x512.numel
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  broadcasts_S512x1_S512x512 : S512x1.Broadcasts S512x512
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x512 : S1024x1.Broadcasts S1024x512
  reduces_S1024x512_S1024 : S1024x512.Reduces [1] S1024
  reducesTo_S8192_S_d0 : S8192.ReducesTo [0] S_
  h_S_ : 0 < S_.numel
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .f32 = 32 ∨ (Rect.block (s := S8192) S256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S2x1x8192.size a
  hwx0_2 : ∀ i : grid0.Coords, EltTy.bits .f32 = 32 ∨ (Rect.block (s := S2x1x8192) S1x1x8192.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x512.size a ≤ S8192x512.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .f32 = 32 ∨ (Rect.block (s := S8192) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S8192.size a
  hwx1_3 : ∀ i : grid1.Coords, EltTy.bits .f32 = 32 ∨ (Rect.block (s := S8192) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S8192.size a
  hwx1_4 : ∀ i : grid1.Coords, EltTy.bits .f32 = 32 ∨ (Rect.block (s := S8192) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S8192.size a
  hwx1_5 : ∀ i : grid1.Coords, EltTy.bits .f32 = 32 ∨ (Rect.block (s := S8192) S1024.size (cc1_transform_5 i) (hinb1_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8192x1, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .i1⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_c : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v11 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  pads_S8192_S8192_000 : S8192.Pads (![0] : Fin 1 → Nat) ![0] ![0] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x512_S_d0_1 : S8192x512.ReducesTo [0, 1] S_
  dot_S8192x8192_S8192x512_S8192x512_1_0_0_1_n_n_wf : DotDims.WF S8192x8192 S8192x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.AssemblyB.lean ====
/-
  The two pallas_calls and the host lines between them as ONE run of @main: the buffer contents at every boundary
  as a fold from the launch memory (a host stretch applies its operations; a region leaves its output arrays at what
  its write-backs assemble and every other buffer as it found it), each region entered from the contents the fold
  has reached, and the final memory read against the last contents — every unscoped buffer, the result and the two
  argument arrays among them. Stated over any proof data for the two pipelines that satisfy the regions' obligations.
-/
import proofs.«174135_j60627758350707_2_alg».proof.Proof.Gen.Kernel.Launch
import proofs.«174135_j60627758350707_2_alg».proof.Proof.Gen.Kernel.Skeleton
import proofs.«174135_j60627758350707_2_alg».proof.Proof.Gen.Kernel.Points
import proofs.«174135_j60627758350707_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A TensorCore's buffer contents as a region finds them. -/
abbrev Entry := (c : Dev nD) → (b : Ref sig .tc) → Buf (Elt F) ((c : Thread nD τ).loc b)

variable (m : (ℓ : Loc nD τ sig) → Buf (Elt F) ℓ) (ρ : Dev nD → PrngReg)

/-- What the assembly needs of the two regions' proof data: arrays read off the entry contents, nothing owed, the body
    obligation, the class invariant in at the first point and out after the last; region 0 holds its arrays whole,
    region 1 holds the array its windows 2 and 3 share by halves. -/
structure Regions where
  dat0 : Entry (F := F) → (c : Dev nD) → Dat τ (Elt F) Unit ℕ (UR sig nD τ) ℕ cfg0 c
  dat1 : Entry (F := F) → (c : Dev nD) → Dat τ (Elt F) Unit ℕ (UR sig nD τ) ℕ cfg1 c
  A0 : ∀ V c w, (dat0 V c).A w = V c (Pipeline.arrRef spec0 w)
  A1 : ∀ V c w, (dat1 V c).A w = V c (Pipeline.arrRef spec1 w)
  q0 : ∀ V c w, (dat0 V c).q w = fullShare
  owed0 : ∀ V c t, (dat0 V c).owed t = 0
  owed1 : ∀ V c t, (dat1 V c).owed t = 0
  rec0 : ∀ V c t, (dat0 V c).recorded t = Set.univ
  rec1 : ∀ V c t, (dat1 V c).recorded t = Set.univ
  body0 : ∀ V c, BodyObligation (dat0 V c) (defs₀ (F := F)) Variants.none () Set.univ
  body1 : ∀ V c, BodyObligation (dat1 V c) (defs₀ (F := F)) Variants.none () Set.univ
  in0 : ∀ V c, (Pipeline.ΦA spec0 c : sProp 𝕄) ⊢ (dat0 V c).Φ 0
  out0 : ∀ V c, (dat0 V c).Φ (Fin.last cfg0.N) ⊢ (Pipeline.ΦA spec0 c : sProp 𝕄)
  in1 : ∀ V c, (Pipeline.ΦA spec1 c : sProp 𝕄) ⊢ (dat1 V c).Φ 0
  out1 : ∀ V c, (dat1 V c).Φ (Fin.last cfg1.N) ⊢ (Pipeline.ΦA spec1 c : sProp 𝕄)
  entry1 : ∀ (V : Entry (F := F)) (c : Dev nD),
    (unscopedBufs (Ix := Unit) (Name := ℕ) (U := UR sig nD τ) (Lvl := ℕ) c (V c) : sProp 𝕄)
      ⊢ iprop((dat1 V c).arrays (dat1 V c).A ∗ Pipeline.unscopedRest spec1 c (V c))
  exit1 : ∀ (V V' : Entry (F := F)) (c : Dev nD)
    (Fw : (w : Fin cfg1.W) → Buf (Elt F) ((cfg1.win w).arr.view.loc (c.tc : Thread nD τ))),
    (∀ w, Fw w = V' c (Pipeline.arrRef spec1 w)) →
    (∀ b, b ∉ Finset.univ.image (Pipeline.arrRef spec1) → V' c b = V c b) →
    iprop((dat1 V c).arrays Fw ∗ Pipeline.unscopedRest spec1 c (V c))
      ⊢ (unscopedBufs (Ix := Unit) (Name := ℕ) (U := UR sig nD τ) (Lvl := ℕ) c (V' c) : sProp 𝕄)

variable (R : Regions (F := F))

/-! ## The buffer contents at each boundary -/

abbrev W0 : Dev nD → Valuation τ sig (Elt F) := fun c b => (s₀ m ρ).mem ((c : Dev nD), b)
abbrev V0 : Entry (F := F) := fun c b => W0 m ρ c b
/-- After pallas_call 0: its arrays at what the pipeline leaves, every other buffer as entered. -/
def W1 (c : Dev nD) : Valuation τ sig (Elt F) :=
  Pipeline.withArrays spec0 c (W0 m ρ c) fun w => (R.dat0 (V0 m ρ) c).arrAt w cfg0.N
abbrev V1 : Entry (F := F) := fun c b => W1 m ρ R c b
abbrev W2 : Dev nD → Valuation τ sig (Elt F) := fun c => StableHlo.after hostOps1 (W1 m ρ R c)
abbrev W3 : Dev nD → Valuation τ sig (Elt F) := fun c => StableHlo.after hostOps1_1 (W2 m ρ R c)
abbrev W4 : Dev nD → Valuation τ sig (Elt F) := fun c => StableHlo.after hostOps1_2 (W3 m ρ R c)
abbrev W5 : Dev nD → Valuation τ sig (Elt F) := fun c => StableHlo.after hostOps1_3 (W4 m ρ R c)
abbrev V5 : Entry (F := F) := fun c b => W5 m ρ R c b

/-- After pallas_call 1: its output array at what the pipeline leaves, every other buffer as entered. -/
def W6 (c : Dev nD) : Valuation τ sig (Elt F) :=
  Function.update (W5 m ρ R c) main_v15 ((R.dat1 (V5 m ρ R) c).arrAt 5 cfg1.N : Buf (Elt F) ((c : Thread nD τ).loc main_v15))
abbrev V6 : Entry (F := F) := fun c b => W6 m ρ R c b
abbrev W7 : Dev nD → Valuation τ sig (Elt F) := fun c => StableHlo.after hostOps2 (W6 m ρ R c)

theorem W1_arr (c : Dev nD) (w : Fin cfg0.W) :
    W1 m ρ R c (Proc.devRef .tc (Pipeline.arrRef spec0 w)) = (R.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ R c (Proc.devRef .tc b) = W0 m ρ c (Proc.devRef .tc b) := by
  unfold W1; exact Pipeline.withArrays_of_ne spec0 c _ _ b hb
theorem hF0 (c : Dev nD) (w : Fin cfg0.W) : (R.dat0 (V0 m ρ) c).arrAt w cfg0.N = V1 m ρ R c (Pipeline.arrRef spec0 w) :=
  (W1_arr m ρ R c w).symm
theorem hrest0 (c : Dev nD) : ∀ b, b ∉ Finset.univ.image (Pipeline.arrRef spec0) → V1 m ρ R c b = V0 m ρ c b :=
  fun b hb => W1_of_ne m ρ R c b fun w e => hb (Finset.mem_image.mpr ⟨w, Finset.mem_univ _, e⟩)

theorem W6_out (c : Dev nD) : W6 m ρ R c (Proc.devRef .tc main_v15) = (R.dat1 (V5 m ρ R) c).arrAt 5 cfg1.N := by
  unfold W6; exact Function.update_self ..
theorem W6_of_ne (c : Dev nD) (b : Ref sig .tc) (hb : b ≠ main_v15) :
    W6 m ρ R c (Proc.devRef .tc b) = W5 m ρ R c (Proc.devRef .tc b) := by
  unfold W6; exact Function.update_of_ne (StableHlo.devRef_ne_of_ne hb) ..

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R.dat0 (V0 m ρ) c
  | ⟨1, _⟩ => fun c => R.dat1 (V5 m ρ R) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
abbrev Tₙ (c : Dev nD) : sProp 𝕄 := iprop(StableHlo.held (c : Thread nD τ) (Pipeline.ucRefs τ sig) (W7 m ρ R c) ∗ ∃ r, prngReg c r)

set_option backward.isDefEq.respectTransparency.types false in
/-- Pallas_call 0 over the thread state: entered from every unscoped buffer at the launch contents, left at W1. -/
def reg0 : Pipeline.RegionSeg (pcfgs (F := F)) adm (pdats m ρ R) () defs₀ 𝒱₀ L lv 0 where
  win := launch0.win.to₀
  block_pos := launch0.block_pos
  stage_whole := launch0.stage_whole
  K := PEmpty
  osem k := k.elim
  ho := Pipeline.OwnSemFacts.none _
  hbody c := (R.body0 (V0 m ρ) c).loose
  hwaits := Pipeline.hwaits_of_owed_zero _ _ _ _ L lv 0 fun c t => R.owed0 (V0 m ρ) c t
  pre c := iprop(StableHlo.held (c : Thread nD τ) (Pipeline.ucRefs τ sig) (W0 m ρ c) ∗ Rr c)
  post c := iprop(StableHlo.held (c : Thread nD τ) (Pipeline.ucRefs τ sig) (W1 m ρ R c) ∗ Rr c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ R) launch0.win launch0.arr_whole c
      ((pdats m ρ R 0 c).share_full fun w => R.q0 (V0 m ρ) c w) (V0 m ρ c) fun w => R.A0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ R 0 c).recorded 0 = Set.univ from R.rec0 (V0 m ρ) c 0]; trivial)
      rw [show (pdats m ρ R 0 c).owed 0 = 0 from R.owed0 (V0 m ρ) c 0]
      iexact HO
    isplitl [Hp]; · iexact Hp
    iexact Hrest
  hin c := by
    refine BIBase.Entails.trans ?_ (R.in0 (V0 m ρ) c)
    unfold Pipeline.ΦA
    iintro ⟨Hp, -, Hr⟩
    isplitl [Hr]; · iexact Hr
    iexact Hp
  hout c := by
    rw [Pipeline.ownSems0_none]
    refine BIBase.Entails.trans (R.out0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R) ((pdats m ρ R 0 c).share_full fun w => R.q0 (V0 m ρ) c w)
      (V0 m ρ c) (V1 m ρ R c) ((pdats m ρ R 0 c).arrAt · cfg0.N) (hF0 m ρ R c) (hrest0 m ρ R c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ R 0 c).owed (Fin.last _) = 0 from R.owed0 (V0 m ρ) c _]
    iexact HO

theorem hF1 (c : Dev nD) (w : Fin cfg1.W) : (R.dat1 (V5 m ρ R) c).arrAt w cfg1.N = V6 m ρ R c (Pipeline.arrRef spec1 w) := by
  match w with
  | ⟨0, _⟩ => exact (((R.dat1 (V5 m ρ R) c).arrAt_in 0 rfl _).trans (R.A1 (V5 m ρ R) c 0)).trans (W6_of_ne m ρ R c main_arg0 (by decide)).symm
  | ⟨1, _⟩ => exact (((R.dat1 (V5 m ρ R) c).arrAt_in 1 rfl _).trans (R.A1 (V5 m ρ R) c 1)).trans (W6_of_ne m ρ R c main_arg1 (by decide)).symm
  | ⟨2, _⟩ => exact (((R.dat1 (V5 m ρ R) c).arrAt_in 2 rfl _).trans (R.A1 (V5 m ρ R) c 2)).trans (W6_of_ne m ρ R c main_v14 (by decide)).symm
  | ⟨3, _⟩ => exact (((R.dat1 (V5 m ρ R) c).arrAt_in 3 rfl _).trans (R.A1 (V5 m ρ R) c 3)).trans (W6_of_ne m ρ R c main_v14 (by decide)).symm
  | ⟨4, _⟩ => exact (((R.dat1 (V5 m ρ R) c).arrAt_in 4 rfl _).trans (R.A1 (V5 m ρ R) c 4)).trans (W6_of_ne m ρ R c main_v8 (by decide)).symm
  | ⟨5, _⟩ => exact (W6_out m ρ R c).symm
theorem hrest1 (c : Dev nD) : ∀ b, b ∉ Finset.univ.image (Pipeline.arrRef spec1) → V6 m ρ R c b = V5 m ρ R c b :=
  fun b hb => W6_of_ne m ρ R c b fun e => hb (Finset.mem_image.mpr ⟨5, Finset.mem_univ _, e.symm⟩)

set_option backward.isDefEq.respectTransparency.types false in
/-- Pallas_call 1 over the thread state: entered from every unscoped buffer at W5, left at W6. -/
def reg1 : Pipeline.RegionSeg (pcfgs (F := F)) adm (pdats m ρ R) () defs₀ 𝒱₀ L lv 1 where
  win := winFacts₀1
  block_pos := block_pos1
  stage_whole := stage_whole1
  K := PEmpty
  osem k := k.elim
  ho := Pipeline.OwnSemFacts.none _
  hbody c := (R.body1 (V5 m ρ R) c).loose
  hwaits := Pipeline.hwaits_of_owed_zero _ _ _ _ L lv 1 fun c t => R.owed1 (V5 m ρ R) c t
  pre c := iprop(StableHlo.held (c : Thread nD τ) (Pipeline.ucRefs τ sig) (W5 m ρ R c) ∗ Rr c)
  post c := iprop(StableHlo.held (c : Thread nD τ) (Pipeline.ucRefs τ sig) (W6 m ρ R c) ∗ Rr c)
  X c := iprop(∃ r, prngReg c r)
  Y c := iprop(∃ r, prngReg c r)
  Z c := Pipeline.unscopedRest (Ix := Unit) (Name := ℕ) (U := UR sig nD τ) (Lvl := ℕ) spec1 c (V5 m ρ R c)
  hentry c := by
    rw [Pipeline.ownSems0_none]
    have hsplit := R.entry1 (V5 m ρ R) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m ρ R 1 c).recorded 0 = Set.univ from R.rec1 (V5 m ρ R) c 0]; trivial)
      rw [show (pdats m ρ R 1 c).owed 0 = 0 from R.owed1 (V5 m ρ R) c 0]
      iexact HO
    isplitl [Hp]; · iexact Hp
    iexact Hrest
  hin c := by
    refine BIBase.Entails.trans ?_ (R.in1 (V5 m ρ R) c)
    unfold Pipeline.ΦA
    iintro ⟨Hp, -, Hr⟩
    isplitl [Hr]; · iexact Hr
    iexact Hp
  hout c := by
    rw [Pipeline.ownSems0_none]
    refine BIBase.Entails.trans (R.out1 (V5 m ρ R) c) ?_
    unfold Pipeline.ΦA
    iintro ⟨Hr, Hp⟩
    isplitl [Hp]; · iexact Hp
    isplitr; · iempintro
    iexact Hr
  hexit c := by
    have hjoin := R.exit1 (V5 m ρ R) (V6 m ρ R) c ((pdats m ρ R 1 c).arrAt · cfg1.N) (hF1 m ρ R c) (hrest1 m ρ R c)
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W
    rw [show (pdats m ρ R 1 c).owed (Fin.last _) = 0 from R.owed1 (V5 m ρ R) c _]
    iexact HO

/-! ## @main as segments, and the launch -/

abbrev segs : List (Pipeline.Seg (pcfgs (F := F)) adm (pdats m ρ R) () defs₀ 𝒱₀ L lv) :=
  [ .region (reg0 m ρ R),
    .host (hseg hostOps1 hostOps1_sub hostOps1_fresh (W1 m ρ R)),
    .host (hseg hostOps1_1 hostOps1_1_sub hostOps1_1_fresh (W2 m ρ R)),
    .host (hseg hostOps1_2 hostOps1_2_sub hostOps1_2_fresh (W3 m ρ R)),
    .host (hseg hostOps1_3 hostOps1_3_sub hostOps1_3_fresh (W4 m ρ R)),
    .region (reg1 m ρ R),
    .host (hseg hostOps2 hostOps2_sub hostOps2_fresh (W6 m ρ R)) ]

theorem main_run (c : Dev nD) : main (F := F) c = Pipeline.Seg.run (segs m ρ R) := by
  rw [main_chain c, Pipeline.Seg.run_eq_chain]
  rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds every unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ R c b) :=
  Pipeline.θ_run_regions_kit (pcfgs (F := F)) adm (pdats m ρ R) () cellOf_inj emb₁ defs₀ 𝒱₀ L lv m ρ main (segs m ρ R)
    (fun c Q => by rw [main_run m ρ R c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ R)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ R c) ∗ Rr c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ R c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ R c) s')
      isplitl [Hh] <;> iassumption)
    (hQ := fun s h c => h c)

/-! ## The argument arrays reach the end as launched -/

theorem W5_of (c : Dev nD) (r : Ref sig .tc) (h1 : r ∉ hostOps1_W) (h2 : r ∉ hostOps1_1_W) (h3 : r ∉ hostOps1_2_W) (h4 : r ∉ hostOps1_3_W) :
    W5 m ρ R c r = W1 m ρ R c r :=
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

theorem W1_arg0 (c : Dev nD) : W1 m ρ R c main_arg0 = m ((c : Thread nD τ).loc main_arg0) :=
  (W1_arr m ρ R c 0).trans (((R.dat0 (V0 m ρ) c).arrAt_in 0 rfl _).trans (R.A0 (V0 m ρ) c 0))
theorem W1_arg1 (c : Dev nD) : W1 m ρ R c main_arg1 = m ((c : Thread nD τ).loc main_arg1) :=
  W1_of_ne m ρ R c main_arg1 (by decide)

theorem W5_arg0 (c : Dev nD) : W5 m ρ R c main_arg0 = m ((c : Thread nD τ).loc main_arg0) :=
  (W5_of m ρ R c main_arg0 (by decide) (by decide) (by decide) (by decide)).trans (W1_arg0 m ρ R c)
theorem W5_arg1 (c : Dev nD) : W5 m ρ R c main_arg1 = m ((c : Thread nD τ).loc main_arg1) :=
  (W5_of m ρ R c main_arg1 (by decide) (by decide) (by decide) (by decide)).trans (W1_arg1 m ρ R c)

theorem W7_arg0 (c : Dev nD) : W7 m ρ R c main_arg0 = m ((c : Thread nD τ).loc main_arg0) :=
  (StableHlo.after_of_writes_sub hostOps2 _ hostOps2_writes (by decide)).trans <|
  (W6_of_ne m ρ R c main_arg0 (by decide)).trans (W5_arg0 m ρ R c)
theorem W7_arg1 (c : Dev nD) : W7 m ρ R c main_arg1 = m ((c : Thread nD τ).loc main_arg1) :=
  (StableHlo.after_of_writes_sub hostOps2 _ hostOps2_writes (by decide)).trans <|
  (W6_of_ne m ρ R c main_arg1 (by decide)).trans (W5_arg1 m ρ R c)

include R in
/-- The frame: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_arg0 m ρ R c),
     (h c _ (mem_uc main_arg1 (by decide))).trans (W7_arg1 m ρ R c)⟩) (run_all m ρ R)

/-- The same run with the result buffer read too. -/
theorem run_result : θ_run defs (onTc (τ := τ) (main (F := F))) ⟨m, fun _ => 0, ρ⟩ (fun r => ∀ c : Dev nD,
      r.2.mem ((c.tc : Thread nD τ).loc main_v16) = W7 m ρ R c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)),
     (h c _ (mem_uc main_arg0 (by decide))).trans (W7_arg0 m ρ R c),
     (h c _ (mem_uc main_arg1 (by decide))).trans (W7_arg1 m ρ R c)⟩) (run_all m ρ R)

end Cert.Kernel.Asm

end
-- ==== Proof.B0Runs.lean ====
/- The first grid kernel of the program (row sums and per-half column sums of the adjacency matrix), its frame half:
   what every run of its body is stated over. The grid is 2 × 16; a point t = 16·i0 + i1 handles rows
   256·t … 256·t + 255. The body zeroes the carried accumulator when i1 = 0, stores the 256 row sums of its strip at
   every point, adds the strip's column sums onto the accumulator, and when i1 = 15 copies the accumulator out.
   Everything is stated at a parameter V: the contents of the core's buffers when the region is entered. -/
import proofs.«174135_j60627758350707_2_alg».proof.Proof.Gen.Kernel.Launch
import proofs.«174135_j60627758350707_2_alg».proof.Proof.Gen.Kernel.Skeleton
import proofs.«174135_j60627758350707_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the strip of the matrix at every point, for any proof data
    whose array is V's and whose body leaves the strip in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the 32 points -/

/-- "This is the first strip of its half" (inner coordinate 0): the accumulator is zeroed. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)

/-- "This is the last strip of its half" (inner coordinate 15): the accumulator is copied out. -/
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last strip of a half the column-sum output is idle and is not written back. -/
theorem idleAt_2 : ∀ t : Fin cfg0.N, ¬cond2 (grid0.coords t) → cfg0.idle 2 (grid0.coords t) = true := by decide +kernel
theorem noFlush_2 : ∀ t : Fin cfg0.N, ¬cond2 (grid0.coords t) → (cfg0.win 2).flush t = false := by decide +kernel
/-- At the last strip of a half it is live. -/
theorem liveAt_2 : ∀ t : Fin cfg0.N, cond2 (grid0.coords t) → cfg0.idle 2 (grid0.coords t) = false := by decide +kernel

/-! ## The staging memrefs and the scratch -/

/-- One staging buffer of each output window, through which its contents are stated (the choice does not matter). -/
abbrev VO1 : View sig .tc .vmem S256 .f32 := (Memref.whole cc0_stg1_0 : Memref sig .tc .vmem S256 .f32).view
abbrev VO2 : View sig .tc .vmem S1x1x8192 .f32 := (Memref.whole cc0_stg2_0 : Memref sig .tc .vmem S1x1x8192 .f32).view
/-- Each window's current staging memref at point t, spelled as the pipeline passes it, and its wholeness. -/
abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x8192 .f32 := win0_2.stage (cfg0.slots t 2)
abbrev hs2 (t : Fin cfg0.N) : (ms2 t).IsWhole := hstage0_2 ((cfg0.slots t 2).cast nbuf0_2)
/-- The accumulator the kernel carries between points: a whole scoped buffer of its own. -/
abbrev scM : Memref sig .tc .vmem S1x1x8192 .f32 := Memref.whole cc0_scratch0
abbrev VS : View sig .tc .vmem S1x1x8192 .f32 := scM.view

/-- The scoped buffers of the core that this kernel never touches (the second kernel's staging buffers and scratch),
    each whole at some contents. -/
def restR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant with the accumulator as a memref owned at some contents: what the body obligation hands
    the run and takes back. -/
theorem PhiA_eq (c : Dev nD) :
    (Pipeline.ΦA spec0 c : sProp 𝕄)
      = iprop(iprop((∃ d, owns (c : Thread nD τ) scM fullShare d) ∗ restR (F := F) c) ∗ (∃ r, prngReg c r)) := by
  unfold Pipeline.ΦA; rw [scopedRest0_eq]; simp only [scM, owns_whole]; try rfl

end Cert.Kernel.R0

end
-- ==== Proof.B0RunA.lean ====
/- The body's run at the first strip of a half (inner coordinate 0): the accumulator, whatever it held, is zeroed, the
   strip's 256 row sums are stored, the strip's column sums are added onto the zeroed accumulator; the column-sum output
   is not touched. The pieces each buffer ends with are the witness the symbolic run finds. -/
import proofs.«174135_j60627758350707_2_alg».proof.Proof.B0Runs

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first strip of a half). On whole memrefs — the strip at x0, the row-sum buffer at anything, the column-sum
    buffer at xi2 (handed back untouched), the accumulator at anything — the body runs to the continuation holding the
    strip as it was, the row-sum buffer with its pieces L1 written and the accumulator with its pieces LS written. -/
noncomputable def kernelRun_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) :
    Σ' (L1 : List (View.Piece (Elt F) S256 .f32)), { LS : List (View.Piece (Elt F) S1x1x8192 .f32) //
      ∀ (xi2 : Vec F S1x1x8192 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, fun xi2 E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, ⟨%ds, %fs, -, HS⟩, Hk⟩
    obtain rfl := harg2.eq_unread hf0; obtain rfl := harg4.eq_unread hf2
    sl_exec (disch := first | exact hc0 | exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.Kernel.R0

end
-- ==== Proof.B0RunB.lean ====
/- The body's run at a strip that is neither the first nor the last of its half: the strip's 256 row sums are
   stored and the strip's column sums are added onto what the accumulator held after the point before; the column-sum
   output is not touched. -/
import proofs.«174135_j60627758350707_2_alg».proof.Proof.B0RunA

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle strip). As case A, but the accumulator is read before it is stored: it is taken at the contents
    xs the point before left. -/
noncomputable def kernelRun_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) :
    Σ' (L1 : List (View.Piece (Elt F) S256 .f32)), { LS : List (View.Piece (Elt F) S1x1x8192 .f32) //
      ∀ (xi2 : Vec F S1x1x8192 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, fun xi2 E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, ⟨%fs, %hfs, HS⟩, Hk⟩
    obtain rfl := harg2.eq_unread hf0; obtain rfl := harg4.eq_unread hf2; obtain rfl := harg5.eq_unread hfs
    sl_exec (disch := first | exact hc0 | exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.Kernel.R0

end
-- ==== Proof.B0RunC.lean ====
/- The body's run at the last strip of a half (inner coordinate 15): the strip's 256 row sums are stored, the strip's
   column sums are added onto what the accumulator held after the point before, and the accumulator is copied into the
   column-sum output's buffer. -/
import proofs.«174135_j60627758350707_2_alg».proof.Proof.B0RunB

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (last strip of a half). The accumulator is taken at the contents xs the point before left; the column-sum
    buffer, at anything, ends with its pieces L2 written. -/
noncomputable def kernelRun_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) :
    Σ' (L1 : List (View.Piece (Elt F) S256 .f32)) (L2 : List (View.Piece (Elt F) S1x1x8192 .f32)), { LS : List (View.Piece (Elt F) S1x1x8192 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc2)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.Kernel.R0

end
-- ==== Proof.B0Frame.lean ====
/- The first grid kernel's frame half, its last module: what the two outputs' buffers and the carried accumulator hold
   per control case and point by point, the pipeline's proof data at the entry contents V, and the body obligation.
   After point t of a half the accumulator holds the column sums of the half's strips up to t: at the first strip of a
   half it is zeroed and the strip added, at every later strip the strip is added onto what the point before left, and
   at the last strip of the half it is also copied to the column-sum output. Point 16 is again a first strip, so
   nothing is carried from one half to the other. -/
import proofs.«174135_j60627758350707_2_alg».proof.Proof.B0RunC

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the buffers -/

/-- Case A: the one store of the 256 row sums tiles the row-sum buffer, so the pieces cover it. -/
theorem cover1_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) (y : S256.Idx) :
    ∃ pc ∈ (kernelRun_A c i arg2 harg2 arg3 harg3 arg4 harg4 arg5 harg5 hc0 hc2 x0).1, y ∈ pc.1.set :=
  View.cover_of_tiledL (kernelRun_A c i arg2 harg2 arg3 harg3 arg4 harg4 arg5 harg5 hc0 hc2 x0).1 S256.size (by sl_kernel_rfl) y

/-- What case A leaves in the row-sum buffer: its pieces read back. -/
def out1_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) : Vec F S256 .f32 :=
  VO1.read (Elt F) (VO1.writes (Elt F) VO1.junk (kernelRun_A c i arg2 harg2 arg3 harg3 arg4 harg4 arg5 harg5 hc0 hc2 x0).1)

/-- Case A: the stores into the accumulator cover it. -/
theorem scover_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) (y : S1x1x8192.Idx) :
    ∃ pc ∈ (kernelRun_A c i arg2 harg2 arg3 harg3 arg4 harg4 arg5 harg5 hc0 hc2 x0).2.1, y ∈ pc.1.set :=
  View.cover_of_tiledL (kernelRun_A c i arg2 harg2 arg3 harg3 arg4 harg4 arg5 harg5 hc0 hc2 x0).2.1 S1x1x8192.size (by sl_kernel_rfl) y

/-- What case A leaves in the accumulator: its pieces read back. -/
def sout_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) : Vec F S1x1x8192 .f32 :=
  VS.read (Elt F) (VS.writes (Elt F) VS.junk (kernelRun_A c i arg2 harg2 arg3 harg3 arg4 harg4 arg5 harg5 hc0 hc2 x0).2.1)

/-- Case B: the one store of the 256 row sums tiles the row-sum buffer, so the pieces cover it. -/
theorem cover1_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) (y : S256.Idx) :
    ∃ pc ∈ (kernelRun_B c i arg2 harg2 arg3 harg3 arg4 harg4 arg5 harg5 hc0 hc2 x0 xs).1, y ∈ pc.1.set :=
  View.cover_of_tiledL (kernelRun_B c i arg2 harg2 arg3 harg3 arg4 harg4 arg5 harg5 hc0 hc2 x0 xs).1 S256.size (by sl_kernel_rfl) y

/-- What case B leaves in the row-sum buffer: its pieces read back. -/
def out1_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) : Vec F S256 .f32 :=
  VO1.read (Elt F) (VO1.writes (Elt F) VO1.junk (kernelRun_B c i arg2 harg2 arg3 harg3 arg4 harg4 arg5 harg5 hc0 hc2 x0 xs).1)

/-- Case B: the stores into the accumulator cover it. -/
theorem scover_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) (y : S1x1x8192.Idx) :
    ∃ pc ∈ (kernelRun_B c i arg2 harg2 arg3 harg3 arg4 harg4 arg5 harg5 hc0 hc2 x0 xs).2.1, y ∈ pc.1.set :=
  View.cover_of_tiledL (kernelRun_B c i arg2 harg2 arg3 harg3 arg4 harg4 arg5 harg5 hc0 hc2 x0 xs).2.1 S1x1x8192.size (by sl_kernel_rfl) y

/-- What case B leaves in the accumulator: its pieces read back. -/
def sout_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) : Vec F S1x1x8192 .f32 :=
  VS.read (Elt F) (VS.writes (Elt F) VS.junk (kernelRun_B c i arg2 harg2 arg3 harg3 arg4 harg4 arg5 harg5 hc0 hc2 x0 xs).2.1)

/-- Case C: the one store of the 256 row sums tiles the row-sum buffer, so the pieces cover it. -/
theorem cover1_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S256.Idx) :
    ∃ pc ∈ (kernelRun_C c i arg2 harg2 arg3 harg3 arg4 harg4 arg5 harg5 hc0 hc2 x0 xs).1, y ∈ pc.1.set :=
  View.cover_of_tiledL (kernelRun_C c i arg2 harg2 arg3 harg3 arg4 harg4 arg5 harg5 hc0 hc2 x0 xs).1 S256.size (by sl_kernel_rfl) y

/-- What case C leaves in the row-sum buffer: its pieces read back. -/
def out1_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S256 .f32 :=
  VO1.read (Elt F) (VO1.writes (Elt F) VO1.junk (kernelRun_C c i arg2 harg2 arg3 harg3 arg4 harg4 arg5 harg5 hc0 hc2 x0 xs).1)

/-- Case C: the stores into the accumulator cover it. -/
theorem scover_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S1x1x8192.Idx) :
    ∃ pc ∈ (kernelRun_C c i arg2 harg2 arg3 harg3 arg4 harg4 arg5 harg5 hc0 hc2 x0 xs).2.2.1, y ∈ pc.1.set :=
  View.cover_of_tiledL (kernelRun_C c i arg2 harg2 arg3 harg3 arg4 harg4 arg5 harg5 hc0 hc2 x0 xs).2.2.1 S1x1x8192.size (by sl_kernel_rfl) y

/-- What case C leaves in the accumulator: its pieces read back. -/
def sout_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S1x1x8192 .f32 :=
  VS.read (Elt F) (VS.writes (Elt F) VS.junk (kernelRun_C c i arg2 harg2 arg3 harg3 arg4 harg4 arg5 harg5 hc0 hc2 x0 xs).2.2.1)

/-- Case C: the copy of the accumulator tiles the column-sum buffer, so the pieces cover it. -/
theorem cover2_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S1x1x8192.Idx) :
    ∃ pc ∈ (kernelRun_C c i arg2 harg2 arg3 harg3 arg4 harg4 arg5 harg5 hc0 hc2 x0 xs).2.1, y ∈ pc.1.set :=
  View.cover_of_tiledL (kernelRun_C c i arg2 harg2 arg3 harg3 arg4 harg4 arg5 harg5 hc0 hc2 x0 xs).2.1 S1x1x8192.size (by sl_kernel_rfl) y

/-- What case C leaves in the column-sum buffer: its pieces read back. -/
def out2_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S1x1x8192 .f32 :=
  VO2.read (Elt F) (VO2.writes (Elt F) VO2.junk (kernelRun_C c i arg2 harg2 arg3 harg3 arg4 harg4 arg5 harg5 hc0 hc2 x0 xs).2.1)

/-- The column-sum buffer's placeholder at the points where the window is idle: nothing consults it there (the block is
    neither written back nor read at the next point). -/
def junk2 : Vec F S1x1x8192 .f32 := VO2.read (Elt F) (VO2.writes (Elt F) VO2.junk [])

/-! ## What the buffers hold after each point -/

/-- After a first strip of a half (row-sum buffer, column-sum buffer, accumulator). -/
def ptA (c : Dev nD) (t : Fin cfg0.N) (h0 : t.val % 16 = 0) (h2 : ¬t.val % 16 = 15) :
    Vec F S256 .f32 × Vec F S1x1x8192 .f32 × Vec F S1x1x8192 .f32 :=
  (out1_A c (grid0.coords t) (ms0 t) (hs0 t) (ms1 t) (hs1 t) (ms2 t) (hs2 t) scM (Memref.isWhole_whole _) ((hcond0 t).mpr h0) (fun h => h2 ((hcond2 t).mp h)) (iblk V c 0 t), junk2,
   sout_A c (grid0.coords t) (ms0 t) (hs0 t) (ms1 t) (hs1 t) (ms2 t) (hs2 t) scM (Memref.isWhole_whole _) ((hcond0 t).mpr h0) (fun h => h2 ((hcond2 t).mp h)) (iblk V c 0 t))

/-- After a middle strip, the accumulator having held xs. -/
def ptB (c : Dev nD) (t : Fin cfg0.N) (h0 : ¬t.val % 16 = 0) (h2 : ¬t.val % 16 = 15) (xs : Vec F S1x1x8192 .f32) :
    Vec F S256 .f32 × Vec F S1x1x8192 .f32 × Vec F S1x1x8192 .f32 :=
  (out1_B c (grid0.coords t) (ms0 t) (hs0 t) (ms1 t) (hs1 t) (ms2 t) (hs2 t) scM (Memref.isWhole_whole _) (fun h => h0 ((hcond0 t).mp h)) (fun h => h2 ((hcond2 t).mp h)) (iblk V c 0 t) xs, junk2,
   sout_B c (grid0.coords t) (ms0 t) (hs0 t) (ms1 t) (hs1 t) (ms2 t) (hs2 t) scM (Memref.isWhole_whole _) (fun h => h0 ((hcond0 t).mp h)) (fun h => h2 ((hcond2 t).mp h)) (iblk V c 0 t) xs)

/-- After a last strip of a half, the accumulator having held xs. -/
def ptC (c : Dev nD) (t : Fin cfg0.N) (h0 : ¬t.val % 16 = 0) (h2 : t.val % 16 = 15) (xs : Vec F S1x1x8192 .f32) :
    Vec F S256 .f32 × Vec F S1x1x8192 .f32 × Vec F S1x1x8192 .f32 :=
  (out1_C c (grid0.coords t) (ms0 t) (hs0 t) (ms1 t) (hs1 t) (ms2 t) (hs2 t) scM (Memref.isWhole_whole _) (fun h => h0 ((hcond0 t).mp h)) ((hcond2 t).mpr h2) (iblk V c 0 t) xs,
   out2_C c (grid0.coords t) (ms0 t) (hs0 t) (ms1 t) (hs1 t) (ms2 t) (hs2 t) scM (Memref.isWhole_whole _) (fun h => h0 ((hcond0 t).mp h)) ((hcond2 t).mpr h2) (iblk V c 0 t) xs,
   sout_C c (grid0.coords t) (ms0 t) (hs0 t) (ms1 t) (hs1 t) (ms2 t) (hs2 t) scM (Memref.isWhole_whole _) (fun h => h0 ((hcond0 t).mp h)) ((hcond2 t).mpr h2) (iblk V c 0 t) xs)

/-- THE ACCUMULATION: what the row-sum buffer, the column-sum buffer and the accumulator hold after the body at
    position n — the case the closed forms select there, the accumulator read at what position n - 1 left. -/
def outsAt (c : Dev nD) : (n : ℕ) → n < cfg0.N → Vec F S256 .f32 × Vec F S1x1x8192 .f32 × Vec F S1x1x8192 .f32
  | 0, hn => ptA V c ⟨0, hn⟩ (Nat.zero_mod _) (by show ¬(0 % 16 = 15); decide)
  | n + 1, hn =>
    if h0 : (n + 1) % 16 = 0 then
      if h2 : (n + 1) % 16 = 15 then False.elim (by omega)
      else ptA V c ⟨n + 1, hn⟩ h0 h2
    else
      if h2 : (n + 1) % 16 = 15 then ptC V c ⟨n + 1, hn⟩ h0 h2 (outsAt c n (Nat.lt_of_succ_lt hn)).2.2
      else ptB V c ⟨n + 1, hn⟩ h0 h2 (outsAt c n (Nat.lt_of_succ_lt hn)).2.2

/-- outsAt at a first strip of a half. -/
theorem outsAt_A (c : Dev nD) (t : Fin cfg0.N) (h0 : t.val % 16 = 0) (h2 : ¬t.val % 16 = 15) :
    outsAt V c t.val t.isLt = ptA V c t h0 h2 := by
  obtain ⟨n, hn⟩ := t
  cases n with
  | zero => exact rfl
  | succ n => exact (dif_pos h0).trans ((dif_neg h2).trans rfl)

/-- outsAt at a middle strip: over what the point before left in the accumulator. -/
theorem outsAt_B (c : Dev nD) (t : Fin cfg0.N) (h0 : ¬t.val % 16 = 0) (h2 : ¬t.val % 16 = 15) :
    outsAt V c t.val t.isLt = ptB V c t h0 h2 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

/-- outsAt at a last strip of a half: over what the point before left in the accumulator. -/
theorem outsAt_C (c : Dev nD) (t : Fin cfg0.N) (h0 : ¬t.val % 16 = 0) (h2 : t.val % 16 = 15) :
    outsAt V c t.val t.isLt = ptC V c t h0 h2 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

/-! ## The region's invariant -/

/-- Before position n: at the first point what the launch hands the region; afterwards the accumulator at what the
    point before left in it, the untouched scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2.2) ∗ restR (F := F) c) ∗ (∃ r, prngReg c r)) := by
  cases n with
  | zero => exact absurd rfl hz
  | succ n => rfl

/-! ## The pipeline's proof data -/

/-- The proof data of the first pipeline on core c: the arrays as the region finds them; after the body at point t
    the input's buffer at its strip and the outputs' at outsAt; the invariant PhiS; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem owed_zero (c : Dev nD) (t : Fin (cfg0.N + 1)) : (dat V c).owed t = 0 := rfl

theorem rec_univ (c : Dev nD) (t : Fin (cfg0.N + 1)) : (dat V c).recorded t = Set.univ := rfl

theorem q_full (c : Dev nD) (w : Fin cfg0.W) : (dat V c).q w = fullShare := rfl

theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem after_2 (c : Dev nD) (t : Fin cfg0.N) : (dat V c).after 2 t = (outsAt V c t.val t.isLt).2.1 := by dsimp only [dat]

theorem before_0 (c : Dev nD) (t : Fin cfg0.N) (d) : (dat V c).before 0 t d = iblk V c 0 t :=
  before_0_of V (dat V c) (A_eq V c 0) (after_0 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input's memref holds the strip; the closed forms say which case the point is in; the
    invariant hands the body the accumulator at what the point before left (at anything at the first point) and takes
    it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  by_cases h0 : t.val % 16 = 0
  · by_cases h2 : t.val % 16 = 15
    · exfalso; omega
    · rw [Dat.leavesExact_idle (dat V c) 2 t (idleAt_2 t (fun h => h2 ((hcond2 t).mp h))) (noFlush_2 t (fun h => h2 ((hcond2 t).mp h)))]
      rw [outsAt_A V c t h0 h2]
      unfold ptA out1_A sout_A; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩⟩
        iapply ((kernelRun_A c (grid0.coords t) _ _ _ _ _ _ _ _ ((hcond0 t).mpr h0) (fun h => h2 ((hcond2 t).mp h)) (iblk V c 0 t)).2.2 _ Set.univ _)
        isplitl [H0]; · iexact H0
        isplitl [H1]; · iexists _; iexact H1
        isplitl [H2]; · iexact H2
        isplitl [HS]; · iexact HS
        iintro ⟨H0, ⟨%e1, H1⟩, H2, ⟨%es, HS⟩⟩
        isplitl [HS HR Hg]
        · isplitl [HS HR]
          · isplitl [HS]
            · unfold owns; iexists _; isplitr
              swap; · iexact HS
              ipureintro; exact View.read_writes_of_cover _ _ _ _ _ (scover_A c _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover1_A c _ _ _ _ _ _ _ _ _ _ _ _)
        iexists _; iexact H2
      · rw [PhiS_castSucc V c t, PhiS_pos V c _ _ hz]
        iintro ⟨⟨⟨HS, HR⟩, Hg⟩, Ho, ⟨%d0, H0⟩, ⟨%d1, H1⟩, ⟨%d2, H2⟩⟩
        iapply ((kernelRun_A c (grid0.coords t) _ _ _ _ _ _ _ _ ((hcond0 t).mpr h0) (fun h => h2 ((hcond2 t).mp h)) (iblk V c 0 t)).2.2 _ Set.univ _)
        isplitl [H0]; · iexact H0
        isplitl [H1]; · iexists _; iexact H1
        isplitl [H2]; · iexact H2
        isplitl [HS]; · iexists _; iexact HS
        iintro ⟨H0, ⟨%e1, H1⟩, H2, ⟨%es, HS⟩⟩
        isplitl [HS HR Hg]
        · isplitl [HS HR]
          · isplitl [HS]
            · unfold owns; iexists _; isplitr
              swap; · iexact HS
              ipureintro; exact View.read_writes_of_cover _ _ _ _ _ (scover_A c _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover1_A c _ _ _ _ _ _ _ _ _ _ _ _)
        iexists _; iexact H2
  · have hz : t.val ≠ 0 := fun h => h0 (by rw [h])
    by_cases h2 : t.val % 16 = 15
    · rw [show (dat V c).leavesExact 2 t = owns (c : Thread nD τ) (ms2 t) fullShare ((dat V c).after 2 t) from by
        unfold Dat.leavesExact; rw [liveAt_2 t ((hcond2 t).mpr h2)], after_2]
      rw [outsAt_C V c t h0 h2]
      unfold ptC out1_C out2_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid0.coords t) _ _ _ _ _ _ _ _ (fun h => h0 ((hcond0 t).mp h)) ((hcond2 t).mpr h2) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C c _ _ _ _ _ _ _ _ _ _ _ _ _)
      unfold owns; iexists _; isplitr
      swap; · iexact H2
      ipureintro; exact View.read_writes_of_cover _ _ _ _ _ (cover2_C c _ _ _ _ _ _ _ _ _ _ _ _ _)
    · rw [Dat.leavesExact_idle (dat V c) 2 t (idleAt_2 t (fun h => h2 ((hcond2 t).mp h))) (noFlush_2 t (fun h => h2 ((hcond2 t).mp h)))]
      rw [outsAt_B V c t h0 h2]
      unfold ptB out1_B sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid0.coords t) _ _ _ _ _ _ _ _ (fun h => h0 ((hcond0 t).mp h)) (fun h => h2 ((hcond2 t).mp h)) (iblk V c 0 t) _).2.2 _ Set.univ _)
      isplitl [H0]; · iexact H0
      isplitl [H1]; · iexists _; iexact H1
      isplitl [H2]; · iexact H2
      isplitl [HS]; · iexact HS
      iintro ⟨H0, ⟨%e1, H1⟩, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_B c _ _ _ _ _ _ _ _ _ _ _ _ _)
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed: the accumulator's named contents
    are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.Kernel.R0

end
-- ==== Proof.B1Runs.lean ====
import proofs.«174135_j60627758350707_2_alg».proof.Proof.Gen.Kernel.Launch
import proofs.«174135_j60627758350707_2_alg».proof.Proof.Gen.Kernel.Skeleton
import proofs.«174135_j60627758350707_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second pallas_call (grid 8 × 16, point t = 16·i0 + i1): what its three control cases share.
Everything is stated at the buffer contents `V` the TensorCore holds when the region is entered. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an input that is
    not fetched at a point has the block index it had at the point before), for any proof data whose array is the
    entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an input that is
    not fetched at a point has the block index it had at the point before), for any proof data whose array is the
    entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an input that is
    not fetched at a point has the block index it had at the point before), for any proof data whose array is the
    entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an input that is
    not fetched at a point has the block index it had at the point before), for any proof data whose array is the
    entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an input that is
    not fetched at a point has the block index it had at the point before), for any proof data whose array is the
    entry contents and whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "The inner coordinate is 0": the accumulator is zeroed. -/
abbrev cond0 (i : grid1.Coords) : Prop := (Scalar.cmpi .ne (Scalar.extui (Scalar.cmpi .eq (BitVec.ofNat 32 (i 1).val) 0#32)) 0#32) = 1#1
/-- It holds at the points t with t mod 16 = 0. -/
theorem hcond0 : ∀ t : Fin cfg1.N, cond0 (grid1.coords t) ↔ t.val % 16 = 0 :=
  (by decide +kernel : ∀ t : Fin grid1.N, cond0 (grid1.coords t) ↔ t.val % 16 = 0)

/-- "The inner coordinate is 15": the row block's result is stored. -/
abbrev cond2 (i : grid1.Coords) : Prop := k1_cond2 i = 1#1
/-- It holds at the points t with t mod 16 = 15. -/
theorem hcond2 : ∀ t : Fin cfg1.N, cond2 (grid1.coords t) ↔ t.val % 16 = 15 :=
  (by decide +kernel : ∀ t : Fin grid1.N, cond2 (grid1.coords t) ↔ t.val % 16 = 15)

/-! ## Where the windows are idle -/

/-- The five inputs are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
/-- Where the result is not stored (cases A and B) the output window is idle and not written back. -/
theorem idleAt_5_A : ∀ t : Fin cfg1.N, cond0 (grid1.coords t) → ¬cond2 (grid1.coords t) → cfg1.idle 5 (grid1.coords t) = true := by decide +kernel
theorem noFlush_5_A : ∀ t : Fin cfg1.N, cond0 (grid1.coords t) → ¬cond2 (grid1.coords t) → (cfg1.win 5).flush t = false := by decide +kernel
theorem idleAt_5_B : ∀ t : Fin cfg1.N, ¬cond0 (grid1.coords t) → ¬cond2 (grid1.coords t) → cfg1.idle 5 (grid1.coords t) = true := by decide +kernel
theorem noFlush_5_B : ∀ t : Fin cfg1.N, ¬cond0 (grid1.coords t) → ¬cond2 (grid1.coords t) → (cfg1.win 5).flush t = false := by decide +kernel
/-- Where it is stored (case C) the output window is live. -/
theorem liveAt_5_C : ∀ t : Fin cfg1.N, ¬cond0 (grid1.coords t) → cond2 (grid1.coords t) → cfg1.idle 5 (grid1.coords t) = false := by decide +kernel

/-! ## The memrefs the body is called with -/

/-- One staging buffer of the output window, through which its contents are stated (the choice does not matter). -/
abbrev VO5 : View sig .tc .vmem S1024 .f32 := (Memref.whole cc1_stg5_0 : Memref sig .tc .vmem S1024 .f32).view
/-- Each window's current staging memref at point `t`, and its wholeness. -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024 .f32 := win1_5.stage (cfg1.slots t 5)
abbrev hs5 (t : Fin cfg1.N) : (ms5 t).IsWhole := hstage1_5 ((cfg1.slots t 5).cast nbuf1_5)
/-- The accumulator: a whole scoped buffer of the kernel's own, carried from point to point. -/
abbrev scM : Memref sig .tc .vmem S1024x512 .f32 := Memref.whole cc1_scratch0
abbrev VS : View sig .tc .vmem S1024x512 .f32 := scM.view

/-- One of the core's scoped buffers that this region neither stages nor touches, at some contents. -/
abbrev oth (c : Dev nD) (b : Ref sig .tc) : sProp 𝕄 :=
  iprop(∃ f : Buf (Elt F) ((c : Thread nD τ).loc b), ((c : Thread nD τ).loc b) ↦{fullShare} f)

/-- The region's invariant as the launch hands it over: the first region's seven scoped buffers at anything, the
    accumulator owned at some contents, the generator register at some state. -/
theorem PhiA_eq (c : Dev nD) :
    (Pipeline.ΦA spec1 c : sProp 𝕄)
      = iprop(iprop(oth c cc0_stg0_0 ∗ oth c cc0_stg0_1 ∗ oth c cc0_stg1_0 ∗ oth c cc0_stg1_1 ∗ oth c cc0_stg2_0 ∗ oth c cc0_stg2_1 ∗ oth c cc0_scratch0
          ∗ (∃ d, owns (c : Thread nD τ) scM fullShare d)) ∗ (∃ r, prngReg c r)) := by
  unfold Pipeline.ΦA; rw [scopedRest1_eq]; simp only [scM, owns_whole]; try rfl

end Cert.Kernel.R1

end
-- ==== Proof.B1RunA.lean ====
import proofs.«174135_j60627758350707_2_alg».proof.Proof.B1Runs

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A (the inner coordinate is 0 and not 15: the accumulator, held at anything, is zeroed and then receives the point's product; the output window is not touched and is handed back as found).
    On whole memrefs, the five inputs at their contents, the body runs to a continuation that holds the inputs as they
    were, the accumulator with its stores written (the pieces `LS`, last first): the pieces are what the run finds. -/
noncomputable def kernelRun_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) :
    Σ' (L5 : List (View.Piece (Elt F) S1024 .f32)), { LS : List (View.Piece (Elt F) S1024x512 .f32) //
      ∀ (xi5 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.B1RunB.lean ====
import proofs.«174135_j60627758350707_2_alg».proof.Proof.B1RunA

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B (the inner coordinate is neither 0 nor 15: the accumulator, held at what the point before left, receives the point's product; the output window is not touched and is handed back as found).
    On whole memrefs, the five inputs at their contents, the body runs to a continuation that holds the inputs as they
    were, the accumulator with its stores written (the pieces `LS`, last first): the pieces are what the run finds. -/
noncomputable def kernelRun_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) :
    Σ' (L5 : List (View.Piece (Elt F) S1024 .f32)), { LS : List (View.Piece (Elt F) S1024x512 .f32) //
      ∀ (xi5 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.R1

end
-- ==== Proof.B1RunC.lean ====
import proofs.«174135_j60627758350707_2_alg».proof.Proof.B1RunB

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C (the inner coordinate is 15: the accumulator, held at what the point before left, receives the point's product, and the row block's result is stored into the output window, held at anything).
    On whole memrefs, the five inputs at their contents, the body runs to a continuation that holds the inputs as they
    were, the accumulator with its stores written (the pieces `LS`, last first) and the output window with its store written (the pieces `L5`): the pieces are what the run finds. -/
noncomputable def kernelRun_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) :
    Σ' (L5 : List (View.Piece (Elt F) S1024 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.R1

end
-- ==== Proof.B1Frame.lean ====
import proofs.«174135_j60627758350707_2_alg».proof.Proof.B1RunC

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second pallas_call: what its output window and its accumulator hold point by point, the pipeline's
proof data at the entry contents `V`, and the body obligation. The accumulator after point t = 16·i0 + i1 is
what the points 16·i0 … t of the row block i0 have summed into it; the output block is stored at i1 = 15. -/

variable (V : (c : Dev nD) → (b : Ref sig .tc) → Buf (Elt F) ((c : Thread nD τ).loc b))

/-! ## What each case leaves -/

/-- The accumulator's stores in case A cover it (each is a store of the whole buffer). -/
theorem scover_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) (y : S1024x512.Idx) :
    ∃ pc ∈ (kernelRun_A c i arg2 harg2 arg3 harg3 arg4 harg4 arg5 harg5 arg6 harg6 arg7 harg7 arg8 harg8 hc0 hc2 x0 x1 x2 x3 x4).2.1, y ∈ pc.1.set :=
  View.cover_of_tiledL (kernelRun_A c i arg2 harg2 arg3 harg3 arg4 harg4 arg5 harg5 arg6 harg6 arg7 harg7 arg8 harg8 hc0 hc2 x0 x1 x2 x3 x4).2.1 S1024x512.size (by sl_kernel_rfl) y

/-- What case A leaves in the accumulator: its stores read back. -/
def sout_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) : Vec F S1024x512 .f32 :=
  VS.read (Elt F) (VS.writes (Elt F) VS.junk (kernelRun_A c i arg2 harg2 arg3 harg3 arg4 harg4 arg5 harg5 arg6 harg6 arg7 harg7 arg8 harg8 hc0 hc2 x0 x1 x2 x3 x4).2.1)

/-- The accumulator's stores in case B cover it (each is a store of the whole buffer). -/
theorem scover_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) (y : S1024x512.Idx) :
    ∃ pc ∈ (kernelRun_B c i arg2 harg2 arg3 harg3 arg4 harg4 arg5 harg5 arg6 harg6 arg7 harg7 arg8 harg8 hc0 hc2 x0 x1 x2 x3 x4 xs).2.1, y ∈ pc.1.set :=
  View.cover_of_tiledL (kernelRun_B c i arg2 harg2 arg3 harg3 arg4 harg4 arg5 harg5 arg6 harg6 arg7 harg7 arg8 harg8 hc0 hc2 x0 x1 x2 x3 x4 xs).2.1 S1024x512.size (by sl_kernel_rfl) y

/-- What case B leaves in the accumulator: its stores read back. -/
def sout_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) : Vec F S1024x512 .f32 :=
  VS.read (Elt F) (VS.writes (Elt F) VS.junk (kernelRun_B c i arg2 harg2 arg3 harg3 arg4 harg4 arg5 harg5 arg6 harg6 arg7 harg7 arg8 harg8 hc0 hc2 x0 x1 x2 x3 x4 xs).2.1)

/-- The accumulator's stores in case C cover it (each is a store of the whole buffer). -/
theorem scover_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) (y : S1024x512.Idx) :
    ∃ pc ∈ (kernelRun_C c i arg2 harg2 arg3 harg3 arg4 harg4 arg5 harg5 arg6 harg6 arg7 harg7 arg8 harg8 hc0 hc2 x0 x1 x2 x3 x4 xs).2.1, y ∈ pc.1.set :=
  View.cover_of_tiledL (kernelRun_C c i arg2 harg2 arg3 harg3 arg4 harg4 arg5 harg5 arg6 harg6 arg7 harg7 arg8 harg8 hc0 hc2 x0 x1 x2 x3 x4 xs).2.1 S1024x512.size (by sl_kernel_rfl) y

/-- What case C leaves in the accumulator: its stores read back. -/
def sout_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) : Vec F S1024x512 .f32 :=
  VS.read (Elt F) (VS.writes (Elt F) VS.junk (kernelRun_C c i arg2 harg2 arg3 harg3 arg4 harg4 arg5 harg5 arg6 harg6 arg7 harg7 arg8 harg8 hc0 hc2 x0 x1 x2 x3 x4 xs).2.1)

/-- The output window's store in case C covers its block. -/
theorem cover_C_5 (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) (y : S1024.Idx) :
    ∃ pc ∈ (kernelRun_C c i arg2 harg2 arg3 harg3 arg4 harg4 arg5 harg5 arg6 harg6 arg7 harg7 arg8 harg8 hc0 hc2 x0 x1 x2 x3 x4 xs).1, y ∈ pc.1.set :=
  View.cover_of_tiledL (kernelRun_C c i arg2 harg2 arg3 harg3 arg4 harg4 arg5 harg5 arg6 harg6 arg7 harg7 arg8 harg8 hc0 hc2 x0 x1 x2 x3 x4 xs).1 S1024.size (by sl_kernel_rfl) y

/-- What case C leaves in the output window's buffer: its store read back. -/
def out_C_5 (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) : Vec F S1024 .f32 :=
  VO5.read (Elt F) (VO5.writes (Elt F) VO5.junk (kernelRun_C c i arg2 harg2 arg3 harg3 arg4 harg4 arg5 harg5 arg6 harg6 arg7 harg7 arg8 harg8 hc0 hc2 x0 x1 x2 x3 x4 xs).1)

/-- The output window's buffer where the body does not store into it: nothing reads this value (the window is idle
    there and not written back). -/
def junk5 : Vec F S1024 .f32 := VO5.read (Elt F) VO5.junk

/-! ## The cases at a grid point -/

/-- Case A at point `t` (inner coordinate 0): the accumulator after the point, from the point's blocks. -/
def soutA_at (c : Dev nD) (t : Fin cfg1.N) (h0 : t.val % 16 = 0) (h2 : ¬t.val % 16 = 15) : Vec F S1024x512 .f32 :=
  sout_A c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h2 ((hcond2 t).mp h)) (iblk V c 0 t) (iblk V c 1 t) (iblk V c 2 t) (iblk V c 3 t) (iblk V c 4 t)
/-- Case B at point `t` (inner coordinate 1 … 14): the accumulator after the point, from the point's blocks and
    what the point before left in it. -/
def soutB_at (c : Dev nD) (t : Fin cfg1.N) (h0 : ¬t.val % 16 = 0) (h2 : ¬t.val % 16 = 15) (xs : Vec F S1024x512 .f32) : Vec F S1024x512 .f32 :=
  sout_B c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h2 ((hcond2 t).mp h)) (iblk V c 0 t) (iblk V c 1 t) (iblk V c 2 t) (iblk V c 3 t) (iblk V c 4 t) xs
/-- Case C at point `t` (inner coordinate 15): the accumulator after the point, -/
def soutC_at (c : Dev nD) (t : Fin cfg1.N) (h0 : ¬t.val % 16 = 0) (h2 : t.val % 16 = 15) (xs : Vec F S1024x512 .f32) : Vec F S1024x512 .f32 :=
  sout_C c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond2 t).mpr h2) (iblk V c 0 t) (iblk V c 1 t) (iblk V c 2 t) (iblk V c 3 t) (iblk V c 4 t) xs
/-- and the output block stored there. -/
def outC_at (c : Dev nD) (t : Fin cfg1.N) (h0 : ¬t.val % 16 = 0) (h2 : t.val % 16 = 15) (xs : Vec F S1024x512 .f32) : Vec F S1024 .f32 :=
  out_C_5 c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond2 t).mpr h2) (iblk V c 0 t) (iblk V c 1 t) (iblk V c 2 t) (iblk V c 3 t) (iblk V c 4 t) xs

/-! ## What the output window and the accumulator hold after each point -/

/-- After the body at position `n`: (the output window's buffer, the accumulator) — the case the point is in, run on
    the point's blocks, the accumulator starting from what position `n - 1` left. -/
def outsAt (c : Dev nD) : (n : ℕ) → n < cfg1.N → Vec F S1024 .f32 × Vec F S1024x512 .f32
  | 0, hn => (junk5, soutA_at V c ⟨0, hn⟩ (Nat.zero_mod _) (fun h => by have h' : (0 : ℕ) % 16 = 15 := h; omega))
  | n + 1, hn =>
    if h0 : (n + 1) % 16 = 0 then
      if h2 : (n + 1) % 16 = 15 then
        False.elim (by omega)
      else
        (junk5, soutA_at V c ⟨n + 1, hn⟩ h0 h2)
    else
      if h2 : (n + 1) % 16 = 15 then
        (outC_at V c ⟨n + 1, hn⟩ h0 h2 (outsAt c n (Nat.lt_of_succ_lt hn)).2, soutC_at V c ⟨n + 1, hn⟩ h0 h2 (outsAt c n (Nat.lt_of_succ_lt hn)).2)
      else
        (junk5, soutB_at V c ⟨n + 1, hn⟩ h0 h2 (outsAt c n (Nat.lt_of_succ_lt hn)).2)

/-- `outsAt` at a point with inner coordinate 0. -/
theorem outsAt_A (c : Dev nD) (t : Fin cfg1.N) (h0 : t.val % 16 = 0) (h2 : ¬t.val % 16 = 15) :
    outsAt V c t.val t.isLt = (junk5, soutA_at V c t h0 h2) := by
  obtain ⟨n, hn⟩ := t
  cases n with
  | zero => exact rfl
  | succ n => exact (dif_pos h0).trans ((dif_neg h2).trans rfl)

/-- `outsAt` at a point with inner coordinate 1 … 14: over what the point before left. -/
theorem outsAt_B (c : Dev nD) (t : Fin cfg1.N) (h0 : ¬t.val % 16 = 0) (h2 : ¬t.val % 16 = 15) :
    outsAt V c t.val t.isLt = (junk5, soutB_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans rfl)

/-- `outsAt` at a point with inner coordinate 15: over what the point before left. -/
theorem outsAt_C (c : Dev nD) (t : Fin cfg1.N) (h0 : ¬t.val % 16 = 0) (h2 : t.val % 16 = 15) :
    outsAt V c t.val t.isLt = (outC_at V c t h0 h2 (outsAt V c (t.val - 1) (Nat.lt_of_le_of_lt (Nat.sub_le _ _) t.isLt)).2, soutC_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans rfl)

/-! ## The region's invariant -/

/-- Before position `n`: at the first point what the launch hands over; afterwards the same with the accumulator at
    what the point before left in it. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c (n - 1) (by omega)).2)) ∗ (∃ r, prngReg c r)) := by
  cases n with
  | zero => exact absurd rfl hz
  | succ n => rfl

/-! ## The pipeline's proof data -/

/-- The proof data on core `c`: the arrays as the region finds them; after the body at point `t` each input's buffer
    at its block and the output's at `outsAt`; the invariant `PhiS`; nothing owed. The vector r is staged by two
    windows (by row block and by column block), each holding half of the array's share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨2, _⟩ => fullShare.left
    | ⟨3, _⟩ => fullShare.right
    | _ => fullShare
  owed _ := 0

theorem A_eq (c : Dev nD) (w : Fin cfg1.W) : (dat V c).A w = V c (Pipeline.arrRef spec1 w) := by
  dsimp only [dat]

theorem owed_zero (c : Dev nD) (t : Fin (cfg1.N + 1)) : (dat V c).owed t = 0 := rfl

theorem rec_univ (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- The inputs are handed back at their blocks. -/
theorem leaves_0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_0 t], after_0]
theorem leaves_1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_1 t], after_1]
theorem leaves_2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_2 t], after_2]
theorem leaves_3 (c : Dev nD) (t : Fin cfg1.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt_3 t], after_3]
theorem leaves_4 (c : Dev nD) (t : Fin cfg1.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [liveAt_4 t], after_4]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the inner coordinate says which case the point is
    in; the invariant hands the body the accumulator (at anything at the very first point, else at what the point
    before left) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 128 := lt_of_lt_of_eq t.isLt (show cfg1.N = 128 from N_1)
  by_cases h0 : t.val % 16 = 0
  · by_cases h2 : t.val % 16 = 15
    · exfalso; omega
    · rw [Dat.leavesExact_idle (dat V c) 5 t (idleAt_5_A t ((hcond0 t).mpr h0) (fun h => h2 ((hcond2 t).mp h))) (noFlush_5_A t ((hcond0 t).mpr h0) (fun h => h2 ((hcond2 t).mp h)))]
      rw [outsAt_A V c t h0 h2]
      unfold soutA_at sout_A; (try dsimp only)
      by_cases hz : t.val = 0
      · rw [PhiS_castSucc V c t, PhiS_zero V c _ _ hz, PhiA_eq]
        iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond0 t).mpr h0) (fun h => h2 ((hcond2 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 HS Hg]
        · isplitl [R1 R2 R3 R4 R5 R6 R7 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS
            ipureintro; exact View.read_writes_of_cover _ _ _ _ _ (scover_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS_castSucc V c t, PhiS_pos V c _ _ hz]
        iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond0 t).mpr h0) (fun h => h2 ((hcond2 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R1 R2 R3 R4 R5 R6 R7 HS Hg]
        · isplitl [R1 R2 R3 R4 R5 R6 R7 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS
            ipureintro; exact View.read_writes_of_cover _ _ _ _ _ (scover_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h2 : t.val % 16 = 15
    · rw [show (dat V c).leavesExact 5 t = owns (c : Thread nD τ) (ms5 t) fullShare ((dat V c).after 5 t) from by
        unfold Dat.leavesExact; rw [liveAt_5_C t (fun h => h0 ((hcond0 t).mp h)) ((hcond2 t).mpr h2)], after_5]
      rw [outsAt_C V c t h0 h2]
      unfold outC_at soutC_at out_C_5 sout_C; (try dsimp only)
      have hz : t.val ≠ 0 := by omega
      rw [PhiS_castSucc V c t, PhiS_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (fun h => h0 ((hcond0 t).mp h)) ((hcond2 t).mpr h2) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS
          ipureintro; exact View.read_writes_of_cover _ _ _ _ _ (scover_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C_5 c _ _ _ _ _ _ _ _ _ _ _ _ _ _ _ _ _ _ _ _ _ _ _)

    · rw [Dat.leavesExact_idle (dat V c) 5 t (idleAt_5_B t (fun h => h0 ((hcond0 t).mp h)) (fun h => h2 ((hcond2 t).mp h))) (noFlush_5_B t (fun h => h0 ((hcond0 t).mp h)) (fun h => h2 ((hcond2 t).mp h)))]
      rw [outsAt_B V c t h0 h2]
      unfold soutB_at sout_B; (try dsimp only)
      have hz : t.val ≠ 0 := by omega
      rw [PhiS_castSucc V c t, PhiS_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (fun h => h0 ((hcond0 t).mp h)) (fun h => h2 ((hcond2 t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS
          ipureintro; exact View.read_writes_of_cover _ _ _ _ _ (scover_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, R7, HS⟩, Hg⟩
  isplitl [R1 R2 R3 R4 R5 R6 R7 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.Kernel.R1

end
-- ==== Proof.SharedB1.lean ====
import proofs.«174135_j60627758350707_2_alg».proof.Proof.Gen.Kernel.Launch
import Idealize.ShloMosaic.Lib.Pipeline.Regions
import Idealize.ShloMosaic.Lib.Pipeline.RegionsLoop
import Idealize.ShloMosaic.Lib.Pipeline.Frame

/-! # The second call's arrays, one of them read through two windows

The second pallas_call reads the vector `r` (the inverse square roots of the degrees, buffer `main_v14`)
through TWO of its windows: window 2 cuts it in blocks of 1024 entries along the row index of the adjacency
matrix, window 3 in blocks of 512 entries along the contraction index. The other arrays are the adjacency
matrix (`main_arg0`, window 0), the features (`main_arg1`, window 1), the degrees (`main_v8`, window 4) and
the per-row results (`main_v15`, window 5, the output). The five buffers are pairwise distinct, but the six
windows' arrays are not, so the whole share of `r`'s buffer is dealt to the two windows by HALVES: the left
half to window 2, the right half to window 3. Both windows only read, so half a share each is enough, and
the two halves put together are the whole buffer again, at unchanged contents.

`arrays1_eq` lists the call's arrays under that deal as six points-to assertions; `entry1` splits them out of
a core's unscoped buffers, `exit1` puts them back. -/

noncomputable section

namespace Cert.Kernel.Shared1

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)

/-- Buffer `b` of the TensorCore, all of it, held at the share `q` at contents `f`. -/
abbrev pt (q : PosShare TreeShare) (b : Ref sig .tc) (f : Buf (Elt F) ((c.tc : Thread nD τ).loc b)) : sProp 𝕄 :=
  ((c.tc : Thread nD τ).loc b) ↦{q} f

/-- A whole buffer is its two halves, at the same contents. -/
theorem halves (b : Ref sig .tc) (f : Buf (Elt F) ((c.tc : Thread nD τ).loc b)) :
    (pt c fullShare b f : sProp 𝕄) ⊣⊢ iprop(pt c fullShare.left b f ∗ pt c fullShare.right b f) :=
  pointsTo_share (PosShare.mem_left_op_right fullShare)

/-- The buffers behind the second call's windows are five: the adjacency matrix, the features, `r`, the degrees
    and the output. -/
theorem arrBufs1_eq (V : (b : Ref sig .tc) → Buf (Elt F) ((c.tc : Thread nD τ).loc b)) :
    (Pipeline.arrBufs (Ix := Unit) (Name := ℕ) (U := UR sig nD τ) (Lvl := ℕ) spec1 c V : sProp 𝕄)
      = iprop(pt c fullShare main_arg0 (V main_arg0) ∗ pt c fullShare main_arg1 (V main_arg1)
          ∗ pt c fullShare main_v14 (V main_v14) ∗ pt c fullShare main_v8 (V main_v8)
          ∗ pt c fullShare main_v15 (V main_v15)) := by
  unfold Pipeline.arrBufs
  rw [bigSep_eq_bigSepL_of_eq [main_arg0, main_arg1, main_v14, main_v8, main_v15] (by decide) (by decide)]
  rfl

/-- The second call's arrays under the deal by halves, window by window: the adjacency matrix, the features, the
    degrees and the output each whole; `r` twice, the left half for window 2 and the right half for window 3. -/
theorem arrays1_eq (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (dat.arrays A : sProp 𝕄)
      = iprop(pt c fullShare main_arg0 (V main_arg0) ∗ pt c fullShare main_arg1 (V main_arg1)
          ∗ pt c fullShare.left main_v14 (V main_v14) ∗ pt c fullShare.right main_v14 (V main_v14)
          ∗ pt c fullShare main_v8 (V main_v8) ∗ pt c fullShare main_v15 (V main_v15)) := by
  have s0 : dat.share 0 = fullShare := hq0
  have s1 : dat.share 1 = fullShare := hq1
  have s2 : dat.share 2 = fullShare.left := hq2
  have s3 : dat.share 3 = fullShare.right := hq3
  have s4 : dat.share 4 = fullShare := hq4
  have s5 : dat.share 5 = fullShare := rfl
  unfold Pipeline.Dat.arrays
  rw [bigSep_W1, (arr_whole1 0).set_eq_univ, (arr_whole1 1).set_eq_univ, (arr_whole1 2).set_eq_univ,
    (arr_whole1 4).set_eq_univ, (arr_whole1 5).set_eq_univ,
    s0, s1, s2, s3, s4, s5, hA 0, hA 1, hA 2, hA 3, hA 4, hA 5]

/-- A core's unscoped buffers are the five buffers behind the second call's windows and the rest. -/
theorem unscopedBufs_split1 (V : (b : Ref sig .tc) → Buf (Elt F) ((c.tc : Thread nD τ).loc b)) :
    (unscopedBufs c V : sProp 𝕄)
      = iprop(Pipeline.arrBufs spec1 c V ∗ Pipeline.unscopedRest spec1 c V) :=
  Pipeline.unscopedBufs_split₀ (fun _ : Unit => cfg1) () winFacts₀1.arr_unscoped c V

/-- ENTRY: a core's unscoped buffers at contents `V` are the second call's arrays at the contents read off `V` —
    `r`'s buffer cut in its two halves, one for each window on it — and the unscoped rest. -/
theorem entry1 (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (unscopedBufs c V : sProp 𝕄) ⊢ iprop(dat.arrays A ∗ Pipeline.unscopedRest spec1 c V) := by
  rw [unscopedBufs_split1, arrBufs1_eq, arrays1_eq c dat hq0 hq1 hq2 hq3 hq4 V A hA]
  iintro ⟨⟨H0, H1, H14, H8, H15⟩, Hrest⟩
  ihave H := (halves c main_v14 (V main_v14)).1 $$ H14
  icases H with ⟨HL, HR⟩
  isplitr [Hrest]
  · isplitl [H0]; · iexact H0
    isplitl [H1]; · iexact H1
    isplitl [HL]; · iexact HL
    isplitl [HR]; · iexact HR
    isplitl [H8]; · iexact H8
    iexact H15
  iexact Hrest

/-- EXIT: the second call's arrays at contents `A'` — the two halves of `r`'s buffer at the same contents, as they
    are when both are read off one valuation `V'` — and the unscoped rest at `V` are the core's unscoped buffers at
    `V'`, when `V'` agrees with `V` off the five buffers. -/
theorem exit1 (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V V' : (b : Ref sig .tc) → Buf (Elt F) ((c.tc : Thread nD τ).loc b))
    (A' : (w : Fin cfg1.W) → Buf (Elt F) ((cfg1.win w).arr.view.loc (c.tc : Thread nD τ)))
    (hA' : ∀ w, A' w = V' (Pipeline.arrRef spec1 w))
    (hrest : ∀ b, b ∉ Finset.univ.image (Pipeline.arrRef spec1) → V' b = V b) :
    iprop(dat.arrays A' ∗ Pipeline.unscopedRest spec1 c V) ⊢ (unscopedBufs c V' : sProp 𝕄) := by
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [unscopedBufs_split1, arrBufs1_eq, arrays1_eq c dat hq0 hq1 hq2 hq3 hq4 V' A' hA', hr]
  iintro ⟨⟨H0, H1, HL, HR, H8, H15⟩, Hrest⟩
  ihave H14 := (halves c main_v14 (V' main_v14)).2 $$ [HL HR]
  · isplitl [HL]; · iexact HL
    iexact HR
  isplitr [Hrest]
  · isplitl [H0]; · iexact H0
    isplitl [H1]; · iexact H1
    isplitl [H14]; · iexact H14
    isplitl [H8]; · iexact H8
    iexact H15
  iexact Hrest

end Cert.Kernel.Shared1

end
-- ==== Proof.KernelRegionsB.lean ====
/-
  The two pallas_calls' proof data put into the run of @main: pallas_call 0's and pallas_call 1's arrays, body
  obligations and invariants, and pallas_call 1's array shared by two windows held by halves.
-/
import proofs.«174135_j60627758350707_2_alg».proof.Proof.AssemblyB
import proofs.«174135_j60627758350707_2_alg».proof.Proof.B0Frame
import proofs.«174135_j60627758350707_2_alg».proof.Proof.B1Frame
import proofs.«174135_j60627758350707_2_alg».proof.Proof.SharedB1

set_option maxRecDepth 16384

noncomputable section

namespace Cert.Kernel.Asm

open Cert.Kernel Cert.Kernel.Gen
open Idealize.ShloMosaic Idealize.ShloMosaic.TcCoe
open Idealize.SL Idealize.SL.RA Idealize.SL.BI
open scoped Idealize.SL.BI
open Idealize.SL.Sem
open Idealize.ShloMosaic.Pipeline (Dat BodyObligation)

variable {F : FTy → Type} [FloatOps F]

/-- The regions' proof data and obligations. -/
def regs : Regions (F := F) where
  dat0 := R0.dat
  dat1 := R1.dat
  A0 := R0.A_eq
  A1 := R1.A_eq
  q0 := fun _ _ _ => rfl
  owed0 := fun _ _ _ => rfl
  owed1 := fun _ _ _ => rfl
  rec0 := fun _ _ _ => rfl
  rec1 := fun _ _ _ => rfl
  body0 := R0.body_obligation
  body1 := R1.body_obligation
  in0 := R0.hin
  out0 := R0.hout
  in1 := R1.hin
  out1 := R1.hout
  entry1 := fun V c => Shared1.entry1 c (R1.dat V c) rfl rfl rfl rfl rfl (V c) (R1.dat V c).A (fun w => R1.A_eq V c w)
  exit1 := fun V V' c Fw hF hrest => Shared1.exit1 c (R1.dat V c) rfl rfl rfl rfl rfl (V c) (V' c) Fw hF hrest

end Cert.Kernel.Asm

end
-- ==== Proof.Assembly.lean ====
/-
  The two pallas_calls and the host lines between them as ONE run of @main: the buffer contents at every boundary
  as a fold from the launch memory (a host stretch applies its operations; a region leaves its output arrays at what
  its write-backs assemble and every other buffer as it found it), each region entered from the contents the fold
  has reached, and the final memory read against the last contents — every unscoped buffer, the result and the two
  argument arrays among them. Stated over any proof data for the two pipelines that satisfy the regions' obligations.
-/
import proofs.«174135_j60627758350707_2_alg».proof.Proof.Gen.KernelIdeal.Launch
import proofs.«174135_j60627758350707_2_alg».proof.Proof.Gen.KernelIdeal.Skeleton
import proofs.«174135_j60627758350707_2_alg».proof.Proof.Gen.KernelIdeal.Points
import proofs.«174135_j60627758350707_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A TensorCore's buffer contents as a region finds them. -/
abbrev Entry := (c : Dev nD) → (b : Ref sig .tc) → Buf (Elt F) ((c : Thread nD τ).loc b)

variable (m : (ℓ : Loc nD τ sig) → Buf (Elt F) ℓ) (ρ : Dev nD → PrngReg)

/-- What the assembly needs of the two regions' proof data: arrays read off the entry contents, nothing owed, the body
    obligation, the class invariant in at the first point and out after the last; region 0 holds its arrays whole,
    region 1 holds the array its windows 2 and 3 share by halves. -/
structure Regions where
  dat0 : Entry (F := F) → (c : Dev nD) → Dat τ (Elt F) Unit ℕ (UR sig nD τ) ℕ cfg0 c
  dat1 : Entry (F := F) → (c : Dev nD) → Dat τ (Elt F) Unit ℕ (UR sig nD τ) ℕ cfg1 c
  A0 : ∀ V c w, (dat0 V c).A w = V c (Pipeline.arrRef spec0 w)
  A1 : ∀ V c w, (dat1 V c).A w = V c (Pipeline.arrRef spec1 w)
  q0 : ∀ V c w, (dat0 V c).q w = fullShare
  owed0 : ∀ V c t, (dat0 V c).owed t = 0
  owed1 : ∀ V c t, (dat1 V c).owed t = 0
  rec0 : ∀ V c t, (dat0 V c).recorded t = Set.univ
  rec1 : ∀ V c t, (dat1 V c).recorded t = Set.univ
  body0 : ∀ V c, BodyObligation (dat0 V c) (defs₀ (F := F)) Variants.none () Set.univ
  body1 : ∀ V c, BodyObligation (dat1 V c) (defs₀ (F := F)) Variants.none () Set.univ
  in0 : ∀ V c, (Pipeline.ΦA spec0 c : sProp 𝕄) ⊢ (dat0 V c).Φ 0
  out0 : ∀ V c, (dat0 V c).Φ (Fin.last cfg0.N) ⊢ (Pipeline.ΦA spec0 c : sProp 𝕄)
  in1 : ∀ V c, (Pipeline.ΦA spec1 c : sProp 𝕄) ⊢ (dat1 V c).Φ 0
  out1 : ∀ V c, (dat1 V c).Φ (Fin.last cfg1.N) ⊢ (Pipeline.ΦA spec1 c : sProp 𝕄)
  entry1 : ∀ (V : Entry (F := F)) (c : Dev nD),
    (unscopedBufs (Ix := Unit) (Name := ℕ) (U := UR sig nD τ) (Lvl := ℕ) c (V c) : sProp 𝕄)
      ⊢ iprop((dat1 V c).arrays (dat1 V c).A ∗ Pipeline.unscopedRest spec1 c (V c))
  exit1 : ∀ (V V' : Entry (F := F)) (c : Dev nD)
    (Fw : (w : Fin cfg1.W) → Buf (Elt F) ((cfg1.win w).arr.view.loc (c.tc : Thread nD τ))),
    (∀ w, Fw w = V' c (Pipeline.arrRef spec1 w)) →
    (∀ b, b ∉ Finset.univ.image (Pipeline.arrRef spec1) → V' c b = V c b) →
    iprop((dat1 V c).arrays Fw ∗ Pipeline.unscopedRest spec1 c (V c))
      ⊢ (unscopedBufs (Ix := Unit) (Name := ℕ) (U := UR sig nD τ) (Lvl := ℕ) c (V' c) : sProp 𝕄)

variable (R : Regions (F := F))

/-! ## The buffer contents at each boundary -/

abbrev W0 : Dev nD → Valuation τ sig (Elt F) := fun c b => (s₀ m ρ).mem ((c : Dev nD), b)
abbrev V0 : Entry (F := F) := fun c b => W0 m ρ c b
/-- After pallas_call 0: its arrays at what the pipeline leaves, every other buffer as entered. -/
def W1 (c : Dev nD) : Valuation τ sig (Elt F) :=
  Pipeline.withArrays spec0 c (W0 m ρ c) fun w => (R.dat0 (V0 m ρ) c).arrAt w cfg0.N
abbrev V1 : Entry (F := F) := fun c b => W1 m ρ R c b
abbrev W2 : Dev nD → Valuation τ sig (Elt F) := fun c => StableHlo.after hostOps1 (W1 m ρ R c)
abbrev W3 : Dev nD → Valuation τ sig (Elt F) := fun c => StableHlo.after hostOps1_1 (W2 m ρ R c)
abbrev W4 : Dev nD → Valuation τ sig (Elt F) := fun c => StableHlo.after hostOps1_2 (W3 m ρ R c)
abbrev W5 : Dev nD → Valuation τ sig (Elt F) := fun c => StableHlo.after hostOps1_3 (W4 m ρ R c)
abbrev V5 : Entry (F := F) := fun c b => W5 m ρ R c b

/-- After pallas_call 1: its output array at what the pipeline leaves, every other buffer as entered. -/
def W6 (c : Dev nD) : Valuation τ sig (Elt F) :=
  Function.update (W5 m ρ R c) main_v15 ((R.dat1 (V5 m ρ R) c).arrAt 5 cfg1.N : Buf (Elt F) ((c : Thread nD τ).loc main_v15))
abbrev V6 : Entry (F := F) := fun c b => W6 m ρ R c b
abbrev W7 : Dev nD → Valuation τ sig (Elt F) := fun c => StableHlo.after hostOps2 (W6 m ρ R c)

theorem W1_arr (c : Dev nD) (w : Fin cfg0.W) :
    W1 m ρ R c (Proc.devRef .tc (Pipeline.arrRef spec0 w)) = (R.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ R c (Proc.devRef .tc b) = W0 m ρ c (Proc.devRef .tc b) := by
  unfold W1; exact Pipeline.withArrays_of_ne spec0 c _ _ b hb
theorem hF0 (c : Dev nD) (w : Fin cfg0.W) : (R.dat0 (V0 m ρ) c).arrAt w cfg0.N = V1 m ρ R c (Pipeline.arrRef spec0 w) :=
  (W1_arr m ρ R c w).symm
theorem hrest0 (c : Dev nD) : ∀ b, b ∉ Finset.univ.image (Pipeline.arrRef spec0) → V1 m ρ R c b = V0 m ρ c b :=
  fun b hb => W1_of_ne m ρ R c b fun w e => hb (Finset.mem_image.mpr ⟨w, Finset.mem_univ _, e⟩)

theorem W6_out (c : Dev nD) : W6 m ρ R c (Proc.devRef .tc main_v15) = (R.dat1 (V5 m ρ R) c).arrAt 5 cfg1.N := by
  unfold W6; exact Function.update_self ..
theorem W6_of_ne (c : Dev nD) (b : Ref sig .tc) (hb : b ≠ main_v15) :
    W6 m ρ R c (Proc.devRef .tc b) = W5 m ρ R c (Proc.devRef .tc b) := by
  unfold W6; exact Function.update_of_ne (StableHlo.devRef_ne_of_ne hb) ..

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => R.dat0 (V0 m ρ) c
  | ⟨1, _⟩ => fun c => R.dat1 (V5 m ρ R) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
abbrev Tₙ (c : Dev nD) : sProp 𝕄 := iprop(StableHlo.held (c : Thread nD τ) (Pipeline.ucRefs τ sig) (W7 m ρ R c) ∗ ∃ r, prngReg c r)

set_option backward.isDefEq.respectTransparency.types false in
/-- Pallas_call 0 over the thread state: entered from every unscoped buffer at the launch contents, left at W1. -/
def reg0 : Pipeline.RegionSeg (pcfgs (F := F)) adm (pdats m ρ R) () defs₀ 𝒱₀ L lv 0 where
  win := launch0.win.to₀
  block_pos := launch0.block_pos
  stage_whole := launch0.stage_whole
  K := PEmpty
  osem k := k.elim
  ho := Pipeline.OwnSemFacts.none _
  hbody c := (R.body0 (V0 m ρ) c).loose
  hwaits := Pipeline.hwaits_of_owed_zero _ _ _ _ L lv 0 fun c t => R.owed0 (V0 m ρ) c t
  pre c := iprop(StableHlo.held (c : Thread nD τ) (Pipeline.ucRefs τ sig) (W0 m ρ c) ∗ Rr c)
  post c := iprop(StableHlo.held (c : Thread nD τ) (Pipeline.ucRefs τ sig) (W1 m ρ R c) ∗ Rr c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ R) launch0.win launch0.arr_whole c
      ((pdats m ρ R 0 c).share_full fun w => R.q0 (V0 m ρ) c w) (V0 m ρ c) fun w => R.A0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl (by rw [show (pdats m ρ R 0 c).recorded 0 = Set.univ from R.rec0 (V0 m ρ) c 0]; trivial)
      rw [show (pdats m ρ R 0 c).owed 0 = 0 from R.owed0 (V0 m ρ) c 0]
      iexact HO
    isplitl [Hp]; · iexact Hp
    iexact Hrest
  hin c := by
    refine BIBase.Entails.trans ?_ (R.in0 (V0 m ρ) c)
    unfold Pipeline.ΦA
    iintro ⟨Hp, -, Hr⟩
    isplitl [Hr]; · iexact Hr
    iexact Hp
  hout c := by
    rw [Pipeline.ownSems0_none]
    refine BIBase.Entails.trans (R.out0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ R) ((pdats m ρ R 0 c).share_full fun w => R.q0 (V0 m ρ) c w)
      (V0 m ρ c) (V1 m ρ R c) ((pdats m ρ R 0 c).arrAt · cfg0.N) (hF0 m ρ R c) (hrest0 m ρ R c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ R 0 c).owed (Fin.last _) = 0 from R.owed0 (V0 m ρ) c _]
    iexact HO

theorem hF1 (c : Dev nD) (w : Fin cfg1.W) : (R.dat1 (V5 m ρ R) c).arrAt w cfg1.N = V6 m ρ R c (Pipeline.arrRef spec1 w) := by
  match w with
  | ⟨0, _⟩ => exact (((R.dat1 (V5 m ρ R) c).arrAt_in 0 rfl _).trans (R.A1 (V5 m ρ R) c 0)).trans (W6_of_ne m ρ R c main_arg0 (by decide)).symm
  | ⟨1, _⟩ => exact (((R.dat1 (V5 m ρ R) c).arrAt_in 1 rfl _).trans (R.A1 (V5 m ρ R) c 1)).trans (W6_of_ne m ρ R c main_arg1 (by decide)).symm
  | ⟨2, _⟩ => exact (((R.dat1 (V5 m ρ R) c).arrAt_in 2 rfl _).trans (R.A1 (V5 m ρ R) c 2)).trans (W6_of_ne m ρ R c main_v14 (by decide)).symm
  | ⟨3, _⟩ => exact (((R.dat1 (V5 m ρ R) c).arrAt_in 3 rfl _).trans (R.A1 (V5 m ρ R) c 3)).trans (W6_of_ne m ρ R c main_v14 (by decide)).symm
  | ⟨4, _⟩ => exact (((R.dat1 (V5 m ρ R) c).arrAt_in 4 rfl _).trans (R.A1 (V5 m ρ R) c 4)).trans (W6_of_ne m ρ R c main_v8 (by decide)).symm
  | ⟨5, _⟩ => exact (W6_out m ρ R c).symm
theorem hrest1 (c : Dev nD) : ∀ b, b ∉ Finset.univ.image (Pipeline.arrRef spec1) → V6 m ρ R c b = V5 m ρ R c b :=
  fun b hb => W6_of_ne m ρ R c b fun e => hb (Finset.mem_image.mpr ⟨5, Finset.mem_univ _, e.symm⟩)

set_option backward.isDefEq.respectTransparency.types false in
/-- Pallas_call 1 over the thread state: entered from every unscoped buffer at W5, left at W6. -/
def reg1 : Pipeline.RegionSeg (pcfgs (F := F)) adm (pdats m ρ R) () defs₀ 𝒱₀ L lv 1 where
  win := winFacts₀1
  block_pos := block_pos1
  stage_whole := stage_whole1
  K := PEmpty
  osem k := k.elim
  ho := Pipeline.OwnSemFacts.none _
  hbody c := (R.body1 (V5 m ρ R) c).loose
  hwaits := Pipeline.hwaits_of_owed_zero _ _ _ _ L lv 1 fun c t => R.owed1 (V5 m ρ R) c t
  pre c := iprop(StableHlo.held (c : Thread nD τ) (Pipeline.ucRefs τ sig) (W5 m ρ R c) ∗ Rr c)
  post c := iprop(StableHlo.held (c : Thread nD τ) (Pipeline.ucRefs τ sig) (W6 m ρ R c) ∗ Rr c)
  X c := iprop(∃ r, prngReg c r)
  Y c := iprop(∃ r, prngReg c r)
  Z c := Pipeline.unscopedRest (Ix := Unit) (Name := ℕ) (U := UR sig nD τ) (Lvl := ℕ) spec1 c (V5 m ρ R c)
  hentry c := by
    rw [Pipeline.ownSems0_none]
    have hsplit := R.entry1 (V5 m ρ R) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats m ρ R 1 c).recorded 0 = Set.univ from R.rec1 (V5 m ρ R) c 0]; trivial)
      rw [show (pdats m ρ R 1 c).owed 0 = 0 from R.owed1 (V5 m ρ R) c 0]
      iexact HO
    isplitl [Hp]; · iexact Hp
    iexact Hrest
  hin c := by
    refine BIBase.Entails.trans ?_ (R.in1 (V5 m ρ R) c)
    unfold Pipeline.ΦA
    iintro ⟨Hp, -, Hr⟩
    isplitl [Hr]; · iexact Hr
    iexact Hp
  hout c := by
    rw [Pipeline.ownSems0_none]
    refine BIBase.Entails.trans (R.out1 (V5 m ρ R) c) ?_
    unfold Pipeline.ΦA
    iintro ⟨Hr, Hp⟩
    isplitl [Hp]; · iexact Hp
    isplitr; · iempintro
    iexact Hr
  hexit c := by
    have hjoin := R.exit1 (V5 m ρ R) (V6 m ρ R) c ((pdats m ρ R 1 c).arrAt · cfg1.N) (hF1 m ρ R c) (hrest1 m ρ R c)
    rw [Pipeline.unscopedBufs_held] at hjoin
    iintro ⟨Ha, HO, HY, Hrest⟩
    imodintro
    isplitl [Ha Hrest]
    · iapply hjoin; isplitl [Ha]
      · iexact Ha
      · iexact Hrest
    isplitl [HY]; · iexact HY
    unfold Pipeline.Dat.owesAt Pipeline.owesWithin
    icases HO with ⟨%W, -, HO⟩; iexists W
    rw [show (pdats m ρ R 1 c).owed (Fin.last _) = 0 from R.owed1 (V5 m ρ R) c _]
    iexact HO

/-! ## @main as segments, and the launch -/

abbrev segs : List (Pipeline.Seg (pcfgs (F := F)) adm (pdats m ρ R) () defs₀ 𝒱₀ L lv) :=
  [ .region (reg0 m ρ R),
    .host (hseg hostOps1 hostOps1_sub hostOps1_fresh (W1 m ρ R)),
    .host (hseg hostOps1_1 hostOps1_1_sub hostOps1_1_fresh (W2 m ρ R)),
    .host (hseg hostOps1_2 hostOps1_2_sub hostOps1_2_fresh (W3 m ρ R)),
    .host (hseg hostOps1_3 hostOps1_3_sub hostOps1_3_fresh (W4 m ρ R)),
    .region (reg1 m ρ R),
    .host (hseg hostOps2 hostOps2_sub hostOps2_fresh (W6 m ρ R)) ]

theorem main_run (c : Dev nD) : main (F := F) c = Pipeline.Seg.run (segs m ρ R) := by
  rw [main_chain c, Pipeline.Seg.run_eq_chain]
  rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting,
    and the final memory holds every unscoped buffer at the last boundary's contents W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ R c b) :=
  Pipeline.θ_run_regions_kit (pcfgs (F := F)) adm (pdats m ρ R) () cellOf_inj emb₁ defs₀ 𝒱₀ L lv m ρ main (segs m ρ R)
    (fun c Q => by rw [main_run m ρ R c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tₙ m ρ R)
    (hch := ⟨fun _ => .rfl, fun _ => .rfl, fun _ => .rfl, fun _ => .rfl, fun _ => .rfl, fun _ => .rfl, fun _ => .rfl,
      fun c => by
        show iprop(StableHlo.held (c : Thread nD τ) (Pipeline.ucRefs τ sig) (W7 m ρ R c) ∗ Rr c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ R c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ R c) s')
      isplitl [Hh] <;> iassumption)
    (hQ := fun s h c => h c)

/-! ## The argument arrays reach the end as launched -/

theorem W5_of (c : Dev nD) (r : Ref sig .tc) (h1 : r ∉ hostOps1_W) (h2 : r ∉ hostOps1_1_W) (h3 : r ∉ hostOps1_2_W) (h4 : r ∉ hostOps1_3_W) :
    W5 m ρ R c r = W1 m ρ R c r :=
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  (StableHlo.after_of_writes_sub hostOps1 _ hostOps1_writes h1)

theorem W1_arg0 (c : Dev nD) : W1 m ρ R c main_arg0 = m ((c : Thread nD τ).loc main_arg0) :=
  (W1_arr m ρ R c 0).trans (((R.dat0 (V0 m ρ) c).arrAt_in 0 rfl _).trans (R.A0 (V0 m ρ) c 0))
theorem W1_arg1 (c : Dev nD) : W1 m ρ R c main_arg1 = m ((c : Thread nD τ).loc main_arg1) :=
  W1_of_ne m ρ R c main_arg1 (by decide)

theorem W5_arg0 (c : Dev nD) : W5 m ρ R c main_arg0 = m ((c : Thread nD τ).loc main_arg0) :=
  (W5_of m ρ R c main_arg0 (by decide) (by decide) (by decide) (by decide)).trans (W1_arg0 m ρ R c)
theorem W5_arg1 (c : Dev nD) : W5 m ρ R c main_arg1 = m ((c : Thread nD τ).loc main_arg1) :=
  (W5_of m ρ R c main_arg1 (by decide) (by decide) (by decide) (by decide)).trans (W1_arg1 m ρ R c)

theorem W7_arg0 (c : Dev nD) : W7 m ρ R c main_arg0 = m ((c : Thread nD τ).loc main_arg0) :=
  (StableHlo.after_of_writes_sub hostOps2 _ hostOps2_writes (by decide)).trans <|
  (W6_of_ne m ρ R c main_arg0 (by decide)).trans (W5_arg0 m ρ R c)
theorem W7_arg1 (c : Dev nD) : W7 m ρ R c main_arg1 = m ((c : Thread nD τ).loc main_arg1) :=
  (StableHlo.after_of_writes_sub hostOps2 _ hostOps2_writes (by decide)).trans <|
  (W6_of_ne m ρ R c main_arg1 (by decide)).trans (W5_arg1 m ρ R c)

include R in
/-- The frame: every execution terminates and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W7_arg0 m ρ R c),
     (h c _ (mem_uc main_arg1 (by decide))).trans (W7_arg1 m ρ R c)⟩) (run_all m ρ R)

/-- The same run with the result buffer read too. -/
theorem run_result : θ_run defs (onTc (τ := τ) (main (F := F))) ⟨m, fun _ => 0, ρ⟩ (fun r => ∀ c : Dev nD,
      r.2.mem ((c.tc : Thread nD τ).loc main_v16) = W7 m ρ R c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v16 (by decide)),
     (h c _ (mem_uc main_arg0 (by decide))).trans (W7_arg0 m ρ R c),
     (h c _ (mem_uc main_arg1 (by decide))).trans (W7_arg1 m ρ R c)⟩) (run_all m ρ R)

end Cert.KernelIdeal.Asm

end
-- ==== Proof.Spec.lean ====
/-
  The two programs' results as formulas over the argument matrices, entry by entry, on the extended reals.
  A is the N×N adjacency matrix (N = 8192), X the N×C feature matrix (C = 512).
  Kernel side: row sums and column sums of A give the degree d = (rowsum + colsum)/2, r = (d + ε)^(-1/2) (0 where
  infinite), and the loss is  Σ_i Σ_f X_if · r_i · (d_i · (r_i · X_if) − Σ_j A_ij · (r_j · X_jf)).
  Reference side: S = (Aᵀ + A)/2, d = row sums of S, L = diag d − S, and the loss is
  Σ_i Σ_f X_if · Σ_j (r_i · L_ij · r_j) · X_jf.
  The two agree on real matrices because Σ_ij u_i (S_ij − A_ij) u_j = 0 for every vector u (the summand is
  antisymmetric in (i, j)).
-/
import Idealize.ShloMosaic.PureOps.Ideal
import Idealize.ShloMosaic.PureOps.Ideal.Laws

noncomputable section

namespace Cert.Spec

open Idealize.ShloMosaic

/-- The literals both programs use, as extended reals: 0, 1/2, ε = f32(1e-5), −1/2, +∞. -/
abbrev zeroW : EReal := Ideal.ofBits .f32 0x00000000#32
abbrev halfW : EReal := Ideal.ofBits .f32 0x3F000000#32
abbrev epsW : EReal := Ideal.ofBits .f32 0x3727C5AC#32
abbrev mhalfW : EReal := Ideal.ofBits .f32 0xBF000000#32
abbrev infW : EReal := Ideal.ofBits .f32 0x7F800000#32

/-- d ↦ (d + ε)^(-1/2), replaced by 0 where its absolute value is +∞. -/
def rinvOf (d : EReal) : EReal :=
  Scalar.select (Ideal.cmp .oeq (max (Ideal.pow (d + epsW) mhalfW) (-(Ideal.pow (d + epsW) mhalfW))) infW) zeroW
    (Ideal.pow (d + epsW) mhalfW)

/-- Row 256·(16·h + s) + r of the matrix: row r of strip s of half h. -/
def stripRow (h : Fin 2) (s : Fin 16) (r : Fin 256) : Fin 8192 :=
  ⟨256 * (16 * h.val + s.val) + r.val, by have := h.isLt; have := s.isLt; have := r.isLt; omega⟩

/-- Column 512·k + l: column l of block k. -/
def blockCol (k : Fin 16) (l : Fin 512) : Fin 8192 :=
  ⟨512 * k.val + l.val, by have := k.isLt; have := l.isLt; omega⟩

variable (A : Fin 8192 → Fin 8192 → EReal) (X : Fin 8192 → Fin 512 → EReal)

/-! ## The kernel's side -/

/-- Row sums of A. -/
def rowK (i : Fin 8192) : EReal := ∑ j : Fin 8192, A i j
/-- Column sums of A over the rows of half h, strip by strip. -/
def colK (h : Fin 2) (j : Fin 8192) : EReal := ∑ s : Fin 16, ∑ r : Fin 256, A (stripRow h s r) j
/-- The degree: half of row sum plus column sum. -/
def dK (i : Fin 8192) : EReal := halfW * (rowK A i + (colK A 0 i + colK A 1 i))
def rK (i : Fin 8192) : EReal := rinvOf (dK A i)
/-- (A · diag r · X)_if, the contraction taken block by block. -/
def ZK (i : Fin 8192) (f : Fin 512) : EReal :=
  ∑ k : Fin 16, ∑ l : Fin 512, A i (blockCol k l) * (rK A (blockCol k l) * X (blockCol k l) f)
/-- Row i's share of the loss. -/
def outK (i : Fin 8192) : EReal :=
  ∑ f : Fin 512, X i f * (rK A i * (dK A i * (rK A i * X i f) - ZK A X i f))
def lossK : EReal := zeroW + ∑ i : Fin 8192, outK A X i

/-! ## The reference's side -/

def symR (i j : Fin 8192) : EReal := (A j i + A i j) * halfW
def degR (i : Fin 8192) : EReal := zeroW + ∑ j : Fin 8192, symR A i j
def lapR (i j : Fin 8192) : EReal := (if i = j then degR A i else zeroW) - symR A i j
def rR (i : Fin 8192) : EReal := rinvOf (degR A i)
def lnormR (i j : Fin 8192) : EReal := (rR A i * lapR A i j) * rR A j
def MR (i : Fin 8192) (f : Fin 512) : EReal := ∑ j : Fin 8192, lnormR A i j * X j f
def lossR : EReal := zeroW + ∑ i : Fin 8192, ∑ f : Fin 512, X i f * MR A X i f

end Cert.Spec

end
-- ==== Proof.HostValue.lean ====
/-
  The host lines of the kernel's program, read entry by entry on the extended reals.

  Between the two pallas_calls the host forms, from the row sums rowsum and the two halves' column sums colpart,
  the degree  d = 0.5 · (rowsum + (colpart₀ + colpart₁))  and  r = (d + ε)^(-1/2), replaced by 0 where its absolute
  value is +∞.  After the second pallas_call it adds up the 8192 row shares into the loss, starting from 0.
  Every statement is over an arbitrary assignment of contents to the buffers; a buffer no host line writes keeps
  its contents.
-/
import proofs.«174135_j60627758350707_2_alg».proof.Proof.Gen.KernelIdeal.Launch
import proofs.«174135_j60627758350707_2_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws
import proofs.«174135_j60627758350707_2_alg».proof.Proof.Spec

noncomputable section

namespace Cert.KernelIdeal.HostValue

open Cert.KernelIdeal Cert.KernelIdeal.Gen
open Idealize.ShloMosaic Idealize.ShloMosaic.TcCoe Idealize.ShloMosaic.ValueIdx

/-- The buffers' contents after the four host stretches between the two pallas_calls, from contents W. -/
abbrev W5 (W : Valuation τ sig (Elt Ideal)) : Valuation τ sig (Elt Ideal) :=
  StableHlo.after hostOps1_3 (StableHlo.after hostOps1_2 (StableHlo.after hostOps1_1 (StableHlo.after hostOps1 W)))

/-! ## The host lines as functions of whole vectors -/

/-- One half's column sums as a vector: the slice [h, 0, :] of the [2, 1, 8192] array, reshaped to [8192]. -/
abbrev halfVec (o : Fin 3 → Nat) (hs : S2x1x8192.Slices o S1x1x8192) (c : S2x1x8192.Idx → EReal) : S8192.Idx → EReal :=
  shapeCast S8192 (extractStridedSlice S1x1x8192 o c hs) shapeCasts_S1x1x8192_S8192

/-- d = 0.5 · (rowsum + (colpart₀ + colpart₁)), as vectors. -/
def dVec (r : S8192.Idx → EReal) (c : S2x1x8192.Idx → EReal) : S8192.Idx → EReal :=
  mulf (F := Ideal) (s := S8192) (φ := .f32)
    (broadcastInDim S8192 ![] bcast_S_S8192 (constant (F := Ideal) S_ .f32 0x3F000000#32))
    (addf (F := Ideal) (s := S8192) (φ := .f32) r
      (addf (F := Ideal) (s := S8192) (φ := .f32)
        (halfVec ![0, 0, 0] slices_S2x1x8192_S1x1x8192_0_0_0 c) (halfVec ![1, 0, 0] slices_S2x1x8192_S1x1x8192_1_0_0 c)))

/-- p = (d + ε)^(-1/2), as vectors. -/
def pVec (d : S8192.Idx → EReal) : S8192.Idx → EReal :=
  Host.powf (F := Ideal) (s := S8192) (φ := .f32)
    (addf (F := Ideal) (s := S8192) (φ := .f32) d
      (broadcastInDim S8192 ![] bcast_S_S8192 (constant (F := Ideal) S_ .f32 0x3727C5AC#32)))
    (broadcastInDim S8192 ![] bcast_S_S8192 (constant (F := Ideal) S_ .f32 0xBF000000#32))

/-- r = p, replaced by 0 where |p| = +∞, as vectors. -/
def rVec (d : S8192.Idx → EReal) : S8192.Idx → EReal :=
  select (cmpf (F := Ideal) (s := S8192) (φ := .f32) .oeq (Host.absf (F := Ideal) (s := S8192) (φ := .f32) (pVec d))
      (broadcastInDim S8192 ![] bcast_S_S8192 (constant (F := Ideal) S_ .f32 0x7F800000#32)))
    (broadcastInDim S8192 ![] bcast_S_S8192 (id (constant (F := Ideal) S_ .f32 0x00000000#32)))
    (pVec d)

variable (W : Valuation τ sig (Elt Ideal))

theorem v8_eq : (W5 W (Proc.devRef .tc main_v8) : S8192.Idx → EReal)
    = dVec (W (Proc.devRef .tc main_v0_0)) (W (Proc.devRef .tc main_v0_1)) := by
  show StableHlo.after hostOps1_3 _ (Proc.devRef .tc main_v8) = _
  after_results
  rfl

theorem v14_eq : (W5 W (Proc.devRef .tc main_v14) : S8192.Idx → EReal)
    = rVec (dVec (W (Proc.devRef .tc main_v0_0)) (W (Proc.devRef .tc main_v0_1))) := by
  show StableHlo.after hostOps1_3 _ (Proc.devRef .tc main_v14) = _
  after_results
  rfl

/-! ## Read at an entry -/

/-- The reshaped slice [h, 0, :] at entry i is the array at (h, 0, i). -/
theorem halfVec_apply (o : Nat) (ho : o < 2) (hs : S2x1x8192.Slices ![o, 0, 0] S1x1x8192) (c : S2x1x8192.Idx → EReal)
    (i : Fin 8192) : halfVec ![o, 0, 0] hs c (ix1 i) = c (ix3 (⟨o, ho⟩ : Fin 2) (0 : Fin 1) i) := by
  refine (shapeCast_apply _ shapeCasts_S1x1x8192_S8192 (ix1 i) (ix3 (0 : Fin 1) (0 : Fin 1) i) ?_).trans ?_
  · rw [Shape.rowMajor_val_three, Shape.rowMajor_val_one]
    show (0 * 1 + 0) * 8192 + i.val = i.val
    omega
  · refine extractStridedSlice_apply _ c hs _ _ fun a => ?_
    match a with
    | ⟨0, _⟩ => rfl
    | ⟨1, _⟩ => rfl
    | ⟨2, _⟩ => show i.val = 0 + i.val; omega

theorem dVec_apply (r : S8192.Idx → EReal) (c : S2x1x8192.Idx → EReal) (i : Fin 8192) :
    dVec r c (ix1 i) = Cert.Spec.halfW * (r (ix1 i) + (c (ix3 (0 : Fin 2) (0 : Fin 1) i) + c (ix3 (1 : Fin 2) (0 : Fin 1) i))) := by
  have h0 := halfVec_apply 0 (by omega) slices_S2x1x8192_S1x1x8192_0_0_0 c i
  have h1 := halfVec_apply 1 (by omega) slices_S2x1x8192_S1x1x8192_1_0_0 c i
  unfold dVec
  rw [mulf_apply, addf_apply, addf_apply, h0, h1]
  rfl

theorem rVec_apply (d : S8192.Idx → EReal) (i : Fin 8192) : rVec d (ix1 i) = Cert.Spec.rinvOf (d (ix1 i)) := rfl

/-! ## The degree and its inverse square root, entry by entry -/

/-- 0.5 · (rowsum_i + (colpart₀,i + colpart₁,i)), from the row-sum vector and the [2, 1, 8192] array of column sums. -/
abbrev dEntry (r : S8192.Idx → EReal) (c : S2x1x8192.Idx → EReal) (i : Fin 8192) : EReal :=
  Cert.Spec.halfW * (r (ix1 i) + (c (ix3 (0 : Fin 2) (0 : Fin 1) i) + c (ix3 (1 : Fin 2) (0 : Fin 1) i)))

/-- d_i = 0.5 · (rowsum_i + (colpart₀,i + colpart₁,i)), the two operands read off the buffers. -/
theorem d_at (i : Fin 8192) :
    (W5 W (Proc.devRef .tc main_v8) : S8192.Idx → EReal) (ix1 i)
      = dEntry (W (Proc.devRef .tc main_v0_0)) (W (Proc.devRef .tc main_v0_1)) i := by
  rw [v8_eq W]
  exact dVec_apply _ _ i

/-- The same, given what the two buffers hold. -/
theorem d_at_of (r : S8192.Idx → EReal) (c : S2x1x8192.Idx → EReal)
    (hr : (W (Proc.devRef .tc main_v0_0) : S8192.Idx → EReal) = r)
    (hc : (W (Proc.devRef .tc main_v0_1) : S2x1x8192.Idx → EReal) = c) (i : Fin 8192) :
    (W5 W (Proc.devRef .tc main_v8) : S8192.Idx → EReal) (ix1 i)
      = Cert.Spec.halfW * (r (ix1 i) + (c (ix3 (0 : Fin 2) (0 : Fin 1) i) + c (ix3 (1 : Fin 2) (0 : Fin 1) i))) := by
  rw [d_at W i, hr, hc]

/-- r_i = (d_i + ε)^(-1/2), 0 where that is infinite. -/
theorem r_at (i : Fin 8192) :
    (W5 W (Proc.devRef .tc main_v14) : S8192.Idx → EReal) (ix1 i)
      = Cert.Spec.rinvOf ((W5 W (Proc.devRef .tc main_v8) : S8192.Idx → EReal) (ix1 i)) := by
  rw [v14_eq W, v8_eq W]
  exact rVec_apply _ i

/-! ## What the host lines leave alone -/

/-- A buffer none of the four stretches writes keeps its contents. -/
theorem W5_of (b : Ref sig .tc) (h1 : b ∉ hostOps1_W) (h2 : b ∉ hostOps1_1_W) (h3 : b ∉ hostOps1_2_W)
    (h4 : b ∉ hostOps1_3_W) : W5 W (Proc.devRef .tc b) = W (Proc.devRef .tc b) :=
  (StableHlo.after_of_writes_sub hostOps1_3 _ hostOps1_3_writes h4).trans <|
    (StableHlo.after_of_writes_sub hostOps1_2 _ hostOps1_2_writes h3).trans <|
      (StableHlo.after_of_writes_sub hostOps1_1 _ hostOps1_1_writes h2).trans <|
        StableHlo.after_of_writes_sub hostOps1 _ hostOps1_writes h1

theorem W5_main_arg0 : W5 W (Proc.devRef .tc main_arg0) = W (Proc.devRef .tc main_arg0) :=
  W5_of W main_arg0 (by decide) (by decide) (by decide) (by decide)
theorem W5_main_arg1 : W5 W (Proc.devRef .tc main_arg1) = W (Proc.devRef .tc main_arg1) :=
  W5_of W main_arg1 (by decide) (by decide) (by decide) (by decide)
theorem W5_main_v0_0 : W5 W (Proc.devRef .tc main_v0_0) = W (Proc.devRef .tc main_v0_0) :=
  W5_of W main_v0_0 (by decide) (by decide) (by decide) (by decide)
theorem W5_main_v0_1 : W5 W (Proc.devRef .tc main_v0_1) = W (Proc.devRef .tc main_v0_1) :=
  W5_of W main_v0_1 (by decide) (by decide) (by decide) (by decide)
theorem W5_main_v15 : W5 W (Proc.devRef .tc main_v15) = W (Proc.devRef .tc main_v15) :=
  W5_of W main_v15 (by decide) (by decide) (by decide) (by decide)
theorem W5_main_v16 : W5 W (Proc.devRef .tc main_v16) = W (Proc.devRef .tc main_v16) :=
  W5_of W main_v16 (by decide) (by decide) (by decide) (by decide)

/-! ## The last two host lines: the loss -/

/-- A buffer the last stretch does not write keeps its contents. -/
theorem after2_of (b : Ref sig .tc) (h : b ∉ hostOps2_W) :
    StableHlo.after hostOps2 W (Proc.devRef .tc b) = W (Proc.devRef .tc b) :=
  StableHlo.after_of_writes_sub hostOps2 _ hostOps2_writes h

theorem after2_main_arg0 : StableHlo.after hostOps2 W (Proc.devRef .tc main_arg0) = W (Proc.devRef .tc main_arg0) :=
  after2_of W main_arg0 (by decide)
theorem after2_main_arg1 : StableHlo.after hostOps2 W (Proc.devRef .tc main_arg1) = W (Proc.devRef .tc main_arg1) :=
  after2_of W main_arg1 (by decide)
theorem after2_main_v15 : StableHlo.after hostOps2 W (Proc.devRef .tc main_v15) = W (Proc.devRef .tc main_v15) :=
  after2_of W main_v15 (by decide)

/-- The sum over axis 0 of an [8192] vector into a scalar, from the initial value: init + Σ_i x_i. -/
def idxEquiv1 {n : Nat} : (⟨1, ![n]⟩ : Shape).Idx ≃ Fin n where
  toFun j := j 0
  invFun a := ix1 a
  left_inv j := (eq_ix1 j).symm
  right_inv _ := rfl

/-- A sum over the indices of a vector is the sum over its one coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

theorem reduce_all (x : S8192.Idx → EReal) (init : EReal) (j : S_.Idx) :
    Ideal.hostReduceAdd reducesTo_S8192_S_d0 x init j = init + ∑ i : Fin 8192, x (ix1 i) := by
  rw [Ideal.hostReduceAdd_total reducesTo_S8192_S_d0 (fun b => b.elim0) x init j]
  exact congrArg (init + ·) (sum_idx1 x)

/-- 0 + Σ_i o_i, from the vector of row shares. -/
abbrev sumEntries (o : S8192.Idx → EReal) : EReal := Cert.Spec.zeroW + ∑ i : Fin 8192, o (ix1 i)

/-- loss = 0 + Σ_i out_i, the operand read off its buffer. -/
theorem loss_at :
    (StableHlo.after hostOps2 W (Proc.devRef .tc main_v16) : S_.Idx → EReal)
      = fun _ => sumEntries (W (Proc.devRef .tc main_v15)) := by
  have e : (StableHlo.after hostOps2 W (Proc.devRef .tc main_v16) : S_.Idx → EReal)
      = Host.reduceAdd (F := Ideal) (φ := .f32) (W (Proc.devRef .tc main_v15) : S8192.Idx → EReal)
          (constant (F := Ideal) S_ .f32 0x00000000#32) reducesTo_S8192_S_d0 h_S_ := by
    show StableHlo.after hostOps2 _ (Proc.devRef .tc main_v16) = _
    after_results
  rw [e]
  funext j
  exact reduce_all _ _ j

/-- The same, given what the buffer holds. -/
theorem loss_at_of (o : S8192.Idx → EReal) (ho : (W (Proc.devRef .tc main_v15) : S8192.Idx → EReal) = o) :
    (StableHlo.after hostOps2 W (Proc.devRef .tc main_v16) : S_.Idx → EReal)
      = fun _ => Cert.Spec.zeroW + ∑ i : Fin 8192, o (ix1 i) := by
  rw [loss_at W, ho]

end Cert.KernelIdeal.HostValue

end
-- ==== Proof.SpecK.lean ====
/-
  Row i's share of the loss as a function of ANY scale vector r and degree vector d (the second kernel reads both as
  arrays):  out_i = Σ_f X_if · (r_i · (d_i · (r_i · X_if) − Z_if)),  Z_if = Σ_k Σ_l A_i,512k+l · (r_512k+l · X_512k+l,f).
-/
import proofs.«174135_j60627758350707_2_alg».proof.Proof.Spec

noncomputable section

namespace Cert.Spec

variable (A : Fin 8192 → Fin 8192 → EReal) (X : Fin 8192 → Fin 512 → EReal) (r d : Fin 8192 → EReal)

/-- (A · diag r · X)_if with the contraction taken in 16 blocks of 512 columns. -/
def ZOf (i : Fin 8192) (f : Fin 512) : EReal :=
  ∑ k : Fin 16, ∑ l : Fin 512, A i (blockCol k l) * (r (blockCol k l) * X (blockCol k l) f)

/-- Row i's share of the loss from r and d. -/
def outOf (i : Fin 8192) : EReal :=
  ∑ f : Fin 512, X i f * (r i * (d i * (r i * X i f) - ZOf A X r i f))

theorem ZK_eq (i : Fin 8192) (f : Fin 512) : ZK A X i f = ZOf A X (rK A) i f := rfl
theorem outK_eq (i : Fin 8192) : outK A X i = outOf A X (rK A) (dK A) i := rfl

end Cert.Spec

end
-- ==== Proof.KernelValue.lean ====
/-
  The value of the kernel program's result from the values the two pallas_calls leave: pallas_call 0 leaves the row
  sums and the two halves' column sums of A, the host lines form the degree d and the scale r from them,
  pallas_call 1 leaves each row's share of the loss from A, X, r and d, and the last host line adds the shares up.
-/
import proofs.«174135_j60627758350707_2_alg».proof.Proof.Assembly
import proofs.«174135_j60627758350707_2_alg».proof.Proof.HostValue
import proofs.«174135_j60627758350707_2_alg».proof.Proof.SpecK

set_option maxRecDepth 16384

noncomputable section

namespace Cert.KernelIdeal.KValue

open Cert.KernelIdeal Cert.KernelIdeal.Gen
open Idealize.ShloMosaic Idealize.ShloMosaic.TcCoe Idealize.ShloMosaic.ValueIdx
open Idealize.SL.Sem

/-- A stored matrix read by coordinates. -/
abbrev Mat (a : S8192x8192.Idx → EReal) : Fin 8192 → Fin 8192 → EReal := fun i j => a (ix2 i j)
abbrev MatX (x : S8192x512.Idx → EReal) : Fin 8192 → Fin 512 → EReal := fun i f => x (ix2 i f)
abbrev Vec1 (v : S8192.Idx → EReal) : Fin 8192 → EReal := fun i => v (ix1 i)

variable (R : Asm.Regions (F := Ideal))

/-- What the two pallas_calls' output arrays hold, entry by entry, as functions of the contents they were entered from. -/
structure Values : Prop where
  row : ∀ (V : Asm.Entry (F := Ideal)) (c : Dev nD) (i : Fin 8192),
    ((R.dat0 V c).arrAt 1 cfg0.N : S8192.Idx → EReal) (ix1 i) = Cert.Spec.rowK (Mat (V c main_arg0)) i
  col : ∀ (V : Asm.Entry (F := Ideal)) (c : Dev nD) (h : Fin 2) (j : Fin 8192),
    ((R.dat0 V c).arrAt 2 cfg0.N : S2x1x8192.Idx → EReal) (ix3 h (0 : Fin 1) j) = Cert.Spec.colK (Mat (V c main_arg0)) h j
  out : ∀ (V : Asm.Entry (F := Ideal)) (c : Dev nD) (i : Fin 8192),
    ((R.dat1 V c).arrAt 5 cfg1.N : S8192.Idx → EReal) (ix1 i)
      = Cert.Spec.outOf (Mat (V c main_arg0)) (MatX (V c main_arg1)) (Vec1 (V c main_v14)) (Vec1 (V c main_v8)) i

variable (m : (ℓ : Loc nD τ sig) → Buf (Elt Ideal) ℓ) (ρ : Dev nD → PrngReg)

/-- The argument matrices. -/
abbrev A (c : Dev nD) : Fin 8192 → Fin 8192 → EReal := Mat (m ((c : Thread nD τ).loc main_arg0))
abbrev X (c : Dev nD) : Fin 8192 → Fin 512 → EReal := MatX (m ((c : Thread nD τ).loc main_arg1))

variable {R} (hv : Values R)

include hv in
theorem d_eq (c : Dev nD) (i : Fin 8192) :
    (Asm.W5 m ρ R c main_v8 : S8192.Idx → EReal) (ix1 i) = Cert.Spec.dK (A m c) i := by
  have h := HostValue.d_at_of (Asm.W1 m ρ R c) (Asm.W1 m ρ R c (Proc.devRef .tc main_v0_0)) (Asm.W1 m ρ R c (Proc.devRef .tc main_v0_1)) rfl rfl i
  refine h.trans ?_
  have hr : (Asm.W1 m ρ R c (Proc.devRef .tc main_v0_0) : S8192.Idx → EReal) (ix1 i) = Cert.Spec.rowK (A m c) i :=
    (congrFun (Asm.W1_arr m ρ R c 1) (ix1 i)).trans (hv.row (Asm.V0 m ρ) c i)
  have hc : ∀ h : Fin 2, (Asm.W1 m ρ R c (Proc.devRef .tc main_v0_1) : S2x1x8192.Idx → EReal) (ix3 h (0 : Fin 1) i) = Cert.Spec.colK (A m c) h i :=
    fun h => (congrFun (Asm.W1_arr m ρ R c 2) (ix3 h (0 : Fin 1) i)).trans (hv.col (Asm.V0 m ρ) c h i)
  rw [hr, hc 0, hc 1]
  rfl

include hv in
theorem r_eq (c : Dev nD) (i : Fin 8192) :
    (Asm.W5 m ρ R c main_v14 : S8192.Idx → EReal) (ix1 i) = Cert.Spec.rK (A m c) i := by
  refine (HostValue.r_at (Asm.W1 m ρ R c) i).trans ?_
  exact congrArg Cert.Spec.rinvOf (d_eq m ρ hv c i)

include hv in
theorem out_eq (c : Dev nD) (i : Fin 8192) :
    (Asm.W6 m ρ R c (Proc.devRef .tc main_v15) : S8192.Idx → EReal) (ix1 i) = Cert.Spec.outK (A m c) (X m c) i := by
  refine (congrFun (Asm.W6_out m ρ R c) (ix1 i)).trans ?_
  refine (hv.out (Asm.V5 m ρ R) c i).trans ?_
  rw [Cert.Spec.outK_eq]
  have h0 : Mat (Asm.V5 m ρ R c main_arg0) = A m c := by
    show Mat (Asm.W5 m ρ R c main_arg0) = _; rw [Asm.W5_arg0]
  have h1 : MatX (Asm.V5 m ρ R c main_arg1) = X m c := by
    show MatX (Asm.W5 m ρ R c main_arg1) = _; rw [Asm.W5_arg1]
  have h2 : Vec1 (Asm.V5 m ρ R c main_v14) = Cert.Spec.rK (A m c) := funext fun a => r_eq m ρ hv c a
  have h3 : Vec1 (Asm.V5 m ρ R c main_v8) = Cert.Spec.dK (A m c) := funext fun a => d_eq m ρ hv c a
  rw [h0, h1, h2, h3]

include hv in
/-- The result buffer at the end holds the kernel side's loss of the argument matrices. -/
theorem result_eq (c : Dev nD) :
    (Asm.W7 m ρ R c main_v16 : S_.Idx → EReal) = fun _ => Cert.Spec.lossK (A m c) (X m c) := by
  refine (HostValue.loss_at (Asm.W6 m ρ R c)).trans ?_
  funext _
  show Cert.Spec.zeroW + _ = Cert.Spec.zeroW + _
  exact congrArg (Cert.Spec.zeroW + ·) (Finset.sum_congr rfl fun i _ => out_eq m ρ hv c i)

end Cert.KernelIdeal.KValue

end
-- ==== Proof.R0Runs.lean ====
/- The first grid kernel of the program (row sums and per-half column sums of the adjacency matrix), its frame half:
   what every run of its body is stated over. The grid is 2 × 16; a point t = 16·i0 + i1 handles rows
   256·t … 256·t + 255. The body zeroes the carried accumulator when i1 = 0, stores the 256 row sums of its strip at
   every point, adds the strip's column sums onto the accumulator, and when i1 = 15 copies the accumulator out.
   Everything is stated at a parameter V: the contents of the core's buffers when the region is entered. -/
import proofs.«174135_j60627758350707_2_alg».proof.Proof.Gen.KernelIdeal.Launch
import proofs.«174135_j60627758350707_2_alg».proof.Proof.Gen.KernelIdeal.Skeleton
import proofs.«174135_j60627758350707_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the strip of the matrix at every point, for any proof data
    whose array is V's and whose body leaves the strip in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the 32 points -/

/-- "This is the first strip of its half" (inner coordinate 0): the accumulator is zeroed. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 16 = 0 :=
  (by decide +kernel : ∀ t : Fin grid0.N, cond0 (grid0.coords t) ↔ t.val % 16 = 0)

/-- "This is the last strip of its half" (inner coordinate 15): the accumulator is copied out. -/
abbrev cond2 (i : grid0.Coords) : Prop := k0_cond2 i = 1#1
theorem hcond2 : ∀ t : Fin cfg0.N, cond2 (grid0.coords t) ↔ t.val % 16 = 15 :=
  (by decide +kernel : ∀ t : Fin grid0.N, cond2 (grid0.coords t) ↔ t.val % 16 = 15)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from the last strip of a half the column-sum output is idle and is not written back. -/
theorem idleAt_2 : ∀ t : Fin cfg0.N, ¬cond2 (grid0.coords t) → cfg0.idle 2 (grid0.coords t) = true := by decide +kernel
theorem noFlush_2 : ∀ t : Fin cfg0.N, ¬cond2 (grid0.coords t) → (cfg0.win 2).flush t = false := by decide +kernel
/-- At the last strip of a half it is live. -/
theorem liveAt_2 : ∀ t : Fin cfg0.N, cond2 (grid0.coords t) → cfg0.idle 2 (grid0.coords t) = false := by decide +kernel

/-! ## The staging memrefs and the scratch -/

/-- One staging buffer of each output window, through which its contents are stated (the choice does not matter). -/
abbrev VO1 : View sig .tc .vmem S256 .f32 := (Memref.whole cc0_stg1_0 : Memref sig .tc .vmem S256 .f32).view
abbrev VO2 : View sig .tc .vmem S1x1x8192 .f32 := (Memref.whole cc0_stg2_0 : Memref sig .tc .vmem S1x1x8192 .f32).view
/-- Each window's current staging memref at point t, spelled as the pipeline passes it, and its wholeness. -/
abbrev ms0 (t : Fin cfg0.N) : Memref sig .tc .vmem S256x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x8192 .f32 := win0_2.stage (cfg0.slots t 2)
abbrev hs2 (t : Fin cfg0.N) : (ms2 t).IsWhole := hstage0_2 ((cfg0.slots t 2).cast nbuf0_2)
/-- The accumulator the kernel carries between points: a whole scoped buffer of its own. -/
abbrev scM : Memref sig .tc .vmem S1x1x8192 .f32 := Memref.whole cc0_scratch0
abbrev VS : View sig .tc .vmem S1x1x8192 .f32 := scM.view

/-- The scoped buffers of the core that this kernel never touches (the second kernel's staging buffers and scratch),
    each whole at some contents. -/
def restR (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region's invariant with the accumulator as a memref owned at some contents: what the body obligation hands
    the run and takes back. -/
theorem PhiA_eq (c : Dev nD) :
    (Pipeline.ΦA spec0 c : sProp 𝕄)
      = iprop(iprop((∃ d, owns (c : Thread nD τ) scM fullShare d) ∗ restR (F := F) c) ∗ (∃ r, prngReg c r)) := by
  unfold Pipeline.ΦA; rw [scopedRest0_eq]; simp only [scM, owns_whole]; try rfl

end Cert.KernelIdeal.R0

end
-- ==== Proof.R0RunA.lean ====
/- The body's run at the first strip of a half (inner coordinate 0): the accumulator, whatever it held, is zeroed, the
   strip's 256 row sums are stored, the strip's column sums are added onto the zeroed accumulator; the column-sum output
   is not touched. The pieces each buffer ends with are the witness the symbolic run finds. -/
import proofs.«174135_j60627758350707_2_alg».proof.Proof.R0Runs

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A (first strip of a half). On whole memrefs — the strip at x0, the row-sum buffer at anything, the column-sum
    buffer at xi2 (handed back untouched), the accumulator at anything — the body runs to the continuation holding the
    strip as it was, the row-sum buffer with its pieces L1 written and the accumulator with its pieces LS written. -/
noncomputable def kernelRun_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) :
    Σ' (L1 : List (View.Piece (Elt F) S256 .f32)), { LS : List (View.Piece (Elt F) S1x1x8192 .f32) //
      ∀ (xi2 : Vec F S1x1x8192 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ (∃ d, owns (c : Thread nD τ) arg5 fullShare d)
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, fun xi2 E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, ⟨%ds, %fs, -, HS⟩, Hk⟩
    obtain rfl := harg2.eq_unread hf0; obtain rfl := harg4.eq_unread hf2
    sl_exec (disch := first | exact hc0 | exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.KernelIdeal.R0

end
-- ==== Proof.R0RunB.lean ====
/- The body's run at a strip that is neither the first nor the last of its half: the strip's 256 row sums are
   stored and the strip's column sums are added onto what the accumulator held after the point before; the column-sum
   output is not touched. -/
import proofs.«174135_j60627758350707_2_alg».proof.Proof.R0RunA

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B (a middle strip). As case A, but the accumulator is read before it is stored: it is taken at the contents
    xs the point before left. -/
noncomputable def kernelRun_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) :
    Σ' (L1 : List (View.Piece (Elt F) S256 .f32)), { LS : List (View.Piece (Elt F) S1x1x8192 .f32) //
      ∀ (xi2 : Vec F S1x1x8192 .f32) (E : Set ℕ) (K : PUnit → sProp 𝕄),
        iprop(owns (c : Thread nD τ) arg2 fullShare x0 ∗ (∃ d, owns (c : Thread nD τ) arg3 fullShare d) ∗ owns (c : Thread nD τ) arg4 fullShare xi2 ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, fun xi2 E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, ⟨%fs, %hfs, HS⟩, Hk⟩
    obtain rfl := harg2.eq_unread hf0; obtain rfl := harg4.eq_unread hf2; obtain rfl := harg5.eq_unread hfs
    sl_exec (disch := first | exact hc0 | exact hc2)
    sl_step
    iapply Hk
    isplitl [H0]
    · iexists _; isplitr; · ipureintro; exact harg2.read_unread _
      iexact H0
    isplitl [H1]; · iexists _; iexact H1
    isplitl [H2]
    · iexists _; isplitr; · ipureintro; exact harg4.read_unread _
      iexact H2
    iexists _; iexact HS

end Cert.KernelIdeal.R0

end
-- ==== Proof.R0RunC.lean ====
/- The body's run at the last strip of a half (inner coordinate 15): the strip's 256 row sums are stored, the strip's
   column sums are added onto what the accumulator held after the point before, and the accumulator is copied into the
   column-sum output's buffer. -/
import proofs.«174135_j60627758350707_2_alg».proof.Proof.R0RunB

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C (last strip of a half). The accumulator is taken at the contents xs the point before left; the column-sum
    buffer, at anything, ends with its pieces L2 written. -/
noncomputable def kernelRun_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) :
    Σ' (L1 : List (View.Piece (Elt F) S256 .f32)) (L2 : List (View.Piece (Elt F) S1x1x8192 .f32)), { LS : List (View.Piece (Elt F) S1x1x8192 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__sums_kernel i arg2 harg2 arg3 harg3 arg4 harg4 arg5 harg5) K } := by
  refine ⟨?_, ?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, ⟨%fs, %hfs, HS⟩, Hk⟩
    obtain rfl := harg2.eq_unread hf0; obtain rfl := harg5.eq_unread hfs
    sl_exec (disch := first | exact hc0 | exact hc2)
    sl_step
    iapply Hk
    isplitl [H0]
    · iexists _; isplitr; · ipureintro; exact harg2.read_unread _
      iexact H0
    isplitl [H1]; · iexists _; iexact H1
    isplitl [H2]; · iexists _; iexact H2
    iexists _; iexact HS

end Cert.KernelIdeal.R0

end
-- ==== Proof.R0Frame.lean ====
/- The first grid kernel's frame half, its last module: what the two outputs' buffers and the carried accumulator hold
   per control case and point by point, the pipeline's proof data at the entry contents V, and the body obligation.
   After point t of a half the accumulator holds the column sums of the half's strips up to t: at the first strip of a
   half it is zeroed and the strip added, at every later strip the strip is added onto what the point before left, and
   at the last strip of the half it is also copied to the column-sum output. Point 16 is again a first strip, so
   nothing is carried from one half to the other. -/
import proofs.«174135_j60627758350707_2_alg».proof.Proof.R0RunC

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves in the buffers -/

/-- Case A: the one store of the 256 row sums tiles the row-sum buffer, so the pieces cover it. -/
theorem cover1_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) (y : S256.Idx) :
    ∃ pc ∈ (kernelRun_A c i arg2 harg2 arg3 harg3 arg4 harg4 arg5 harg5 hc0 hc2 x0).1, y ∈ pc.1.set :=
  View.cover_of_tiledL (kernelRun_A c i arg2 harg2 arg3 harg3 arg4 harg4 arg5 harg5 hc0 hc2 x0).1 S256.size (by sl_kernel_rfl) y

/-- What case A leaves in the row-sum buffer: its pieces read back. -/
def out1_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) : Vec F S256 .f32 :=
  VO1.read (Elt F) (VO1.writes (Elt F) VO1.junk (kernelRun_A c i arg2 harg2 arg3 harg3 arg4 harg4 arg5 harg5 hc0 hc2 x0).1)

/-- Case A: the stores into the accumulator cover it. -/
theorem scover_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) (y : S1x1x8192.Idx) :
    ∃ pc ∈ (kernelRun_A c i arg2 harg2 arg3 harg3 arg4 harg4 arg5 harg5 hc0 hc2 x0).2.1, y ∈ pc.1.set :=
  View.cover_of_tiledL (kernelRun_A c i arg2 harg2 arg3 harg3 arg4 harg4 arg5 harg5 hc0 hc2 x0).2.1 S1x1x8192.size (by sl_kernel_rfl) y

/-- What case A leaves in the accumulator: its pieces read back. -/
def sout_A (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i)
    (x0 : Vec F S256x8192 .f32) : Vec F S1x1x8192 .f32 :=
  VS.read (Elt F) (VS.writes (Elt F) VS.junk (kernelRun_A c i arg2 harg2 arg3 harg3 arg4 harg4 arg5 harg5 hc0 hc2 x0).2.1)

/-- Case B: the one store of the 256 row sums tiles the row-sum buffer, so the pieces cover it. -/
theorem cover1_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) (y : S256.Idx) :
    ∃ pc ∈ (kernelRun_B c i arg2 harg2 arg3 harg3 arg4 harg4 arg5 harg5 hc0 hc2 x0 xs).1, y ∈ pc.1.set :=
  View.cover_of_tiledL (kernelRun_B c i arg2 harg2 arg3 harg3 arg4 harg4 arg5 harg5 hc0 hc2 x0 xs).1 S256.size (by sl_kernel_rfl) y

/-- What case B leaves in the row-sum buffer: its pieces read back. -/
def out1_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) : Vec F S256 .f32 :=
  VO1.read (Elt F) (VO1.writes (Elt F) VO1.junk (kernelRun_B c i arg2 harg2 arg3 harg3 arg4 harg4 arg5 harg5 hc0 hc2 x0 xs).1)

/-- Case B: the stores into the accumulator cover it. -/
theorem scover_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) (y : S1x1x8192.Idx) :
    ∃ pc ∈ (kernelRun_B c i arg2 harg2 arg3 harg3 arg4 harg4 arg5 harg5 hc0 hc2 x0 xs).2.1, y ∈ pc.1.set :=
  View.cover_of_tiledL (kernelRun_B c i arg2 harg2 arg3 harg3 arg4 harg4 arg5 harg5 hc0 hc2 x0 xs).2.1 S1x1x8192.size (by sl_kernel_rfl) y

/-- What case B leaves in the accumulator: its pieces read back. -/
def sout_B (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i)
    (x0 : Vec F S256x8192 .f32) (xs : Vec F S1x1x8192 .f32) : Vec F S1x1x8192 .f32 :=
  VS.read (Elt F) (VS.writes (Elt F) VS.junk (kernelRun_B c i arg2 harg2 arg3 harg3 arg4 harg4 arg5 harg5 hc0 hc2 x0 xs).2.1)

/-- Case C: the one store of the 256 row sums tiles the row-sum buffer, so the pieces cover it. -/
theorem cover1_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S256.Idx) :
    ∃ pc ∈ (kernelRun_C c i arg2 harg2 arg3 harg3 arg4 harg4 arg5 harg5 hc0 hc2 x0 xs).1, y ∈ pc.1.set :=
  View.cover_of_tiledL (kernelRun_C c i arg2 harg2 arg3 harg3 arg4 harg4 arg5 harg5 hc0 hc2 x0 xs).1 S256.size (by sl_kernel_rfl) y

/-- What case C leaves in the row-sum buffer: its pieces read back. -/
def out1_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S256 .f32 :=
  VO1.read (Elt F) (VO1.writes (Elt F) VO1.junk (kernelRun_C c i arg2 harg2 arg3 harg3 arg4 harg4 arg5 harg5 hc0 hc2 x0 xs).1)

/-- Case C: the stores into the accumulator cover it. -/
theorem scover_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S1x1x8192.Idx) :
    ∃ pc ∈ (kernelRun_C c i arg2 harg2 arg3 harg3 arg4 harg4 arg5 harg5 hc0 hc2 x0 xs).2.2.1, y ∈ pc.1.set :=
  View.cover_of_tiledL (kernelRun_C c i arg2 harg2 arg3 harg3 arg4 harg4 arg5 harg5 hc0 hc2 x0 xs).2.2.1 S1x1x8192.size (by sl_kernel_rfl) y

/-- What case C leaves in the accumulator: its pieces read back. -/
def sout_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S1x1x8192 .f32 :=
  VS.read (Elt F) (VS.writes (Elt F) VS.junk (kernelRun_C c i arg2 harg2 arg3 harg3 arg4 harg4 arg5 harg5 hc0 hc2 x0 xs).2.2.1)

/-- Case C: the copy of the accumulator tiles the column-sum buffer, so the pieces cover it. -/
theorem cover2_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) (y : S1x1x8192.Idx) :
    ∃ pc ∈ (kernelRun_C c i arg2 harg2 arg3 harg3 arg4 harg4 arg5 harg5 hc0 hc2 x0 xs).2.1, y ∈ pc.1.set :=
  View.cover_of_tiledL (kernelRun_C c i arg2 harg2 arg3 harg3 arg4 harg4 arg5 harg5 hc0 hc2 x0 xs).2.1 S1x1x8192.size (by sl_kernel_rfl) y

/-- What case C leaves in the column-sum buffer: its pieces read back. -/
def out2_C (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i)
    (x0 : Vec F S256x8192 .f32) (xs : Vec F S1x1x8192 .f32) : Vec F S1x1x8192 .f32 :=
  VO2.read (Elt F) (VO2.writes (Elt F) VO2.junk (kernelRun_C c i arg2 harg2 arg3 harg3 arg4 harg4 arg5 harg5 hc0 hc2 x0 xs).2.1)

/-- The column-sum buffer's placeholder at the points where the window is idle: nothing consults it there (the block is
    neither written back nor read at the next point). -/
def junk2 : Vec F S1x1x8192 .f32 := VO2.read (Elt F) (VO2.writes (Elt F) VO2.junk [])

/-! ## What the buffers hold after each point -/

/-- After a first strip of a half (row-sum buffer, column-sum buffer, accumulator). -/
def ptA (c : Dev nD) (t : Fin cfg0.N) (h0 : t.val % 16 = 0) (h2 : ¬t.val % 16 = 15) :
    Vec F S256 .f32 × Vec F S1x1x8192 .f32 × Vec F S1x1x8192 .f32 :=
  (out1_A c (grid0.coords t) (ms0 t) (hs0 t) (ms1 t) (hs1 t) (ms2 t) (hs2 t) scM (Memref.isWhole_whole _) ((hcond0 t).mpr h0) (fun h => h2 ((hcond2 t).mp h)) (iblk V c 0 t), junk2,
   sout_A c (grid0.coords t) (ms0 t) (hs0 t) (ms1 t) (hs1 t) (ms2 t) (hs2 t) scM (Memref.isWhole_whole _) ((hcond0 t).mpr h0) (fun h => h2 ((hcond2 t).mp h)) (iblk V c 0 t))

/-- After a middle strip, the accumulator having held xs. -/
def ptB (c : Dev nD) (t : Fin cfg0.N) (h0 : ¬t.val % 16 = 0) (h2 : ¬t.val % 16 = 15) (xs : Vec F S1x1x8192 .f32) :
    Vec F S256 .f32 × Vec F S1x1x8192 .f32 × Vec F S1x1x8192 .f32 :=
  (out1_B c (grid0.coords t) (ms0 t) (hs0 t) (ms1 t) (hs1 t) (ms2 t) (hs2 t) scM (Memref.isWhole_whole _) (fun h => h0 ((hcond0 t).mp h)) (fun h => h2 ((hcond2 t).mp h)) (iblk V c 0 t) xs, junk2,
   sout_B c (grid0.coords t) (ms0 t) (hs0 t) (ms1 t) (hs1 t) (ms2 t) (hs2 t) scM (Memref.isWhole_whole _) (fun h => h0 ((hcond0 t).mp h)) (fun h => h2 ((hcond2 t).mp h)) (iblk V c 0 t) xs)

/-- After a last strip of a half, the accumulator having held xs. -/
def ptC (c : Dev nD) (t : Fin cfg0.N) (h0 : ¬t.val % 16 = 0) (h2 : t.val % 16 = 15) (xs : Vec F S1x1x8192 .f32) :
    Vec F S256 .f32 × Vec F S1x1x8192 .f32 × Vec F S1x1x8192 .f32 :=
  (out1_C c (grid0.coords t) (ms0 t) (hs0 t) (ms1 t) (hs1 t) (ms2 t) (hs2 t) scM (Memref.isWhole_whole _) (fun h => h0 ((hcond0 t).mp h)) ((hcond2 t).mpr h2) (iblk V c 0 t) xs,
   out2_C c (grid0.coords t) (ms0 t) (hs0 t) (ms1 t) (hs1 t) (ms2 t) (hs2 t) scM (Memref.isWhole_whole _) (fun h => h0 ((hcond0 t).mp h)) ((hcond2 t).mpr h2) (iblk V c 0 t) xs,
   sout_C c (grid0.coords t) (ms0 t) (hs0 t) (ms1 t) (hs1 t) (ms2 t) (hs2 t) scM (Memref.isWhole_whole _) (fun h => h0 ((hcond0 t).mp h)) ((hcond2 t).mpr h2) (iblk V c 0 t) xs)

/-- THE ACCUMULATION: what the row-sum buffer, the column-sum buffer and the accumulator hold after the body at
    position n — the case the closed forms select there, the accumulator read at what position n - 1 left. -/
def outsAt (c : Dev nD) : (n : ℕ) → n < cfg0.N → Vec F S256 .f32 × Vec F S1x1x8192 .f32 × Vec F S1x1x8192 .f32
  | 0, hn => ptA V c ⟨0, hn⟩ (Nat.zero_mod _) (by show ¬(0 % 16 = 15); decide)
  | n + 1, hn =>
    if h0 : (n + 1) % 16 = 0 then
      if h2 : (n + 1) % 16 = 15 then False.elim (by omega)
      else ptA V c ⟨n + 1, hn⟩ h0 h2
    else
      if h2 : (n + 1) % 16 = 15 then ptC V c ⟨n + 1, hn⟩ h0 h2 (outsAt c n (Nat.lt_of_succ_lt hn)).2.2
      else ptB V c ⟨n + 1, hn⟩ h0 h2 (outsAt c n (Nat.lt_of_succ_lt hn)).2.2

/-- outsAt at a first strip of a half. -/
theorem outsAt_A (c : Dev nD) (t : Fin cfg0.N) (h0 : t.val % 16 = 0) (h2 : ¬t.val % 16 = 15) :
    outsAt V c t.val t.isLt = ptA V c t h0 h2 := by
  obtain ⟨n, hn⟩ := t
  cases n with
  | zero => exact rfl
  | succ n => exact (dif_pos h0).trans ((dif_neg h2).trans rfl)

/-- outsAt at a middle strip: over what the point before left in the accumulator. -/
theorem outsAt_B (c : Dev nD) (t : Fin cfg0.N) (h0 : ¬t.val % 16 = 0) (h2 : ¬t.val % 16 = 15) :
    outsAt V c t.val t.isLt = ptB V c t h0 h2 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h2).trans rfl)

/-- outsAt at a last strip of a half: over what the point before left in the accumulator. -/
theorem outsAt_C (c : Dev nD) (t : Fin cfg0.N) (h0 : ¬t.val % 16 = 0) (h2 : t.val % 16 = 15) :
    outsAt V c t.val t.isLt = ptC V c t h0 h2 (outsAt V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h2).trans rfl)

/-! ## The region's invariant -/

/-- Before position n: at the first point what the launch hands the region; afterwards the accumulator at what the
    point before left in it, the untouched scoped buffers at anything, the generator register at some state. -/
def PhiS (c : Dev nD) : (n : ℕ) → n ≤ cfg0.N → sProp 𝕄
  | 0, _ => Pipeline.ΦA spec0 c
  | n + 1, hn => iprop(iprop(owns (c : Thread nD τ) scM fullShare ((outsAt V c n hn).2.2) ∗ restR (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare ((outsAt V c n hn).2.2) ∗ restR (F := F) c) ∗ (∃ r, prngReg c r)) := rfl

theorem PhiS_pos (c : Dev nD) (n : ℕ) (h : n ≤ cfg0.N) (hz : n ≠ 0) :
    PhiS V c n h = iprop(iprop(owns (c : Thread nD τ) scM fullShare ((outsAt V c (n - 1) (by omega)).2.2) ∗ restR (F := F) c) ∗ (∃ r, prngReg c r)) := by
  cases n with
  | zero => exact absurd rfl hz
  | succ n => rfl

/-! ## The pipeline's proof data -/

/-- The proof data of the first pipeline on core c: the arrays as the region finds them; after the body at point t
    the input's buffer at its strip and the outputs' at outsAt; the invariant PhiS; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => (outsAt V c t.val t.isLt).1
    | ⟨2, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]

theorem owed_zero (c : Dev nD) (t : Fin (cfg0.N + 1)) : (dat V c).owed t = 0 := rfl

theorem rec_univ (c : Dev nD) (t : Fin (cfg0.N + 1)) : (dat V c).recorded t = Set.univ := rfl

theorem q_full (c : Dev nD) (w : Fin cfg0.W) : (dat V c).q w = fullShare := rfl

theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = (outsAt V c t.val t.isLt).1 := by dsimp only [dat]
theorem after_2 (c : Dev nD) (t : Fin cfg0.N) : (dat V c).after 2 t = (outsAt V c t.val t.isLt).2.1 := by dsimp only [dat]

theorem before_0 (c : Dev nD) (t : Fin cfg0.N) (d) : (dat V c).before 0 t d = iblk V c 0 t :=
  before_0_of V (dat V c) (A_eq V c 0) (after_0 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the input's memref holds the strip; the closed forms say which case the point is in; the
    invariant hands the body the accumulator at what the point before left (at anything at the first point) and takes
    it back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = PhiS V c (t.val + 1) t.isLt from rfl, PhiS_succ]
  have hN : t.val < 32 := lt_of_lt_of_eq t.isLt (show cfg0.N = 32 from N_0)
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  by_cases h0 : t.val % 16 = 0
  · by_cases h2 : t.val % 16 = 15
    · exfalso; omega
    · rw [Dat.leavesExact_idle (dat V c) 2 t (idleAt_2 t (fun h => h2 ((hcond2 t).mp h))) (noFlush_2 t (fun h => h2 ((hcond2 t).mp h)))]
      rw [outsAt_A V c t h0 h2]
      unfold ptA out1_A sout_A; (try dsimp only)
      by_cases hz : t.val = 0
      · rw [PhiS_castSucc V c t, PhiS_zero V c _ _ hz, PhiA_eq]
        iintro ⟨⟨⟨HS, HR⟩, Hg⟩, Ho, ⟨%d0, H0⟩, ⟨%d1, H1⟩, ⟨%d2, H2⟩⟩
        iapply ((kernelRun_A c (grid0.coords t) _ _ _ _ _ _ _ _ ((hcond0 t).mpr h0) (fun h => h2 ((hcond2 t).mp h)) (iblk V c 0 t)).2.2 _ Set.univ _)
        isplitl [H0]; · iexact H0
        isplitl [H1]; · iexists _; iexact H1
        isplitl [H2]; · iexact H2
        isplitl [HS]; · iexact HS
        iintro ⟨H0, ⟨%e1, H1⟩, H2, ⟨%es, HS⟩⟩
        isplitl [HS HR Hg]
        · isplitl [HS HR]
          · isplitl [HS]
            · unfold owns; iexists _; isplitr
              swap; · iexact HS
              ipureintro; exact View.read_writes_of_cover _ _ _ _ _ (scover_A c _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover1_A c _ _ _ _ _ _ _ _ _ _ _ _)
        iexists _; iexact H2
      · rw [PhiS_castSucc V c t, PhiS_pos V c _ _ hz]
        iintro ⟨⟨⟨HS, HR⟩, Hg⟩, Ho, ⟨%d0, H0⟩, ⟨%d1, H1⟩, ⟨%d2, H2⟩⟩
        iapply ((kernelRun_A c (grid0.coords t) _ _ _ _ _ _ _ _ ((hcond0 t).mpr h0) (fun h => h2 ((hcond2 t).mp h)) (iblk V c 0 t)).2.2 _ Set.univ _)
        isplitl [H0]; · iexact H0
        isplitl [H1]; · iexists _; iexact H1
        isplitl [H2]; · iexact H2
        isplitl [HS]; · iexists _; iexact HS
        iintro ⟨H0, ⟨%e1, H1⟩, H2, ⟨%es, HS⟩⟩
        isplitl [HS HR Hg]
        · isplitl [HS HR]
          · isplitl [HS]
            · unfold owns; iexists _; isplitr
              swap; · iexact HS
              ipureintro; exact View.read_writes_of_cover _ _ _ _ _ (scover_A c _ _ _ _ _ _ _ _ _ _ _ _)
            iexact HR
          iexact Hg
        isplitl [Ho]; · iexact Ho
        isplitl [H0]; · iexact H0
        isplitl [H1]
        · unfold owns; iexists _; isplitr
          swap; · iexact H1
          ipureintro; exact View.read_writes_of_cover _ _ _ _ _ (cover1_A c _ _ _ _ _ _ _ _ _ _ _ _)
        iexists _; iexact H2
  · have hz : t.val ≠ 0 := fun h => h0 (by rw [h])
    by_cases h2 : t.val % 16 = 15
    · rw [show (dat V c).leavesExact 2 t = owns (c : Thread nD τ) (ms2 t) fullShare ((dat V c).after 2 t) from by
        unfold Dat.leavesExact; rw [liveAt_2 t ((hcond2 t).mpr h2)], after_2]
      rw [outsAt_C V c t h0 h2]
      unfold ptC out1_C out2_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid0.coords t) _ _ _ _ _ _ _ _ (fun h => h0 ((hcond0 t).mp h)) ((hcond2 t).mpr h2) (iblk V c 0 t) _).2.2.2 Set.univ _)
      isplitl [H0]; · iexact H0
      isplitl [H1]; · iexists _; iexact H1
      isplitl [H2]; · iexists _; iexact H2
      isplitl [HS]; · iexact HS
      iintro ⟨H0, ⟨%e1, H1⟩, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scover_C c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_C c _ _ _ _ _ _ _ _ _ _ _ _ _)
      unfold owns; iexists _; isplitr
      swap; · iexact H2
      ipureintro; exact View.read_writes_of_cover _ _ _ _ _ (cover2_C c _ _ _ _ _ _ _ _ _ _ _ _ _)
    · rw [Dat.leavesExact_idle (dat V c) 2 t (idleAt_2 t (fun h => h2 ((hcond2 t).mp h))) (noFlush_2 t (fun h => h2 ((hcond2 t).mp h)))]
      rw [outsAt_B V c t h0 h2]
      unfold ptB out1_B sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid0.coords t) _ _ _ _ _ _ _ _ (fun h => h0 ((hcond0 t).mp h)) (fun h => h2 ((hcond2 t).mp h)) (iblk V c 0 t) _).2.2 _ Set.univ _)
      isplitl [H0]; · iexact H0
      isplitl [H1]; · iexists _; iexact H1
      isplitl [H2]; · iexact H2
      isplitl [HS]; · iexact HS
      iintro ⟨H0, ⟨%e1, H1⟩, H2, ⟨%es, HS⟩⟩
      isplitl [HS HR Hg]
      · isplitl [HS HR]
        · isplitl [HS]
          · unfold owns; iexists _; isplitr
            swap; · iexact HS
            ipureintro; exact View.read_writes_of_cover _ _ _ _ _ (scover_B c _ _ _ _ _ _ _ _ _ _ _ _ _)
          iexact HR
        iexact Hg
      isplitl [Ho]; · iexact Ho
      isplitl [H0]; · iexact H0
      isplitl [H1]
      · unfold owns; iexists _; isplitr
        swap; · iexact H1
        ipureintro; exact View.read_writes_of_cover _ _ _ _ _ (cover1_B c _ _ _ _ _ _ _ _ _ _ _ _ _)
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed: the accumulator's named contents
    are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS, HR⟩, Hg⟩
  isplitl [HS HR]
  · isplitl [HS]
    · iexists _; iexact HS
    iexact HR
  iexact Hg

theorem hout (c : Dev nD) : (dat V c).Φ (Fin.last cfg0.N) ⊢ Pipeline.ΦA spec0 c :=
  Phi_out V c _ (by rw [Fin.val_last]; have : cfg0.N = 32 := N_0; omega)

end Cert.KernelIdeal.R0

end
-- ==== Proof.R1Runs.lean ====
import proofs.«174135_j60627758350707_2_alg».proof.Proof.Gen.KernelIdeal.Launch
import proofs.«174135_j60627758350707_2_alg».proof.Proof.Gen.KernelIdeal.Skeleton
import proofs.«174135_j60627758350707_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second pallas_call (grid 8 × 16, point t = 16·i0 + i1): what its three control cases share.
Everything is stated at the buffer contents `V` the TensorCore holds when the region is entered. -/

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an input that is
    not fetched at a point has the block index it had at the point before), for any proof data whose array is the
    entry contents and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (an input that is
    not fetched at a point has the block index it had at the point before), for any proof data whose array is the
    entry contents and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (an input that is
    not fetched at a point has the block index it had at the point before), for any proof data whose array is the
    entry contents and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (an input that is
    not fetched at a point has the block index it had at the point before), for any proof data whose array is the
    entry contents and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (an input that is
    not fetched at a point has the block index it had at the point before), for any proof data whose array is the
    entry contents and whose body leaves the block in place. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- "The inner coordinate is 0": the accumulator is zeroed. -/
abbrev cond0 (i : grid1.Coords) : Prop := (Scalar.cmpi .ne (Scalar.extui (Scalar.cmpi .eq (BitVec.ofNat 32 (i 1).val) 0#32)) 0#32) = 1#1
/-- It holds at the points t with t mod 16 = 0. -/
theorem hcond0 : ∀ t : Fin cfg1.N, cond0 (grid1.coords t) ↔ t.val % 16 = 0 :=
  (by decide +kernel : ∀ t : Fin grid1.N, cond0 (grid1.coords t) ↔ t.val % 16 = 0)

/-- "The inner coordinate is 15": the row block's result is stored. -/
abbrev cond2 (i : grid1.Coords) : Prop := k1_cond2 i = 1#1
/-- It holds at the points t with t mod 16 = 15. -/
theorem hcond2 : ∀ t : Fin cfg1.N, cond2 (grid1.coords t) ↔ t.val % 16 = 15 :=
  (by decide +kernel : ∀ t : Fin grid1.N, cond2 (grid1.coords t) ↔ t.val % 16 = 15)

/-! ## Where the windows are idle -/

/-- The five inputs are never idle. -/
theorem liveAt_0 : ∀ t : Fin cfg1.N, cfg1.idle 0 (grid1.coords t) = false := fun _ => rfl
theorem liveAt_1 : ∀ t : Fin cfg1.N, cfg1.idle 1 (grid1.coords t) = false := fun _ => rfl
theorem liveAt_2 : ∀ t : Fin cfg1.N, cfg1.idle 2 (grid1.coords t) = false := fun _ => rfl
theorem liveAt_3 : ∀ t : Fin cfg1.N, cfg1.idle 3 (grid1.coords t) = false := fun _ => rfl
theorem liveAt_4 : ∀ t : Fin cfg1.N, cfg1.idle 4 (grid1.coords t) = false := fun _ => rfl
/-- Where the result is not stored (cases A and B) the output window is idle and not written back. -/
theorem idleAt_5_A : ∀ t : Fin cfg1.N, cond0 (grid1.coords t) → ¬cond2 (grid1.coords t) → cfg1.idle 5 (grid1.coords t) = true := by decide +kernel
theorem noFlush_5_A : ∀ t : Fin cfg1.N, cond0 (grid1.coords t) → ¬cond2 (grid1.coords t) → (cfg1.win 5).flush t = false := by decide +kernel
theorem idleAt_5_B : ∀ t : Fin cfg1.N, ¬cond0 (grid1.coords t) → ¬cond2 (grid1.coords t) → cfg1.idle 5 (grid1.coords t) = true := by decide +kernel
theorem noFlush_5_B : ∀ t : Fin cfg1.N, ¬cond0 (grid1.coords t) → ¬cond2 (grid1.coords t) → (cfg1.win 5).flush t = false := by decide +kernel
/-- Where it is stored (case C) the output window is live. -/
theorem liveAt_5_C : ∀ t : Fin cfg1.N, ¬cond0 (grid1.coords t) → cond2 (grid1.coords t) → cfg1.idle 5 (grid1.coords t) = false := by decide +kernel

/-! ## The memrefs the body is called with -/

/-- One staging buffer of the output window, through which its contents are stated (the choice does not matter). -/
abbrev VO5 : View sig .tc .vmem S1024 .f32 := (Memref.whole cc1_stg5_0 : Memref sig .tc .vmem S1024 .f32).view
/-- Each window's current staging memref at point `t`, and its wholeness. -/
abbrev ms0 (t : Fin cfg1.N) : Memref sig .tc .vmem S1024x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S8192x512 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1024 .f32 := win1_5.stage (cfg1.slots t 5)
abbrev hs5 (t : Fin cfg1.N) : (ms5 t).IsWhole := hstage1_5 ((cfg1.slots t 5).cast nbuf1_5)
/-- The accumulator: a whole scoped buffer of the kernel's own, carried from point to point. -/
abbrev scM : Memref sig .tc .vmem S1024x512 .f32 := Memref.whole cc1_scratch0
abbrev VS : View sig .tc .vmem S1024x512 .f32 := scM.view

/-- One of the core's scoped buffers that this region neither stages nor touches, at some contents. -/
abbrev oth (c : Dev nD) (b : Ref sig .tc) : sProp 𝕄 :=
  iprop(∃ f : Buf (Elt F) ((c : Thread nD τ).loc b), ((c : Thread nD τ).loc b) ↦{fullShare} f)

/-- The region's invariant as the launch hands it over: the first region's seven scoped buffers at anything, the
    accumulator owned at some contents, the generator register at some state. -/
theorem PhiA_eq (c : Dev nD) :
    (Pipeline.ΦA spec1 c : sProp 𝕄)
      = iprop(iprop(oth c cc0_stg0_0 ∗ oth c cc0_stg0_1 ∗ oth c cc0_stg1_0 ∗ oth c cc0_stg1_1 ∗ oth c cc0_stg2_0 ∗ oth c cc0_stg2_1 ∗ oth c cc0_scratch0
          ∗ (∃ d, owns (c : Thread nD τ) scM fullShare d)) ∗ (∃ r, prngReg c r)) := by
  unfold Pipeline.ΦA; rw [scopedRest1_eq]; simp only [scM, owns_whole]; try rfl

end Cert.KernelIdeal.R1

end
-- ==== Proof.R1RunA.lean ====
import proofs.«174135_j60627758350707_2_alg».proof.Proof.R1Runs

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case A (the inner coordinate is 0 and not 15: the accumulator, held at anything, is zeroed and then receives the point's product; the output window is not touched and is handed back as found).
    On whole memrefs, the five inputs at their contents, the body runs to a continuation that holds the inputs as they
    were, the accumulator with its stores written (the pieces `LS`, last first): the pieces are what the run finds. -/
noncomputable def kernelRun_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) :
    Σ' (L5 : List (View.Piece (Elt F) S1024 .f32)), { LS : List (View.Piece (Elt F) S1024x512 .f32) //
      ∀ (xi5 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.R1RunB.lean ====
import proofs.«174135_j60627758350707_2_alg».proof.Proof.R1RunA

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case B (the inner coordinate is neither 0 nor 15: the accumulator, held at what the point before left, receives the point's product; the output window is not touched and is handed back as found).
    On whole memrefs, the five inputs at their contents, the body runs to a continuation that holds the inputs as they
    were, the accumulator with its stores written (the pieces `LS`, last first): the pieces are what the run finds. -/
noncomputable def kernelRun_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) :
    Σ' (L5 : List (View.Piece (Elt F) S1024 .f32)), { LS : List (View.Piece (Elt F) S1024x512 .f32) //
      ∀ (xi5 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨[], ?_, fun xi5 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.R1

end
-- ==== Proof.R1RunC.lean ====
import proofs.«174135_j60627758350707_2_alg».proof.Proof.R1RunB

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body in case C (the inner coordinate is 15: the accumulator, held at what the point before left, receives the point's product, and the row block's result is stored into the output window, held at anything).
    On whole memrefs, the five inputs at their contents, the body runs to a continuation that holds the inputs as they
    were, the accumulator with its stores written (the pieces `LS`, last first) and the output window with its store written (the pieces `L5`): the pieces are what the run finds. -/
noncomputable def kernelRun_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) :
    Σ' (L5 : List (View.Piece (Elt F) S1024 .f32)), { LS : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs
    sl_exec (disch := first | exact hc0 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.R1

end
-- ==== Proof.R1Frame.lean ====
import proofs.«174135_j60627758350707_2_alg».proof.Proof.R1RunC

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The second pallas_call: what its output window and its accumulator hold point by point, the pipeline's
proof data at the entry contents `V`, and the body obligation. The accumulator after point t = 16·i0 + i1 is
what the points 16·i0 … t of the row block i0 have summed into it; the output block is stored at i1 = 15. -/

variable (V : (c : Dev nD) → (b : Ref sig .tc) → Buf (Elt F) ((c : Thread nD τ).loc b))

/-! ## What each case leaves -/

/-- The accumulator's stores in case A cover it (each is a store of the whole buffer). -/
theorem scover_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) (y : S1024x512.Idx) :
    ∃ pc ∈ (kernelRun_A c i arg2 harg2 arg3 harg3 arg4 harg4 arg5 harg5 arg6 harg6 arg7 harg7 arg8 harg8 hc0 hc2 x0 x1 x2 x3 x4).2.1, y ∈ pc.1.set :=
  View.cover_of_tiledL (kernelRun_A c i arg2 harg2 arg3 harg3 arg4 harg4 arg5 harg5 arg6 harg6 arg7 harg7 arg8 harg8 hc0 hc2 x0 x1 x2 x3 x4).2.1 S1024x512.size (by sl_kernel_rfl) y

/-- What case A leaves in the accumulator: its stores read back. -/
def sout_A (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) : Vec F S1024x512 .f32 :=
  VS.read (Elt F) (VS.writes (Elt F) VS.junk (kernelRun_A c i arg2 harg2 arg3 harg3 arg4 harg4 arg5 harg5 arg6 harg6 arg7 harg7 arg8 harg8 hc0 hc2 x0 x1 x2 x3 x4).2.1)

/-- The accumulator's stores in case B cover it (each is a store of the whole buffer). -/
theorem scover_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) (y : S1024x512.Idx) :
    ∃ pc ∈ (kernelRun_B c i arg2 harg2 arg3 harg3 arg4 harg4 arg5 harg5 arg6 harg6 arg7 harg7 arg8 harg8 hc0 hc2 x0 x1 x2 x3 x4 xs).2.1, y ∈ pc.1.set :=
  View.cover_of_tiledL (kernelRun_B c i arg2 harg2 arg3 harg3 arg4 harg4 arg5 harg5 arg6 harg6 arg7 harg7 arg8 harg8 hc0 hc2 x0 x1 x2 x3 x4 xs).2.1 S1024x512.size (by sl_kernel_rfl) y

/-- What case B leaves in the accumulator: its stores read back. -/
def sout_B (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) : Vec F S1024x512 .f32 :=
  VS.read (Elt F) (VS.writes (Elt F) VS.junk (kernelRun_B c i arg2 harg2 arg3 harg3 arg4 harg4 arg5 harg5 arg6 harg6 arg7 harg7 arg8 harg8 hc0 hc2 x0 x1 x2 x3 x4 xs).2.1)

/-- The accumulator's stores in case C cover it (each is a store of the whole buffer). -/
theorem scover_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) (y : S1024x512.Idx) :
    ∃ pc ∈ (kernelRun_C c i arg2 harg2 arg3 harg3 arg4 harg4 arg5 harg5 arg6 harg6 arg7 harg7 arg8 harg8 hc0 hc2 x0 x1 x2 x3 x4 xs).2.1, y ∈ pc.1.set :=
  View.cover_of_tiledL (kernelRun_C c i arg2 harg2 arg3 harg3 arg4 harg4 arg5 harg5 arg6 harg6 arg7 harg7 arg8 harg8 hc0 hc2 x0 x1 x2 x3 x4 xs).2.1 S1024x512.size (by sl_kernel_rfl) y

/-- What case C leaves in the accumulator: its stores read back. -/
def sout_C (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) : Vec F S1024x512 .f32 :=
  VS.read (Elt F) (VS.writes (Elt F) VS.junk (kernelRun_C c i arg2 harg2 arg3 harg3 arg4 harg4 arg5 harg5 arg6 harg6 arg7 harg7 arg8 harg8 hc0 hc2 x0 x1 x2 x3 x4 xs).2.1)

/-- The output window's store in case C covers its block. -/
theorem cover_C_5 (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) (y : S1024.Idx) :
    ∃ pc ∈ (kernelRun_C c i arg2 harg2 arg3 harg3 arg4 harg4 arg5 harg5 arg6 harg6 arg7 harg7 arg8 harg8 hc0 hc2 x0 x1 x2 x3 x4 xs).1, y ∈ pc.1.set :=
  View.cover_of_tiledL (kernelRun_C c i arg2 harg2 arg3 harg3 arg4 harg4 arg5 harg5 arg6 harg6 arg7 harg7 arg8 harg8 hc0 hc2 x0 x1 x2 x3 x4 xs).1 S1024.size (by sl_kernel_rfl) y

/-- What case C leaves in the output window's buffer: its store read back. -/
def out_C_5 (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) : Vec F S1024 .f32 :=
  VO5.read (Elt F) (VO5.writes (Elt F) VO5.junk (kernelRun_C c i arg2 harg2 arg3 harg3 arg4 harg4 arg5 harg5 arg6 harg6 arg7 harg7 arg8 harg8 hc0 hc2 x0 x1 x2 x3 x4 xs).1)

/-- The output window's buffer where the body does not store into it: nothing reads this value (the window is idle
    there and not written back). -/
def junk5 : Vec F S1024 .f32 := VO5.read (Elt F) VO5.junk

/-! ## The cases at a grid point -/

/-- Case A at point `t` (inner coordinate 0): the accumulator after the point, from the point's blocks. -/
def soutA_at (c : Dev nD) (t : Fin cfg1.N) (h0 : t.val % 16 = 0) (h2 : ¬t.val % 16 = 15) : Vec F S1024x512 .f32 :=
  sout_A c (grid1.coords t) (ms0 t) (hs0 t) (ms1 t) (hs1 t) (ms2 t) (hs2 t) (ms3 t) (hs3 t) (ms4 t) (hs4 t) (ms5 t) (hs5 t) scM (Memref.isWhole_whole _) ((hcond0 t).mpr h0) (fun h => h2 ((hcond2 t).mp h)) (iblk V c 0 t) (iblk V c 1 t) (iblk V c 2 t) (iblk V c 3 t) (iblk V c 4 t)
/-- Case B at point `t` (inner coordinate 1 … 14): the accumulator after the point, from the point's blocks and
    what the point before left in it. -/
def soutB_at (c : Dev nD) (t : Fin cfg1.N) (h0 : ¬t.val % 16 = 0) (h2 : ¬t.val % 16 = 15) (xs : Vec F S1024x512 .f32) : Vec F S1024x512 .f32 :=
  sout_B c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) (fun h => h2 ((hcond2 t).mp h)) (iblk V c 0 t) (iblk V c 1 t) (iblk V c 2 t) (iblk V c 3 t) (iblk V c 4 t) xs
/-- Case C at point `t` (inner coordinate 15): the accumulator after the point, -/
def soutC_at (c : Dev nD) (t : Fin cfg1.N) (h0 : ¬t.val % 16 = 0) (h2 : t.val % 16 = 15) (xs : Vec F S1024x512 .f32) : Vec F S1024x512 .f32 :=
  sout_C c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond2 t).mpr h2) (iblk V c 0 t) (iblk V c 1 t) (iblk V c 2 t) (iblk V c 3 t) (iblk V c 4 t) xs
/-- and the output block stored there. -/
def outC_at (c : Dev nD) (t : Fin cfg1.N) (h0 : ¬t.val % 16 = 0) (h2 : t.val % 16 = 15) (xs : Vec F S1024x512 .f32) : Vec F S1024 .f32 :=
  out_C_5 c (grid1.coords t) (ms0 t) (hs0 t) (ms1 t) (hs1 t) (ms2 t) (hs2 t) (ms3 t) (hs3 t) (ms4 t) (hs4 t) (ms5 t) (hs5 t) scM (Memref.isWhole_whole _) (fun h => h0 ((hcond0 t).mp h)) ((hcond2 t).mpr h2) (iblk V c 0 t) (iblk V c 1 t) (iblk V c 2 t) (iblk V c 3 t) (iblk V c 4 t) xs

/-! ## What the output window and the accumulator hold after each point -/

/-- After the body at position `n`: (the output window's buffer, the accumulator) — the case the point is in, run on
    the point's blocks, the accumulator starting from what position `n - 1` left. -/
def outsAt (c : Dev nD) : (n : ℕ) → n < cfg1.N → Vec F S1024 .f32 × Vec F S1024x512 .f32
  | 0, hn => (junk5, soutA_at V c ⟨0, hn⟩ (Nat.zero_mod _) (fun h => by have h' : (0 : ℕ) % 16 = 15 := h; omega))
  | n + 1, hn =>
    if h0 : (n + 1) % 16 = 0 then
      if h2 : (n + 1) % 16 = 15 then
        False.elim (by omega)
      else
        (junk5, soutA_at V c ⟨n + 1, hn⟩ h0 h2)
    else
      if h2 : (n + 1) % 16 = 15 then
        (outC_at V c ⟨n + 1, hn⟩ h0 h2 (outsAt c n (Nat.lt_of_succ_lt hn)).2, soutC_at V c ⟨n + 1, hn⟩ h0 h2 (outsAt c n (Nat.lt_of_succ_lt hn)).2)
      else
        (junk5, soutB_at V c ⟨n + 1, hn⟩ h0 h2 (outsAt c n (Nat.lt_of_succ_lt hn)).2)

/-- `outsAt` at a point with inner coordinate 0. -/
theorem outsAt_A (c : Dev nD) (t : Fin cfg1.N) (h0 : t.val % 16 = 0) (h2 : ¬t.val % 16 = 15) :
    outsAt V c t.val t.isLt = (junk5, soutA_at V c t h0 h2) := by
  obtain ⟨n, hn⟩ := t
  cases n with
  | zero => exact rfl
  | succ n => exact (dif_pos h0).trans ((dif_neg h2).trans rfl)

/-- `outsAt` at a point with inner coordinate 1 … 14: over what the point before left. -/
theorem outsAt_B (c : Dev nD) (t : Fin cfg1.N) (h0 : ¬t.val % 16 = 0) (h2 : ¬t.val % 16 = 15) :
    outsAt V c t.val t.isLt = (junk5, soutB_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h2).trans rfl)

/-- `outsAt` at a point with inner coordinate 15: over what the point before left. -/
theorem outsAt_C (c : Dev nD) (t : Fin cfg1.N) (h0 : ¬t.val % 16 = 0) (h2 : t.val % 16 = 15) :
    outsAt V c t.val t.isLt = (outC_at V c t h0 h2 (outsAt V c (t.val - 1) (Nat.lt_of_le_of_lt (Nat.sub_le _ _) t.isLt)).2, soutC_at V c t h0 h2 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h2).trans rfl)

/-! ## The region's invariant -/

/-- Before position `n`: at the first point what the launch hands over; afterwards the same with the accumulator at
    what the point before left in it. -/
def PhiS (c : Dev nD) : (n : ℕ) → n ≤ cfg1.N → sProp 𝕄
  | 0, _ => Pipeline.ΦA spec1 c
  | n + 1, hn => iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c n hn).2)) ∗ (∃ r, prngReg c r)) := rfl

theorem PhiS_pos (c : Dev nD) (n : ℕ) (h : n ≤ cfg1.N) (hz : n ≠ 0) :
    PhiS V c n h = iprop(iprop(oth c cc0_stg0_0 ∗ oth c cc0_stg0_1 ∗ oth c cc0_stg1_0 ∗ oth c cc0_stg1_1 ∗ oth c cc0_stg2_0 ∗ oth c cc0_stg2_1 ∗ oth c cc0_scratch0 ∗ owns (c : Thread nD τ) scM fullShare ((outsAt V c (n - 1) (by omega)).2)) ∗ (∃ r, prngReg c r)) := by
  cases n with
  | zero => exact absurd rfl hz
  | succ n => rfl

/-! ## The pipeline's proof data -/

/-- The proof data on core `c`: the arrays as the region finds them; after the body at point `t` each input's buffer
    at its block and the output's at `outsAt`; the invariant `PhiS`; nothing owed. The vector r is staged by two
    windows (by row block and by column block), each holding half of the array's share. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q w := match w with
    | ⟨2, _⟩ => fullShare.left
    | ⟨3, _⟩ => fullShare.right
    | _ => fullShare
  owed _ := 0

theorem A_eq (c : Dev nD) (w : Fin cfg1.W) : (dat V c).A w = V c (Pipeline.arrRef spec1 w) := by
  dsimp only [dat]

theorem owed_zero (c : Dev nD) (t : Fin (cfg1.N + 1)) : (dat V c).owed t = 0 := rfl

theorem rec_univ (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- The inputs are handed back at their blocks. -/
theorem leaves_0 (c : Dev nD) (t : Fin cfg1.N) :
    (dat V c).leavesExact 0 t = owns (c : Thread nD τ) (ms0 t) fullShare (iblk V c 0 t) := by
  rw [show (dat V c).leavesExact 0 t = owns (c : Thread nD τ) (ms0 t) fullShare ((dat V c).after 0 t) from by
    unfold Dat.leavesExact; rw [liveAt_0 t], after_0]
theorem leaves_1 (c : Dev nD) (t : Fin cfg1.N) :
    (dat V c).leavesExact 1 t = owns (c : Thread nD τ) (ms1 t) fullShare (iblk V c 1 t) := by
  rw [show (dat V c).leavesExact 1 t = owns (c : Thread nD τ) (ms1 t) fullShare ((dat V c).after 1 t) from by
    unfold Dat.leavesExact; rw [liveAt_1 t], after_1]
theorem leaves_2 (c : Dev nD) (t : Fin cfg1.N) :
    (dat V c).leavesExact 2 t = owns (c : Thread nD τ) (ms2 t) fullShare (iblk V c 2 t) := by
  rw [show (dat V c).leavesExact 2 t = owns (c : Thread nD τ) (ms2 t) fullShare ((dat V c).after 2 t) from by
    unfold Dat.leavesExact; rw [liveAt_2 t], after_2]
theorem leaves_3 (c : Dev nD) (t : Fin cfg1.N) :
    (dat V c).leavesExact 3 t = owns (c : Thread nD τ) (ms3 t) fullShare (iblk V c 3 t) := by
  rw [show (dat V c).leavesExact 3 t = owns (c : Thread nD τ) (ms3 t) fullShare ((dat V c).after 3 t) from by
    unfold Dat.leavesExact; rw [liveAt_3 t], after_3]
theorem leaves_4 (c : Dev nD) (t : Fin cfg1.N) :
    (dat V c).leavesExact 4 t = owns (c : Thread nD τ) (ms4 t) fullShare (iblk V c 4 t) := by
  rw [show (dat V c).leavesExact 4 t = owns (c : Thread nD τ) (ms4 t) fullShare ((dat V c).after 4 t) from by
    unfold Dat.leavesExact; rw [liveAt_4 t], after_4]

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 8000000 in
/-- The body at any point: the inputs' buffers hold their blocks; the inner coordinate says which case the point is
    in; the invariant hands the body the accumulator (at anything at the very first point, else at what the point
    before left) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).owesAt () t.succ = (dat V c).owesAt () t.castSucc from rfl]
  rw [show (dat V c).Φ t.succ = PhiS V c (t.val + 1) t.isLt from rfl, PhiS_succ]
  rw [leaves_0, leaves_1, leaves_2, leaves_3, leaves_4]
  have hN : t.val < 128 := lt_of_lt_of_eq t.isLt (show cfg1.N = 128 from N_1)
  by_cases h0 : t.val % 16 = 0
  · by_cases h2 : t.val % 16 = 15
    · exfalso; omega
    · rw [Dat.leavesExact_idle (dat V c) 5 t (idleAt_5_A t ((hcond0 t).mpr h0) (fun h => h2 ((hcond2 t).mp h))) (noFlush_5_A t ((hcond0 t).mpr h0) (fun h => h2 ((hcond2 t).mp h)))]
      rw [outsAt_A V c t h0 h2]
      unfold soutA_at sout_A; (try dsimp only)
      by_cases hz : t.val = 0
      · rw [PhiS_castSucc V c t, PhiS_zero V c _ _ hz, PhiA_eq]
        iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond0 t).mpr h0) (fun h => h2 ((hcond2 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [R1 R2 R3 R4 R5 R6 R7 HS Hg]
        · isplitl [R1 R2 R3 R4 R5 R6 R7 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS
            ipureintro; exact View.read_writes_of_cover _ _ _ _ _ (scover_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

      · rw [PhiS_castSucc V c t, PhiS_pos V c _ _ hz]
        iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
        iapply ((kernelRun_A c (grid1.coords t) _ _ _ _ _ _ _ _ _ _ _ _ _ _ ((hcond0 t).mpr h0) (fun h => h2 ((hcond2 t).mp h)) (iblk V c 0 t) (iblk V c 1 t) (iblk V c 2 t) (iblk V c 3 t) (iblk V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [R1 R2 R3 R4 R5 R6 R7 HS Hg]
        · isplitl [R1 R2 R3 R4 R5 R6 R7 HS]
          · isplitl [R1]; · iexact R1
            isplitl [R2]; · iexact R2
            isplitl [R3]; · iexact R3
            isplitl [R4]; · iexact R4
            isplitl [R5]; · iexact R5
            isplitl [R6]; · iexact R6
            isplitl [R7]; · iexact R7
            unfold owns; iexists _; isplitr
            swap; · iexact HS
            ipureintro; exact View.read_writes_of_cover _ _ _ _ _ (scover_A c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

  · by_cases h2 : t.val % 16 = 15
    · rw [show (dat V c).leavesExact 5 t = owns (c : Thread nD τ) (ms5 t) fullShare ((dat V c).after 5 t) from by
        unfold Dat.leavesExact; rw [liveAt_5_C t (fun h => h0 ((hcond0 t).mp h)) ((hcond2 t).mpr h2)], after_5]
      rw [outsAt_C V c t h0 h2]
      unfold outC_at soutC_at out_C_5 sout_C; (try dsimp only)
      have hz : t.val ≠ 0 := by omega
      rw [PhiS_castSucc V c t, PhiS_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
      iapply ((kernelRun_C c (grid1.coords t) _ _ _ _ _ _ _ _ _ _ _ _ _ _ (fun h => h0 ((hcond0 t).mp h)) ((hcond2 t).mpr h2) (iblk V c 0 t) (iblk V c 1 t) (iblk V c 2 t) (iblk V c 3 t) (iblk V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, ⟨%es, HS⟩⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS
          ipureintro; exact View.read_writes_of_cover _ _ _ _ _ (scover_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover_C_5 c _ _ _ _ _ _ _ _ _ _ _ _ _ _ _ _ _ _ _ _ _ _ _)

    · rw [Dat.leavesExact_idle (dat V c) 5 t (idleAt_5_B t (fun h => h0 ((hcond0 t).mp h)) (fun h => h2 ((hcond2 t).mp h))) (noFlush_5_B t (fun h => h0 ((hcond0 t).mp h)) (fun h => h2 ((hcond2 t).mp h)))]
      rw [outsAt_B V c t h0 h2]
      unfold soutB_at sout_B; (try dsimp only)
      have hz : t.val ≠ 0 := by omega
      rw [PhiS_castSucc V c t, PhiS_pos V c _ _ hz]
      iintro ⟨⟨⟨R1, R2, R3, R4, R5, R6, R7, HS⟩, Hg⟩, Ho, ⟨%d0, H0⟩, ⟨%d1, H1⟩, ⟨%d2, H2⟩, ⟨%d3, H3⟩, ⟨%d4, H4⟩, ⟨%d5, H5⟩⟩
      iapply ((kernelRun_B c (grid1.coords t) _ _ _ _ _ _ _ _ _ _ _ _ _ _ (fun h => h0 ((hcond0 t).mp h)) (fun h => h2 ((hcond2 t).mp h)) (iblk V c 0 t) (iblk V c 1 t) (iblk V c 2 t) (iblk V c 3 t) (iblk V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, ⟨%es, HS⟩⟩
      isplitl [R1 R2 R3 R4 R5 R6 R7 HS Hg]
      · isplitl [R1 R2 R3 R4 R5 R6 R7 HS]
        · isplitl [R1]; · iexact R1
          isplitl [R2]; · iexact R2
          isplitl [R3]; · iexact R3
          isplitl [R4]; · iexact R4
          isplitl [R5]; · iexact R5
          isplitl [R6]; · iexact R6
          isplitl [R7]; · iexact R7
          unfold owns; iexists _; isplitr
          swap; · iexact HS
          ipureintro; exact View.read_writes_of_cover _ _ _ _ _ (scover_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives the launch's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨R1, R2, R3, R4, R5, R6, R7, HS⟩, Hg⟩
  isplitl [R1 R2 R3 R4 R5 R6 R7 HS]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS
  iexact Hg

/-- The same after the last point. -/
theorem hout (c : Dev nD) : (dat V c).Φ (Fin.last cfg1.N) ⊢ Pipeline.ΦA spec1 c :=
  Phi_out V c _ (by rw [Fin.val_last]; have : cfg1.N = 128 := N_1; omega)

end Cert.KernelIdeal.R1

end
-- ==== Proof.Shared1.lean ====
import proofs.«174135_j60627758350707_2_alg».proof.Proof.Gen.KernelIdeal.Launch
import Idealize.ShloMosaic.Lib.Pipeline.Regions
import Idealize.ShloMosaic.Lib.Pipeline.RegionsLoop
import Idealize.ShloMosaic.Lib.Pipeline.Frame

/-! # The second call's arrays, one of them read through two windows

The second pallas_call reads the vector `r` (the inverse square roots of the degrees, buffer `main_v14`)
through TWO of its windows: window 2 cuts it in blocks of 1024 entries along the row index of the adjacency
matrix, window 3 in blocks of 512 entries along the contraction index. The other arrays are the adjacency
matrix (`main_arg0`, window 0), the features (`main_arg1`, window 1), the degrees (`main_v8`, window 4) and
the per-row results (`main_v15`, window 5, the output). The five buffers are pairwise distinct, but the six
windows' arrays are not, so the whole share of `r`'s buffer is dealt to the two windows by HALVES: the left
half to window 2, the right half to window 3. Both windows only read, so half a share each is enough, and
the two halves put together are the whole buffer again, at unchanged contents.

`arrays1_eq` lists the call's arrays under that deal as six points-to assertions; `entry1` splits them out of
a core's unscoped buffers, `exit1` puts them back. -/

noncomputable section

namespace Cert.KernelIdeal.Shared1

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD)

/-- Buffer `b` of the TensorCore, all of it, held at the share `q` at contents `f`. -/
abbrev pt (q : PosShare TreeShare) (b : Ref sig .tc) (f : Buf (Elt F) ((c.tc : Thread nD τ).loc b)) : sProp 𝕄 :=
  ((c.tc : Thread nD τ).loc b) ↦{q} f

/-- A whole buffer is its two halves, at the same contents. -/
theorem halves (b : Ref sig .tc) (f : Buf (Elt F) ((c.tc : Thread nD τ).loc b)) :
    (pt c fullShare b f : sProp 𝕄) ⊣⊢ iprop(pt c fullShare.left b f ∗ pt c fullShare.right b f) :=
  pointsTo_share (PosShare.mem_left_op_right fullShare)

/-- The buffers behind the second call's windows are five: the adjacency matrix, the features, `r`, the degrees
    and the output. -/
theorem arrBufs1_eq (V : (b : Ref sig .tc) → Buf (Elt F) ((c.tc : Thread nD τ).loc b)) :
    (Pipeline.arrBufs (Ix := Unit) (Name := ℕ) (U := UR sig nD τ) (Lvl := ℕ) spec1 c V : sProp 𝕄)
      = iprop(pt c fullShare main_arg0 (V main_arg0) ∗ pt c fullShare main_arg1 (V main_arg1)
          ∗ pt c fullShare main_v14 (V main_v14) ∗ pt c fullShare main_v8 (V main_v8)
          ∗ pt c fullShare main_v15 (V main_v15)) := by
  unfold Pipeline.arrBufs
  rw [bigSep_eq_bigSepL_of_eq [main_arg0, main_arg1, main_v14, main_v8, main_v15] (by decide) (by decide)]
  rfl

/-- The second call's arrays under the deal by halves, window by window: the adjacency matrix, the features, the
    degrees and the output each whole; `r` twice, the left half for window 2 and the right half for window 3. -/
theorem arrays1_eq (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (dat.arrays A : sProp 𝕄)
      = iprop(pt c fullShare main_arg0 (V main_arg0) ∗ pt c fullShare main_arg1 (V main_arg1)
          ∗ pt c fullShare.left main_v14 (V main_v14) ∗ pt c fullShare.right main_v14 (V main_v14)
          ∗ pt c fullShare main_v8 (V main_v8) ∗ pt c fullShare main_v15 (V main_v15)) := by
  have s0 : dat.share 0 = fullShare := hq0
  have s1 : dat.share 1 = fullShare := hq1
  have s2 : dat.share 2 = fullShare.left := hq2
  have s3 : dat.share 3 = fullShare.right := hq3
  have s4 : dat.share 4 = fullShare := hq4
  have s5 : dat.share 5 = fullShare := rfl
  unfold Pipeline.Dat.arrays
  rw [bigSep_W1, (arr_whole1 0).set_eq_univ, (arr_whole1 1).set_eq_univ, (arr_whole1 2).set_eq_univ,
    (arr_whole1 4).set_eq_univ, (arr_whole1 5).set_eq_univ,
    s0, s1, s2, s3, s4, s5, hA 0, hA 1, hA 2, hA 3, hA 4, hA 5]

/-- A core's unscoped buffers are the five buffers behind the second call's windows and the rest. -/
theorem unscopedBufs_split1 (V : (b : Ref sig .tc) → Buf (Elt F) ((c.tc : Thread nD τ).loc b)) :
    (unscopedBufs c V : sProp 𝕄)
      = iprop(Pipeline.arrBufs spec1 c V ∗ Pipeline.unscopedRest spec1 c V) :=
  Pipeline.unscopedBufs_split₀ (fun _ : Unit => cfg1) () winFacts₀1.arr_unscoped c V

/-- ENTRY: a core's unscoped buffers at contents `V` are the second call's arrays at the contents read off `V` —
    `r`'s buffer cut in its two halves, one for each window on it — and the unscoped rest. -/
theorem entry1 (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V : (b : Ref sig .tc) → Buf (Elt F) ((c.tc : Thread nD τ).loc b))
    (A : (w : Fin cfg1.W) → Buf (Elt F) ((cfg1.win w).arr.view.loc (c.tc : Thread nD τ)))
    (hA : ∀ w, A w = V (Pipeline.arrRef spec1 w)) :
    (unscopedBufs c V : sProp 𝕄) ⊢ iprop(dat.arrays A ∗ Pipeline.unscopedRest spec1 c V) := by
  rw [unscopedBufs_split1, arrBufs1_eq, arrays1_eq c dat hq0 hq1 hq2 hq3 hq4 V A hA]
  iintro ⟨⟨H0, H1, H14, H8, H15⟩, Hrest⟩
  ihave H := (halves c main_v14 (V main_v14)).1 $$ H14
  icases H with ⟨HL, HR⟩
  isplitr [Hrest]
  · isplitl [H0]; · iexact H0
    isplitl [H1]; · iexact H1
    isplitl [HL]; · iexact HL
    isplitl [HR]; · iexact HR
    isplitl [H8]; · iexact H8
    iexact H15
  iexact Hrest

/-- EXIT: the second call's arrays at contents `A'` — the two halves of `r`'s buffer at the same contents, as they
    are when both are read off one valuation `V'` — and the unscoped rest at `V` are the core's unscoped buffers at
    `V'`, when `V'` agrees with `V` off the five buffers. -/
theorem exit1 (dat : Pipeline.Dat τ (Elt F) Unit ℕ (UR sig nD τ) ℕ cfg1 c)
    (hq0 : dat.q 0 = fullShare) (hq1 : dat.q 1 = fullShare) (hq2 : dat.q 2 = fullShare.left)
    (hq3 : dat.q 3 = fullShare.right) (hq4 : dat.q 4 = fullShare)
    (V V' : (b : Ref sig .tc) → Buf (Elt F) ((c.tc : Thread nD τ).loc b))
    (A' : (w : Fin cfg1.W) → Buf (Elt F) ((cfg1.win w).arr.view.loc (c.tc : Thread nD τ)))
    (hA' : ∀ w, A' w = V' (Pipeline.arrRef spec1 w))
    (hrest : ∀ b, b ∉ Finset.univ.image (Pipeline.arrRef spec1) → V' b = V b) :
    iprop(dat.arrays A' ∗ Pipeline.unscopedRest spec1 c V) ⊢ (unscopedBufs c V' : sProp 𝕄) := by
  have hr : (Pipeline.unscopedRest (Ix := Unit) (Name := ℕ) (U := UR sig nD τ) (Lvl := ℕ) spec1 c V : sProp 𝕄)
      = Pipeline.unscopedRest spec1 c V' := by
    unfold Pipeline.unscopedRest
    exact bigSep_congr fun b hb => by rw [hrest b (Finset.mem_sdiff.mp hb).2]
  rw [unscopedBufs_split1, arrBufs1_eq, arrays1_eq c dat hq0 hq1 hq2 hq3 hq4 V' A' hA', hr]
  iintro ⟨⟨H0, H1, HL, HR, H8, H15⟩, Hrest⟩
  ihave H14 := (halves c main_v14 (V' main_v14)).2 $$ [HL HR]
  · isplitl [HL]; · iexact HL
    iexact HR
  isplitr [Hrest]
  · isplitl [H0]; · iexact H0
    isplitl [H1]; · iexact H1
    isplitl [H14]; · iexact H14
    isplitl [H8]; · iexact H8
    iexact H15
  iexact Hrest

end Cert.KernelIdeal.Shared1

end
-- ==== Proof.KernelRegions.lean ====
/-
  The two pallas_calls' proof data put into the run of @main: pallas_call 0's and pallas_call 1's arrays, body
  obligations and invariants, and pallas_call 1's array shared by two windows held by halves.
-/
import proofs.«174135_j60627758350707_2_alg».proof.Proof.Assembly
import proofs.«174135_j60627758350707_2_alg».proof.Proof.R0Frame
import proofs.«174135_j60627758350707_2_alg».proof.Proof.R1Frame
import proofs.«174135_j60627758350707_2_alg».proof.Proof.Shared1

set_option maxRecDepth 16384

noncomputable section

namespace Cert.KernelIdeal.Asm

open Cert.KernelIdeal Cert.KernelIdeal.Gen
open Idealize.ShloMosaic Idealize.ShloMosaic.TcCoe
open Idealize.SL Idealize.SL.RA Idealize.SL.BI
open scoped Idealize.SL.BI
open Idealize.SL.Sem
open Idealize.ShloMosaic.Pipeline (Dat BodyObligation)

variable {F : FTy → Type} [FloatOps F]

/-- The regions' proof data and obligations. -/
def regs : Regions (F := F) where
  dat0 := R0.dat
  dat1 := R1.dat
  A0 := R0.A_eq
  A1 := R1.A_eq
  q0 := fun _ _ _ => rfl
  owed0 := fun _ _ _ => rfl
  owed1 := fun _ _ _ => rfl
  rec0 := fun _ _ _ => rfl
  rec1 := fun _ _ _ => rfl
  body0 := R0.body_obligation
  body1 := R1.body_obligation
  in0 := R0.hin
  out0 := R0.hout
  in1 := R1.hin
  out1 := R1.hout
  entry1 := fun V c => Shared1.entry1 c (R1.dat V c) rfl rfl rfl rfl rfl (V c) (R1.dat V c).A (fun w => R1.A_eq V c w)
  exit1 := fun V V' c Fw hF hrest => Shared1.exit1 c (R1.dat V c) rfl rfl rfl rfl rfl (V c) (V' c) Fw hF hrest

end Cert.KernelIdeal.Asm

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.Payload0.lean ====
/-
  The sums kernel's stored values read entry by entry, on the extended reals.

  The kernel holds a strip of 256 rows of the matrix A (256 × 8192). It stores three things:
  the zero block that starts the column accumulator; the strip's row sums, entry p being Σ_q A[p, q];
  and the column accumulator advanced by the strip's column sums, entry j becoming acc[j] + Σ_p A[p, j].
  The accumulator is kept as a [1, 1, 8192] block, so a length-8192 vector of column sums is first viewed
  as such a block: entry (0, 0, j) of the block is entry j of the vector.
-/
import proofs.«174135_j60627758350707_2_alg».proof.Proof.Gen.KernelIdeal.Skeleton
import proofs.«174135_j60627758350707_2_alg».proof.Proof.LibAxisReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

/-- A length-n vector viewed as a [1, 1, n] block reads, at (u, w, j), the vector at j,
    whatever the two unit coordinates. -/
theorem shapeCast_n_11n_apply {α : Type} {n : ℕ} (x : (⟨1, ![n]⟩ : Shape).Idx → α)
    (h : (⟨1, ![n]⟩ : Shape).ShapeCasts ⟨3, ![1, 1, n]⟩) (u w : Fin 1) (j : Fin n) :
    shapeCast ⟨3, ![1, 1, n]⟩ x h (ix3 u w j) = x (ix1 j) :=
  shapeCast_apply x h _ _ (by
    have hu : u.val = 0 := by omega
    have hw : w.val = 0 := by omega
    rw [Shape.rowMajor_val_three, Shape.rowMajor_val_one]
    show j.val = (u.val * 1 + w.val) * n + j.val
    rw [hu, hw]; simp)

/-- The block that starts the column accumulator is zero everywhere. -/
theorem k0_pay1_apply (j : Fin 8192) :
    Gen.k0_pay1 (F := Ideal) (ix3 (0 : Fin 1) (0 : Fin 1) j) = (0 : EReal) := by
  unfold Gen.k0_pay1
  rw [shapeCast_self]
  exact Ideal.ofBits_zero_f32

/-- The strip's row sums: entry p is the sum of row p of the strip. -/
theorem k0_pay2_apply (v3 : Vec Ideal S256x8192 .f32) (p : Fin 256) :
    Gen.k0_pay2 (F := Ideal) v3 (ix1 p) = ∑ q : Fin 8192, v3 (ix2 p q) := by
  unfold Gen.k0_pay2
  exact Cert.LibAxisReduce.add_cols_apply (a := 256) (b := 8192) v3 _ _ _ _ p

/-- The column accumulator after the strip: entry j is the accumulator's entry j plus the sum of
    column j of the strip. -/
theorem k0_pay3_apply (v3 : Vec Ideal S256x8192 .f32) (v6 : Vec Ideal S1x1x8192 .f32) (j : Fin 8192) :
    Gen.k0_pay3 (F := Ideal) v3 v6 (ix3 (0 : Fin 1) (0 : Fin 1) j)
      = v6 (ix3 (0 : Fin 1) (0 : Fin 1) j) + ∑ p : Fin 256, v3 (ix2 p j) := by
  unfold Gen.k0_pay3
  dsimp only
  rw [shapeCast_self]
  refine (addf_apply _ _ _).trans ?_
  refine congrArg (v6 (ix3 (0 : Fin 1) (0 : Fin 1) j) + ·) ?_
  refine (shapeCast_n_11n_apply _ _ 0 0 j).trans ?_
  exact Cert.LibAxisReduce.add_rows_apply (a := 256) (b := 8192) v3 _ _ _ _ j

end Cert.KernelIdeal.Pay

end
-- ==== Proof.R0Value.lean ====
/- The first grid kernel's results read entry by entry. The row-sum array ends with entry i the sum of row i of the
   matrix; the column-sum array ends with entry (h, 0, j) the sum of column j over the rows of half h, taken strip by
   strip in the order the grid visits them. The argument: each store's value is the payload of the blocks the body
   loaded; after point t of a half the accumulator holds the partial column sums over the half's strips up to t
   (induction on the point: the first strip of a half starts from zero, every later strip adds onto what the point
   before left); the last strip of a half copies the accumulator out; the blocks written back tile the two arrays. -/
import proofs.«174135_j60627758350707_2_alg».proof.Proof.R0Frame
import proofs.«174135_j60627758350707_2_alg».proof.Proof.Payload0
import proofs.«174135_j60627758350707_2_alg».proof.Proof.Spec
import Idealize.ShloMosaic.Lib.Pipeline.Value
import Idealize.ShloMosaic.Lib.ValueIdx

set_option maxRecDepth 16384

noncomputable section

open scoped BigOperators

namespace Cert.KernelIdeal.R0

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx

/-! ## What each case's stores leave, as payloads of the loaded blocks (at any float instance) -/

section Pieces

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row-sum buffer ends with the row sums of the strip, in every case. -/
theorem out1_A_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i) (x0 : Vec F S256x8192 .f32) :
    out1_A c i arg2 harg2 arg3 harg3 arg4 harg4 arg5 harg5 hc0 hc2 x0 = k0_pay2 x0 := by
  unfold out1_A
  rw [View.read_writes_eq_canon _ _ _ (cover1_A c i arg2 harg2 arg3 harg3 arg4 harg4 arg5 harg5 hc0 hc2 x0)]
  unfold kernelRun_A
  dsimp only
  try sl_unfold_words
  rw [View.canon_unit_zero hz1]
  simp only [View.readAt_eq_ld, harg2.read_unread, View.ld_unit_zero (S := S256x8192) hz2]

theorem out1_B_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i) (x0 : Vec F S256x8192 .f32) (xs : Vec F S1x1x8192 .f32) :
    out1_B c i arg2 harg2 arg3 harg3 arg4 harg4 arg5 harg5 hc0 hc2 x0 xs = k0_pay2 x0 := by
  unfold out1_B
  rw [View.read_writes_eq_canon _ _ _ (cover1_B c i arg2 harg2 arg3 harg3 arg4 harg4 arg5 harg5 hc0 hc2 x0 xs)]
  unfold kernelRun_B
  dsimp only
  try sl_unfold_words
  rw [View.canon_unit_zero hz1]
  simp only [View.readAt_eq_ld, harg2.read_unread, View.ld_unit_zero (S := S256x8192) hz2]

theorem out1_C_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i) (x0 : Vec F S256x8192 .f32) (xs : Vec F S1x1x8192 .f32) :
    out1_C c i arg2 harg2 arg3 harg3 arg4 harg4 arg5 harg5 hc0 hc2 x0 xs = k0_pay2 x0 := by
  unfold out1_C
  rw [View.read_writes_eq_canon _ _ _ (cover1_C c i arg2 harg2 arg3 harg3 arg4 harg4 arg5 harg5 hc0 hc2 x0 xs)]
  unfold kernelRun_C
  dsimp only
  try sl_unfold_words
  rw [View.canon_unit_zero hz1]
  simp only [View.readAt_eq_ld, harg2.read_unread, View.ld_unit_zero (S := S256x8192) hz2]

/-- At the first strip of a half the accumulator ends with the strip's column sums added onto the zero block. -/
theorem sout_A_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : cond0 i) (hc2 : ¬cond2 i) (x0 : Vec F S256x8192 .f32) :
    sout_A c i arg2 harg2 arg3 harg3 arg4 harg4 arg5 harg5 hc0 hc2 x0 = k0_pay3 x0 (k0_pay1 (F := F)) := by
  unfold sout_A
  rw [View.read_writes_eq_canon _ _ _ (scover_A c i arg2 harg2 arg3 harg3 arg4 harg4 arg5 harg5 hc0 hc2 x0)]
  unfold kernelRun_A
  dsimp only
  try sl_unfold_words
  rw [View.canon_cons_unit_zero hz3, View.readCov_unit_zero (S := S1x1x8192) _ hz3]
  simp only [View.readAt_eq_ld, harg2.read_unread, View.ld_unit_zero (S := S256x8192) hz2]

/-- At every later strip it ends with the strip's column sums added onto what it held. -/
theorem sout_B_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : ¬cond2 i) (x0 : Vec F S256x8192 .f32) (xs : Vec F S1x1x8192 .f32) :
    sout_B c i arg2 harg2 arg3 harg3 arg4 harg4 arg5 harg5 hc0 hc2 x0 xs = k0_pay3 x0 xs := by
  unfold sout_B
  rw [View.read_writes_eq_canon _ _ _ (scover_B c i arg2 harg2 arg3 harg3 arg4 harg4 arg5 harg5 hc0 hc2 x0 xs)]
  unfold kernelRun_B
  dsimp only
  try sl_unfold_words
  rw [View.canon_unit_zero hz3]
  simp only [View.readAt_eq_ld, harg2.read_unread, harg5.read_unread, View.ld_unit_zero (S := S256x8192) hz2, View.ld_unit_zero (S := S1x1x8192) hz3]

theorem sout_C_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i) (x0 : Vec F S256x8192 .f32) (xs : Vec F S1x1x8192 .f32) :
    sout_C c i arg2 harg2 arg3 harg3 arg4 harg4 arg5 harg5 hc0 hc2 x0 xs = k0_pay3 x0 xs := by
  unfold sout_C
  rw [View.read_writes_eq_canon _ _ _ (scover_C c i arg2 harg2 arg3 harg3 arg4 harg4 arg5 harg5 hc0 hc2 x0 xs)]
  unfold kernelRun_C
  dsimp only
  try sl_unfold_words
  rw [View.canon_unit_zero hz3]
  simp only [View.readAt_eq_ld, harg2.read_unread, harg5.read_unread, View.ld_unit_zero (S := S256x8192) hz2, View.ld_unit_zero (S := S1x1x8192) hz3]

/-- At the last strip of a half the column-sum buffer ends with a copy of the accumulator. -/
theorem out2_C_eq (c : Dev nD) (i : grid0.Coords) (arg2 : Memref sig .tc .vmem S256x8192 .f32) (harg2 : arg2.IsWhole) (arg3 : Memref sig .tc .vmem S256 .f32) (harg3 : arg3.IsWhole) (arg4 : Memref sig .tc .vmem S1x1x8192 .f32) (harg4 : arg4.IsWhole) (arg5 : Memref sig .tc .vmem S1x1x8192 .f32) (harg5 : arg5.IsWhole) (hc0 : ¬cond0 i) (hc2 : cond2 i) (x0 : Vec F S256x8192 .f32) (xs : Vec F S1x1x8192 .f32) :
    out2_C c i arg2 harg2 arg3 harg3 arg4 harg4 arg5 harg5 hc0 hc2 x0 xs = k0_pay3 x0 xs := by
  unfold out2_C
  rw [View.read_writes_eq_canon _ _ _ (cover2_C c i arg2 harg2 arg3 harg3 arg4 harg4 arg5 harg5 hc0 hc2 x0 xs)]
  unfold kernelRun_C
  dsimp only
  try sl_unfold_words
  rw [View.canon_unit_zero hz3, View.readCov_unit_zero (S := S1x1x8192) _ hz3]
  simp only [View.readAt_eq_ld, harg2.read_unread, harg5.read_unread, View.ld_unit_zero (S := S256x8192) hz2, View.ld_unit_zero (S := S1x1x8192) hz3]

variable (V : (c : Dev nD) → (b : Ref sig .tc) → Buf (Elt F) ((c : Thread nD τ).loc b))

/-- The printed index maps over the 32 points: the strip window and the row-sum window sit at block t, the
    column-sum window at block (t / 16, 0, 0). -/
theorem idx_facts : ∀ t : Fin cfg0.N, win0_0.index t (0 : Fin 2) = t.val ∧ win0_0.index t (1 : Fin 2) = 0
    ∧ win0_1.index t (0 : Fin 1) = t.val
    ∧ win0_2.index t (0 : Fin 3) = t.val / 16 ∧ win0_2.index t (1 : Fin 3) = 0 ∧ win0_2.index t (2 : Fin 3) = 0 :=
  (by decide +kernel : ∀ t : Fin grid0.N, _)

/-- Row r of the strip at point t is row 256·t + r of the matrix. -/
theorem iblk_apply (c : Dev nD) (t : Fin cfg0.N) (r : Fin 256) (q : Fin 8192) (k : Fin 8192) (hk : k.val = 256 * t.val + r.val) :
    (iblk V c 0 t : Vec F S256x8192 .f32) (ix2 r q) = (V c main_arg0 : S8192x8192.Idx → Elt F .f32) (ix2 k q) := by
  obtain ⟨e0, e1, -⟩ := idx_facts t
  unfold iblk
  rw [View.read_apply]
  show V c main_arg0 _ = V c main_arg0 _
  refine congrArg (V c main_arg0) ?_
  funext a
  apply Fin.ext
  match a with
  | ⟨0, _⟩ => show win0_0.index t (0 : Fin 2) * 256 + 1 * r.val = k.val; rw [e0, hk]; omega
  | ⟨1, _⟩ => show win0_0.index t (1 : Fin 2) * 8192 + 1 * q.val = q.val; rw [e1]; omega

/-- At the last strip of a half the column-sum buffer and the accumulator end equal. -/
theorem out2_at (c : Dev nD) (t : Fin cfg0.N) (h2 : t.val % 16 = 15) :
    (outsAt V c t.val t.isLt).2.1 = (outsAt V c t.val t.isLt).2.2 := by
  have h0 : ¬t.val % 16 = 0 := by omega
  rw [outsAt_C V c t h0 h2]
  unfold ptC
  dsimp only
  exact (out2_C_eq c (grid0.coords t) (ms0 t) (hs0 t) (ms1 t) (hs1 t) (ms2 t) (hs2 t) scM (Memref.isWhole_whole _) (fun h => h0 ((hcond0 t).mp h)) ((hcond2 t).mpr h2) (iblk V c 0 t) _).trans
    (sout_C_eq c (grid0.coords t) (ms0 t) (hs0 t) (ms1 t) (hs1 t) (ms2 t) (hs2 t) scM (Memref.isWhole_whole _) (fun h => h0 ((hcond0 t).mp h)) ((hcond2 t).mpr h2) (iblk V c 0 t) _).symm

end Pieces

/-! ## On the extended reals -/

section Values

variable (V : (c : Dev nD) → (b : Ref sig .tc) → Buf (Elt Ideal) ((c : Thread nD τ).loc b))

/-- The matrix as the region finds it. -/
abbrev Aof (c : Dev nD) : Fin 8192 → Fin 8192 → EReal := fun a b => (V c main_arg0 : S8192x8192.Idx → EReal) (ix2 a b)

theorem hN32 : cfg0.N = 32 := N_0

/-- Column j summed over the 256 rows of strip n (of the 32 strips). -/
def stripCol (A : Fin 8192 → Fin 8192 → EReal) (n : ℕ) (j : Fin 8192) : EReal :=
  if hn : n < 32 then ∑ r : Fin 256, A ⟨256 * n + r.val, by have := r.isLt; omega⟩ j else 0

/-- The strip at point t, column j summed over its rows. -/
theorem strip_eq (c : Dev nD) (t : Fin cfg0.N) (j : Fin 8192) (x0 : Vec Ideal S256x8192 .f32) (hx : x0 = iblk V c 0 t) :
    ∑ p : Fin 256, x0 (ix2 p j) = stripCol (Aof V c) t.val j := by
  have ht : t.val < 32 := lt_of_lt_of_eq t.isLt hN32
  unfold stripCol
  rw [dif_pos ht]
  exact Finset.sum_congr rfl fun p _ =>
    (congrFun hx (ix2 p j)).trans (iblk_apply V c t p j ⟨256 * t.val + p.val, by have := p.isLt; omega⟩ rfl)

/-- The column sums of a half as a sum over its 16 strips in order. -/
theorem colK_eq (A : Fin 8192 → Fin 8192 → EReal) (h : Fin 2) (j : Fin 8192) :
    Cert.Spec.colK A h j = ∑ s ∈ Finset.range 16, stripCol A (16 * h.val + s) j := by
  unfold Cert.Spec.colK
  rw [← Fin.sum_univ_eq_sum_range (fun s => stripCol A (16 * h.val + s) j) 16]
  refine Finset.sum_congr rfl fun s _ => ?_
  unfold stripCol
  rw [dif_pos (by have := h.isLt; have := s.isLt; omega)]
  rfl

/-- The row sums a point stores: rows 256·t … 256·t + 255 of the matrix summed. -/
theorem row_at (c : Dev nD) (t : Fin cfg0.N) (r : Fin 256) (k : Fin 8192) (hk : k.val = 256 * t.val + r.val) :
    (outsAt V c t.val t.isLt).1 (ix1 r) = Cert.Spec.rowK (Aof V c) k := by
  have key : ∀ x0 : Vec Ideal S256x8192 .f32, (∀ q : Fin 8192, x0 (ix2 r q) = Aof V c k q) →
      k0_pay2 (F := Ideal) x0 (ix1 r) = Cert.Spec.rowK (Aof V c) k := by
    intro x0 hx
    rw [Pay.k0_pay2_apply]
    exact Finset.sum_congr rfl fun q _ => hx q
  have hx := key (iblk V c 0 t) (fun q => iblk_apply V c t r q k hk)
  by_cases h0 : t.val % 16 = 0
  · have h2 : ¬t.val % 16 = 15 := by omega
    rw [outsAt_A V c t h0 h2]
    unfold ptA
    dsimp only
    exact (congrFun (out1_A_eq c (grid0.coords t) (ms0 t) (hs0 t) (ms1 t) (hs1 t) (ms2 t) (hs2 t) scM (Memref.isWhole_whole _) ((hcond0 t).mpr h0) (fun h => h2 ((hcond2 t).mp h)) (iblk V c 0 t)) (ix1 r)).trans hx
  · by_cases h2 : t.val % 16 = 15
    · rw [outsAt_C V c t h0 h2]
      unfold ptC
      dsimp only
      exact (congrFun (out1_C_eq c (grid0.coords t) (ms0 t) (hs0 t) (ms1 t) (hs1 t) (ms2 t) (hs2 t) scM (Memref.isWhole_whole _) (fun h => h0 ((hcond0 t).mp h)) ((hcond2 t).mpr h2) (iblk V c 0 t) _) (ix1 r)).trans hx
    · rw [outsAt_B V c t h0 h2]
      unfold ptB
      dsimp only
      exact (congrFun (out1_B_eq c (grid0.coords t) (ms0 t) (hs0 t) (ms1 t) (hs1 t) (ms2 t) (hs2 t) scM (Memref.isWhole_whole _) (fun h => h0 ((hcond0 t).mp h)) (fun h => h2 ((hcond2 t).mp h)) (iblk V c 0 t) _) (ix1 r)).trans hx

/-- The accumulator's payload at an entry, from what it held and the strip. -/
theorem pay3_at (x0 : Vec Ideal S256x8192 .f32) (xs : Vec Ideal S1x1x8192 .f32) (j : Fin 8192) (a b : EReal)
    (ha : xs (ix3 (0 : Fin 1) (0 : Fin 1) j) = a) (hb : ∑ p : Fin 256, x0 (ix2 p j) = b) :
    k0_pay3 (F := Ideal) x0 xs (ix3 (0 : Fin 1) (0 : Fin 1) j) = a + b := by
  rw [Pay.k0_pay3_apply, ha, hb]

/-- THE INVARIANT: after point n the accumulator holds, at column j, the sums of column j over the strips of the
    point's half up to the point, added in order. -/
theorem acc_at (c : Dev nD) : ∀ (n : ℕ) (hn : n < cfg0.N) (j : Fin 8192),
    (outsAt V c n hn).2.2 (ix3 (0 : Fin 1) (0 : Fin 1) j)
      = ∑ s ∈ Finset.range (n % 16 + 1), stripCol (Aof V c) (16 * (n / 16) + s) j := by
  intro n
  induction n with
  | zero =>
    intro hn j
    let t : Fin cfg0.N := ⟨0, hn⟩
    have h0 : t.val % 16 = 0 := rfl
    have h2 : ¬t.val % 16 = 15 := by show ¬(0 % 16 = 15); decide
    show (outsAt V c t.val t.isLt).2.2 _ = _
    rw [outsAt_A V c t h0 h2]
    unfold ptA
    dsimp only
    refine (congrFun (sout_A_eq c (grid0.coords t) (ms0 t) (hs0 t) (ms1 t) (hs1 t) (ms2 t) (hs2 t) scM (Memref.isWhole_whole _) ((hcond0 t).mpr h0) (fun h => h2 ((hcond2 t).mp h)) (iblk V c 0 t)) (ix3 (0 : Fin 1) (0 : Fin 1) j)).trans ?_
    refine (pay3_at (iblk V c 0 t) (k0_pay1 (F := Ideal)) j 0 (stripCol (Aof V c) t.val j) (Pay.k0_pay1_apply j) (strip_eq V c t j (iblk V c 0 t) rfl)).trans ?_
    show (0 : EReal) + stripCol (Aof V c) 0 j = ∑ s ∈ Finset.range 1, stripCol (Aof V c) (16 * (0 / 16) + s) j
    rw [Finset.sum_range_one, zero_add]
  | succ n ih =>
    intro hn j
    let t : Fin cfg0.N := ⟨n + 1, hn⟩
    have hlt : n + 1 < 32 := lt_of_lt_of_eq hn hN32
    by_cases h0 : (n + 1) % 16 = 0
    · have h2 : ¬(n + 1) % 16 = 15 := by omega
      show (outsAt V c t.val t.isLt).2.2 _ = _
      rw [outsAt_A V c t h0 h2]
      unfold ptA
      dsimp only
      refine (congrFun (sout_A_eq c (grid0.coords t) (ms0 t) (hs0 t) (ms1 t) (hs1 t) (ms2 t) (hs2 t) scM (Memref.isWhole_whole _) ((hcond0 t).mpr h0) (fun h => h2 ((hcond2 t).mp h)) (iblk V c 0 t)) (ix3 (0 : Fin 1) (0 : Fin 1) j)).trans ?_
      refine (pay3_at (iblk V c 0 t) (k0_pay1 (F := Ideal)) j 0 (stripCol (Aof V c) t.val j) (Pay.k0_pay1_apply j) (strip_eq V c t j (iblk V c 0 t) rfl)).trans ?_
      show (0 : EReal) + stripCol (Aof V c) (n + 1) j = _
      rw [h0, Finset.sum_range_one, zero_add]
      congr 1
      omega
    · have hprev := ih (Nat.lt_of_succ_lt hn) j
      have e1 : (n + 1) / 16 = n / 16 := by omega
      have e2 : (n + 1) % 16 = n % 16 + 1 := by omega
      have e3 : 16 * (n / 16) + (n % 16 + 1) = n + 1 := by omega
      have fin : (∑ s ∈ Finset.range (n % 16 + 1), stripCol (Aof V c) (16 * (n / 16) + s) j) + stripCol (Aof V c) (n + 1) j
          = ∑ s ∈ Finset.range ((n + 1) % 16 + 1), stripCol (Aof V c) (16 * ((n + 1) / 16) + s) j := by
        rw [e1, e2, Finset.sum_range_succ _ (n % 16 + 1), e3]
      by_cases h2 : (n + 1) % 16 = 15
      · show (outsAt V c t.val t.isLt).2.2 _ = _
        rw [outsAt_C V c t h0 h2]
        unfold ptC
        dsimp only
        refine (congrFun (sout_C_eq c (grid0.coords t) (ms0 t) (hs0 t) (ms1 t) (hs1 t) (ms2 t) (hs2 t) scM (Memref.isWhole_whole _) (fun h => h0 ((hcond0 t).mp h)) ((hcond2 t).mpr h2) (iblk V c 0 t) _) (ix3 (0 : Fin 1) (0 : Fin 1) j)).trans ?_
        exact (pay3_at (iblk V c 0 t) _ j _ (stripCol (Aof V c) t.val j) hprev (strip_eq V c t j (iblk V c 0 t) rfl)).trans fin
      · show (outsAt V c t.val t.isLt).2.2 _ = _
        rw [outsAt_B V c t h0 h2]
        unfold ptB
        dsimp only
        refine (congrFun (sout_B_eq c (grid0.coords t) (ms0 t) (hs0 t) (ms1 t) (hs1 t) (ms2 t) (hs2 t) scM (Memref.isWhole_whole _) (fun h => h0 ((hcond0 t).mp h)) (fun h => h2 ((hcond2 t).mp h)) (iblk V c 0 t) _) (ix3 (0 : Fin 1) (0 : Fin 1) j)).trans ?_
        exact (pay3_at (iblk V c 0 t) _ j _ (stripCol (Aof V c) t.val j) hprev (strip_eq V c t j (iblk V c 0 t) rfl)).trans fin

/-! ## The row-sum array -/

/-- What the row-sum array ends holding: entry i is the sum of row i. -/
def G1 (c : Dev nD) : S8192.Idx → EReal := fun i => Cert.Spec.rowK (Aof V c) (i 0 : Fin 8192)

theorem flushed1_eq (c : Dev nD) (t : Fin cfg0.N) :
    (dat V c).flushed 1 t = ((cfg0.win 1).blk t).view.read (Elt Ideal) (G1 V c) := by
  show (cfg0.win 1).cut (grid0.coords t) ((dat V c).after 1 t) = _
  rw [after_1]
  obtain ⟨-, -, e, -⟩ := idx_facts t
  refine funext fun (y : S256.Idx) => ?_
  obtain ⟨r, rfl⟩ : ∃ r : Fin 256, y = ix1 r := ⟨y 0, eq_ix1 y⟩
  have ht : t.val < 32 := lt_of_lt_of_eq t.isLt hN32
  refine (row_at V c t r ⟨256 * t.val + r.val, by have := r.isLt; omega⟩ rfl).trans ?_
  show Cert.Spec.rowK (Aof V c) _ = Cert.Spec.rowK (Aof V c) _
  refine congrArg (Cert.Spec.rowK (Aof V c)) (Fin.ext ?_)
  show 256 * t.val + r.val = win0_1.index t (0 : Fin 1) * 256 + 1 * r.val
  rw [e]; omega

theorem mem_blk1 (t : Fin cfg0.N) (i : S8192.Idx) :
    i ∈ ((cfg0.win 1).blk t).view.set ↔ ∀ a : Fin 1, win0_1.index t a * S256.size a ≤ (i a).val ∧ (i a).val < win0_1.index t a * S256.size a + S256.size a := by
  show i ∈ ((View.whole main_v0_0).slice (win0_1.rect t)).set ↔ _
  rw [View.set_slice_whole, Rect.mem_set_unit]
  exact Iff.rfl

/-- Row i is written back by the point of its strip, i / 256. -/
theorem cover1 (i : S8192.Idx) : ∃ t : Fin cfg0.N, (cfg0.win 1).flush t = true ∧ i ∈ ((cfg0.win 1).blk t).view.set := by
  have hi : (i 0).val < 8192 := (i 0).isLt
  have ht : (i 0).val / 256 < cfg0.N := by rw [hN32]; omega
  refine ⟨⟨(i 0).val / 256, ht⟩, flush0_1 _, ?_⟩
  rw [mem_blk1]
  obtain ⟨-, -, e, -⟩ := idx_facts ⟨(i 0).val / 256, ht⟩
  intro a
  match a with
  | ⟨0, _⟩ =>
    show win0_1.index ⟨(i 0).val / 256, ht⟩ (0 : Fin 1) * 256 ≤ (i 0).val ∧ (i 0).val < win0_1.index ⟨(i 0).val / 256, ht⟩ (0 : Fin 1) * 256 + 256
    rw [e]
    show (i 0).val / 256 * 256 ≤ (i 0).val ∧ (i 0).val < (i 0).val / 256 * 256 + 256
    omega

theorem final1 (c : Dev nD) : (dat V c).arrAt 1 cfg0.N = G1 V c :=
  (dat V c).arrAt_eq_of_cover 1 (G1 V c) (fun t _ => flushed1_eq V c t) cover1

/-- THE ROW SUMS: after the region, entry i of the row-sum array is the sum of row i of the matrix. -/
theorem rowsum_final (c : Dev nD) (i : Fin 8192) :
    ((dat V c).arrAt 1 cfg0.N : S8192.Idx → EReal) (ix1 i) = Cert.Spec.rowK (fun a b => (V c main_arg0 : S8192x8192.Idx → EReal) (ix2 a b)) i := by
  rw [final1]; rfl

/-! ## The column-sum array -/

/-- What the column-sum array ends holding: entry (h, 0, j) is the sum of column j over the rows of half h. -/
def G2 (c : Dev nD) : S2x1x8192.Idx → EReal := fun i => Cert.Spec.colK (Aof V c) (i 0 : Fin 2) (i 2 : Fin 8192)

theorem flushed2_eq (c : Dev nD) (t : Fin cfg0.N) (hf : (cfg0.win 2).flush t = true) :
    (dat V c).flushed 2 t = ((cfg0.win 2).blk t).view.read (Elt Ideal) (G2 V c) := by
  have h2 : t.val % 16 = 15 := (flush0_2 t).mp hf
  have ht : t.val < 32 := lt_of_lt_of_eq t.isLt hN32
  have hh : t.val / 16 < 2 := by omega
  show (cfg0.win 2).cut (grid0.coords t) ((dat V c).after 2 t) = _
  rw [after_2, out2_at V c t h2]
  obtain ⟨-, -, -, e0, e1, e2⟩ := idx_facts t
  refine funext fun (y : S1x1x8192.Idx) => ?_
  obtain ⟨u, w, j, rfl⟩ : ∃ (u : Fin 1) (w : Fin 1) (j : Fin 8192), y = ix3 u w j := ⟨y 0, y 1, y 2, eq_ix3 y⟩
  obtain rfl : u = 0 := Subsingleton.elim _ _
  obtain rfl : w = 0 := Subsingleton.elim _ _
  refine (acc_at V c t.val t.isLt j).trans ?_
  rw [h2]
  have eh : ((((cfg0.win 2).blk t).view.emb (ix3 (0 : Fin 1) (0 : Fin 1) j)) 0 : Fin 2) = ⟨t.val / 16, hh⟩ :=
    Fin.ext (by show win0_2.index t (0 : Fin 3) * 1 + 1 * 0 = t.val / 16; rw [e0]; omega)
  have ej : ((((cfg0.win 2).blk t).view.emb (ix3 (0 : Fin 1) (0 : Fin 1) j)) 2 : Fin 8192) = j :=
    Fin.ext (by show win0_2.index t (2 : Fin 3) * 8192 + 1 * j.val = j.val; rw [e2]; omega)
  show _ = Cert.Spec.colK (Aof V c) ((((cfg0.win 2).blk t).view.emb (ix3 (0 : Fin 1) (0 : Fin 1) j)) 0 : Fin 2) ((((cfg0.win 2).blk t).view.emb (ix3 (0 : Fin 1) (0 : Fin 1) j)) 2 : Fin 8192)
  refine Eq.trans ?_ (congrArg₂ (Cert.Spec.colK (Aof V c)) eh ej).symm
  exact (colK_eq (Aof V c) ⟨t.val / 16, hh⟩ j).symm

theorem mem_blk2 (t : Fin cfg0.N) (i : S2x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v0_1).slice (win0_2.rect t)).set ↔ _
  rw [View.set_slice_whole, Rect.mem_set_unit]
  exact Iff.rfl

/-- Half h's column sums are written back by the last strip of the half, point 16·h + 15. -/
theorem cover2 (i : S2x1x8192.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 8192 := (i 2).isLt
  have ht : 16 * (i 0).val + 15 < cfg0.N := by rw [hN32]; omega
  refine ⟨⟨16 * (i 0).val + 15, ht⟩, (flush0_2 _).mpr (by show (16 * (i 0).val + 15) % 16 = 15; omega), ?_⟩
  rw [mem_blk2]
  obtain ⟨-, -, -, e0, e1, e2⟩ := idx_facts ⟨16 * (i 0).val + 15, ht⟩
  intro a
  match a with
  | ⟨0, _⟩ =>
    show win0_2.index ⟨16 * (i 0).val + 15, ht⟩ (0 : Fin 3) * 1 ≤ (i 0).val ∧ (i 0).val < win0_2.index ⟨16 * (i 0).val + 15, ht⟩ (0 : Fin 3) * 1 + 1
    rw [e0]
    show (16 * (i 0).val + 15) / 16 * 1 ≤ (i 0).val ∧ (i 0).val < (16 * (i 0).val + 15) / 16 * 1 + 1
    omega
  | ⟨1, _⟩ =>
    show win0_2.index ⟨16 * (i 0).val + 15, ht⟩ (1 : Fin 3) * 1 ≤ (i 1).val ∧ (i 1).val < win0_2.index ⟨16 * (i 0).val + 15, ht⟩ (1 : Fin 3) * 1 + 1
    rw [e1]; omega
  | ⟨2, _⟩ =>
    show win0_2.index ⟨16 * (i 0).val + 15, ht⟩ (2 : Fin 3) * 8192 ≤ (i 2).val ∧ (i 2).val < win0_2.index ⟨16 * (i 0).val + 15, ht⟩ (2 : Fin 3) * 8192 + 8192
    rw [e2]; omega

theorem final2 (c : Dev nD) : (dat V c).arrAt 2 cfg0.N = G2 V c :=
  (dat V c).arrAt_eq_of_cover 2 (G2 V c) (fun t hf => flushed2_eq V c t hf) cover2

/-- THE COLUMN SUMS: after the region, entry (h, 0, j) of the column-sum array is the sum of column j over the rows
    of half h, strip by strip. -/
theorem colsum_final (c : Dev nD) (h : Fin 2) (j : Fin 8192) :
    ((dat V c).arrAt 2 cfg0.N : S2x1x8192.Idx → EReal) (ix3 h (0 : Fin 1) j) = Cert.Spec.colK (fun a b => (V c main_arg0 : S8192x8192.Idx → EReal) (ix2 a b)) h j := by
  rw [final2]; rfl

end Values

end Cert.KernelIdeal.R0

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Payload1.lean ====
/-
  The main kernel's stored values read entry by entry, on the extended reals.

  The kernel holds a 1024 × 512 block of the matrix A, the whole feature matrix X (from which it takes
  a 512 × 512 block of rows), the scaling vector r twice (its 1024 entries for the block's rows, its 512
  entries for the block's columns) and the degree vector d (1024 entries). It stores three things:
  the zero block that starts the accumulator Z; the accumulator advanced by the block's share of the
  product A · diag(r) · X, entry (p, q) becoming Z[p, q] + Σ_l A[p, l] · (r[l] · X[l, q]); and, at the end,
  row p's share of the loss, Σ_f X[p, f] · (r[p] · (d[p] · (r[p] · X[p, f]) − Z[p, f])).
  Rounding an entry to a narrower float format does nothing on the extended reals, so the two narrowed
  operands of the product are the operands themselves.
-/
import proofs.«174135_j60627758350707_2_alg».proof.Proof.Gen.KernelIdeal.Skeleton
import proofs.«174135_j60627758350707_2_alg».proof.Proof.LibAxisReduce
import proofs.«174135_j60627758350707_2_alg».proof.Proof.LibColumn
import proofs.«174135_j60627758350707_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal

/-- The kernel's product is the plain one: rows by contraction times contraction by columns. -/
theorem dot_eq_plain :
    dot_S1024x512_S512x512_S1024x512_1_0_0_1_n_n = DotDims.plain 1024 512 512 := rfl

/-- A length-a vector spread along the rows of an a × b matrix: entry (p, c) is the vector's entry p. -/
theorem column_spread_apply {α : Type} {a b : ℕ} (x : (⟨1, ![a]⟩ : Shape).Idx → α)
    (h : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h) hb (ix2 p c) = x (ix1 p) :=
  (Cert.LibColumn.broadcastTo_a1_ab_apply _ hb p c).trans (Cert.LibColumn.shapeCast_a_a1_apply x h p 0)

/-- The block that starts the accumulator is zero everywhere. -/
theorem k1_pay1_apply (p : Fin 1024) (q : Fin 512) :
    Gen.k1_pay1 (F := Ideal) (ix2 p q) = (0 : EReal) := by
  unfold Gen.k1_pay1
  rw [shapeCast_self]
  exact Ideal.ofBits_zero_f32

/-- The accumulator after the block: entry (p, q) is the accumulator's entry plus the block's share of
    the product A · diag(r) · X. -/
theorem k1_pay2_apply (v3 : Vec Ideal S1024x512 .f32) (v8 : Vec Ideal S512x512 .f32) (v9 : Vec Ideal S512 .f32)
    (v16 : Vec Ideal S1024x512 .f32) (p : Fin 1024) (q : Fin 512) :
    Gen.k1_pay2 (F := Ideal) v3 v8 v9 v16 (ix2 p q)
      = v16 (ix2 p q) + ∑ l : Fin 512, v3 (ix2 p l) * (v9 (ix1 l) * v8 (ix2 l q)) := by
  unfold Gen.k1_pay2
  rw [shapeCast_self]
  refine (addf_apply _ _ _).trans ?_
  refine congrArg (v16 (ix2 p q) + ·) ?_
  rw [dot_eq_plain]
  refine (Cert.LibPlainDot.matmul_zero_apply (M := 1024) (K := 512) (N := 512) none _ _ p q).trans ?_
  refine Finset.sum_congr rfl fun l _ => ?_
  refine congrArg (v3 (ix2 p l) * ·) ?_
  refine (mulf_apply _ _ _).trans ?_
  refine congrArg (· * v8 (ix2 l q)) ?_
  rw [shapeCast_self]
  exact column_spread_apply v9 _ _ l q

/-- Row p's share of the loss. -/
theorem k1_pay3_apply (v26 v28 : Vec Ideal S1024 .f32) (v31 v35 : Vec Ideal S1024x512 .f32) (p : Fin 1024) :
    Gen.k1_pay3 (F := Ideal) v26 v28 v31 v35 (ix1 p)
      = ∑ f : Fin 512, v31 (ix2 p f) * (v26 (ix1 p) * (v28 (ix1 p) * (v26 (ix1 p) * v31 (ix2 p f)) - v35 (ix2 p f))) := by
  unfold Gen.k1_pay3
  dsimp only
  refine (Cert.LibAxisReduce.add_cols_apply (a := 1024) (b := 512) _ _ _ _ _ p).trans ?_
  refine Finset.sum_congr rfl fun f _ => ?_
  rw [shapeCast_self, shapeCast_self]
  refine (mulf_apply _ _ _).trans ?_
  refine congrArg (v31 (ix2 p f) * ·) ?_
  refine (mulf_apply _ _ _).trans ?_
  rw [column_spread_apply v26 _ _ p f]
  refine congrArg (v26 (ix1 p) * ·) ?_
  refine (subf_apply _ _ _).trans ?_
  refine congrArg (· - v35 (ix2 p f)) ?_
  refine (mulf_apply _ _ _).trans ?_
  rw [column_spread_apply v28 _ _ p f]
  refine congrArg (v28 (ix1 p) * ·) ?_
  refine (mulf_apply _ _ _).trans ?_
  rw [column_spread_apply v26 _ _ p f]

end Cert.KernelIdeal.Pay

end
-- ==== Proof.SpecLaw.lean ====
/-
  The algebra behind the certificate: on real matrices the kernel's formula for the loss and the reference's
  formula are the same extended real.

  Both formulas are built from finite sums, products and differences of the entries, and from the map
  d ↦ (d + ε)^(-1/2) (0 where infinite).  On a real argument that map is again real (a real power of a real is
  real, so the test for an infinity never fires), hence every quantity on either side is the image of a real
  expression in the entries, and the claim reduces to an identity between real numbers:

    * the two degrees agree:  (1/2)·(Σ_j a_ij + Σ_j a_ji) = Σ_j (a_ji + a_ij)·(1/2), the column sum being taken
      strip by strip (rows 256·(16h + s) + r enumerate all rows exactly once);
    * the contraction taken block by block (columns 512·k + l) is the contraction over all columns;
    * with u_i = r_i·x_if the two quadratic forms differ by Σ_ij u_i·((a_ji + a_ij)/2 − a_ij)·u_j, which vanishes
      because the summand changes sign when i and j are exchanged.
-/
import Mathlib
import Idealize.ShloMosaic.PureOps.Ideal
import Idealize.ShloMosaic.PureOps.Ideal.Laws
import proofs.«174135_j60627758350707_2_alg».proof.Proof.Spec

noncomputable section

namespace Cert.SpecLaw

open Idealize.ShloMosaic Cert.Spec

/-! ## Sums over blocks of an index range -/

/-- A sum over `Fin N`, `N = m·n`, taken block by block: index `n·k + l` is entry `l` of block `k`. -/
theorem sum_block {M : Type*} [AddCommMonoid M] (m n N : ℕ) (hN : m * n = N) (g : Fin N → M)
    (e : Fin m → Fin n → Fin N) (he : ∀ k l, (e k l).val = n * k.val + l.val) :
    ∑ k : Fin m, ∑ l : Fin n, g (e k l) = ∑ j : Fin N, g j := by
  subst hN
  rw [← Fintype.sum_prod_type']
  refine Fintype.sum_equiv finProdFinEquiv _ _ fun p => congrArg g (Fin.ext ?_)
  rw [he]
  simp only [finProdFinEquiv_apply_val]
  exact Nat.add_comm _ _

/-- The rows 256·(16·h + s) + r, over the two halves, their sixteen strips and the strip's 256 rows, are all
    rows, each once. -/
theorem sum_stripRow {M : Type*} [AddCommMonoid M] (g : Fin 8192 → M) :
    ∑ h : Fin 2, ∑ s : Fin 16, ∑ r : Fin 256, g (stripRow h s r) = ∑ i : Fin 8192, g i := by
  have e1 : ∀ (t : Fin 32) (r : Fin 256), 256 * t.val + r.val < 8192 := fun t r => by
    have := t.isLt; have := r.isLt; omega
  have e2 : ∀ (h : Fin 2) (s : Fin 16), 16 * h.val + s.val < 32 := fun h s => by
    have := h.isLt; have := s.isLt; omega
  rw [← sum_block 32 256 8192 rfl g (fun t r => ⟨256 * t.val + r.val, e1 t r⟩) (fun _ _ => rfl)]
  rw [← sum_block 2 16 32 rfl (fun t => ∑ r : Fin 256, g ⟨256 * t.val + r.val, e1 t r⟩)
    (fun h s => ⟨16 * h.val + s.val, e2 h s⟩) (fun _ _ => rfl)]
  rfl

/-- The columns 512·k + l, over the sixteen blocks and the block's 512 columns, are all columns, each once. -/
theorem sum_blockCol {M : Type*} [AddCommMonoid M] (g : Fin 8192 → M) :
    ∑ k : Fin 16, ∑ l : Fin 512, g (blockCol k l) = ∑ j : Fin 8192, g j :=
  sum_block 16 512 8192 rfl g blockCol (fun _ _ => rfl)

/-! ## Real numbers inside the extended reals -/

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_ite (c : Prop) [Decidable c] (a b : ℝ) :
    (if c then (a : EReal) else (b : EReal)) = ((if c then a else b : ℝ) : EReal) := by
  split_ifs <;> rfl

/-! ## The literals -/

theorem zeroW_eq : zeroW = ((0 : ℝ) : EReal) := by
  rw [EReal.coe_zero]; exact Ideal.ofBits_zero_f32

theorem halfW_eq : halfW = (((1 / 2 : ℝ)) : EReal) := by
  simp [Ideal.ofBits, Ideal.ieee]
  rw [← EReal.coe_mul, EReal.coe_eq_coe_iff]
  norm_num

theorem mhalfW_eq : mhalfW = (((-1 / 2 : ℝ)) : EReal) := by
  simp [Ideal.ofBits, Ideal.ieee]
  rw [← EReal.coe_mul, ← EReal.coe_neg, EReal.coe_eq_coe_iff]
  norm_num

theorem infW_eq : infW = ⊤ := by
  simp [Ideal.ofBits, Ideal.ieee]

theorem epsW_eq : ∃ e : ℝ, epsW = (e : EReal) := by
  simp [Ideal.ofBits, Ideal.ieee]
  exact ⟨_, (EReal.coe_mul _ _).symm⟩

/-- On a real argument d ↦ (d + ε)^(-1/2) is a real power of a real, hence real, and the replacement of an
    infinite value by 0 never happens. -/
theorem rinvOf_coe : ∃ ρ : ℝ → ℝ, ∀ d : ℝ, rinvOf (d : EReal) = ((ρ d : ℝ) : EReal) := by
  obtain ⟨e, he⟩ := epsW_eq
  refine ⟨fun d => Real.rpow (d + e) (-1 / 2), fun d => ?_⟩
  unfold rinvOf
  rw [he, mhalfW_eq, infW_eq, ← EReal.coe_add, Ideal.pow_coe_coe]
  have hne : max ((Real.rpow (d + e) (-1 / 2) : ℝ) : EReal) (-((Real.rpow (d + e) (-1 / 2) : ℝ) : EReal)) ≠ ⊤ :=
    (max_lt (EReal.coe_lt_top _) (by rw [← EReal.coe_neg]; exact EReal.coe_lt_top _)).ne
  simp only [Scalar.select, Ideal.cmp, hne, decide_false, BitVec.ofBool_false]
  rfl

/-! ## The two formulas over the reals -/

section Real

variable (ρ : ℝ → ℝ) (a : Fin 8192 → Fin 8192 → ℝ) (x : Fin 8192 → Fin 512 → ℝ)

def rowKr (i : Fin 8192) : ℝ := ∑ j : Fin 8192, a i j
def colKr (h : Fin 2) (j : Fin 8192) : ℝ := ∑ s : Fin 16, ∑ r : Fin 256, a (stripRow h s r) j
def dKr (i : Fin 8192) : ℝ := (1 / 2) * (rowKr a i + (colKr a 0 i + colKr a 1 i))
def rKr (i : Fin 8192) : ℝ := ρ (dKr a i)
def ZKr (i : Fin 8192) (f : Fin 512) : ℝ :=
  ∑ k : Fin 16, ∑ l : Fin 512, a i (blockCol k l) * (rKr ρ a (blockCol k l) * x (blockCol k l) f)
def outKr (i : Fin 8192) : ℝ :=
  ∑ f : Fin 512, x i f * (rKr ρ a i * (dKr a i * (rKr ρ a i * x i f) - ZKr ρ a x i f))
def lossKr : ℝ := 0 + ∑ i : Fin 8192, outKr ρ a x i

def symRr (i j : Fin 8192) : ℝ := (a j i + a i j) * (1 / 2)
def degRr (i : Fin 8192) : ℝ := 0 + ∑ j : Fin 8192, symRr a i j
def lapRr (i j : Fin 8192) : ℝ := (if i = j then degRr a i else 0) - symRr a i j
def rRr (i : Fin 8192) : ℝ := ρ (degRr a i)
def lnormRr (i j : Fin 8192) : ℝ := (rRr ρ a i * lapRr a i j) * rRr ρ a j
def MRr (i : Fin 8192) (f : Fin 512) : ℝ := ∑ j : Fin 8192, lnormRr ρ a i j * x j f
def lossRr : ℝ := 0 + ∑ i : Fin 8192, ∑ f : Fin 512, x i f * MRr ρ a x i f

end Real

/-! ## Each formula is the image of its real counterpart -/

section Coe

variable (ρ : ℝ → ℝ) (hρ : ∀ d : ℝ, rinvOf (d : EReal) = ((ρ d : ℝ) : EReal))
variable (a : Fin 8192 → Fin 8192 → ℝ) (x : Fin 8192 → Fin 512 → ℝ)

local notation "Â" => (fun i j => ((a i j : ℝ) : EReal) : Fin 8192 → Fin 8192 → EReal)
local notation "X̂" => (fun i f => ((x i f : ℝ) : EReal) : Fin 8192 → Fin 512 → EReal)

theorem rowK_coe (i : Fin 8192) : rowK Â i = ((rowKr a i : ℝ) : EReal) := by
  unfold rowK rowKr
  exact (coe_sum _ _).symm

theorem colK_coe (h : Fin 2) (j : Fin 8192) : colK Â h j = ((colKr a h j : ℝ) : EReal) := by
  unfold colK colKr
  simp only [coe_sum]

theorem dK_coe (i : Fin 8192) : dK Â i = ((dKr a i : ℝ) : EReal) := by
  unfold dK dKr
  rw [rowK_coe, colK_coe, colK_coe, halfW_eq, ← EReal.coe_add, ← EReal.coe_add, ← EReal.coe_mul]

include hρ in
theorem rK_coe (i : Fin 8192) : rK Â i = ((rKr ρ a i : ℝ) : EReal) := by
  unfold rK rKr
  rw [dK_coe, hρ]

include hρ in
theorem ZK_coe (i : Fin 8192) (f : Fin 512) : ZK Â X̂ i f = ((ZKr ρ a x i f : ℝ) : EReal) := by
  unfold ZK ZKr
  simp only [rK_coe ρ hρ a, coe_sum, EReal.coe_mul]

include hρ in
theorem outK_coe (i : Fin 8192) : outK Â X̂ i = ((outKr ρ a x i : ℝ) : EReal) := by
  unfold outK outKr
  simp only [rK_coe ρ hρ a, dK_coe a, ZK_coe ρ hρ a x, coe_sum, EReal.coe_mul, EReal.coe_sub]

include hρ in
theorem lossK_coe : lossK Â X̂ = ((lossKr ρ a x : ℝ) : EReal) := by
  unfold lossK lossKr
  simp only [outK_coe ρ hρ a x, zeroW_eq, coe_sum, EReal.coe_add]

theorem symR_coe (i j : Fin 8192) : symR Â i j = ((symRr a i j : ℝ) : EReal) := by
  unfold symR symRr
  rw [halfW_eq, ← EReal.coe_add, ← EReal.coe_mul]

theorem degR_coe (i : Fin 8192) : degR Â i = ((degRr a i : ℝ) : EReal) := by
  unfold degR degRr
  simp only [symR_coe a, zeroW_eq, coe_sum, EReal.coe_add]

theorem lapR_coe (i j : Fin 8192) : lapR Â i j = ((lapRr a i j : ℝ) : EReal) := by
  unfold lapR lapRr
  rw [degR_coe, symR_coe, zeroW_eq, coe_ite, ← EReal.coe_sub]

include hρ in
theorem rR_coe (i : Fin 8192) : rR Â i = ((rRr ρ a i : ℝ) : EReal) := by
  unfold rR rRr
  rw [degR_coe, hρ]

include hρ in
theorem lnormR_coe (i j : Fin 8192) : lnormR Â i j = ((lnormRr ρ a i j : ℝ) : EReal) := by
  unfold lnormR lnormRr
  rw [rR_coe ρ hρ, rR_coe ρ hρ, lapR_coe, ← EReal.coe_mul, ← EReal.coe_mul]

include hρ in
theorem MR_coe (i : Fin 8192) (f : Fin 512) : MR Â X̂ i f = ((MRr ρ a x i f : ℝ) : EReal) := by
  unfold MR MRr
  simp only [lnormR_coe ρ hρ a, coe_sum, EReal.coe_mul]

include hρ in
theorem lossR_coe : lossR Â X̂ = ((lossRr ρ a x : ℝ) : EReal) := by
  unfold lossR lossRr
  simp only [MR_coe ρ hρ a x, zeroW_eq, coe_sum, EReal.coe_mul, EReal.coe_add]

end Coe

/-! ## The identity over the reals -/

/-- A quadratic form sees only the symmetric part of its matrix. -/
theorem quad_symm {ι : Type*} [Fintype ι] (a : ι → ι → ℝ) (u : ι → ℝ) :
    ∑ i, ∑ j, u i * ((a j i + a i j) * (1 / 2)) * u j = ∑ i, ∑ j, u i * a i j * u j := by
  have h : ∑ i, ∑ j, u i * a j i * u j = ∑ i, ∑ j, u i * a i j * u j := by
    rw [Finset.sum_comm]
    exact Finset.sum_congr rfl fun i _ => Finset.sum_congr rfl fun j _ => by ring
  calc ∑ i, ∑ j, u i * ((a j i + a i j) * (1 / 2)) * u j
      = (1 / 2) * (∑ i, ∑ j, u i * a j i * u j + ∑ i, ∑ j, u i * a i j * u j) := by
        rw [← Finset.sum_add_distrib, Finset.mul_sum]
        refine Finset.sum_congr rfl fun i _ => ?_
        rw [← Finset.sum_add_distrib, Finset.mul_sum]
        exact Finset.sum_congr rfl fun j _ => by ring
    _ = ∑ i, ∑ j, u i * a i j * u j := by rw [h]; ring

/-- The two losses over abstract index types, given one degree vector d and one scaling vector r. -/
theorem loss_identity {ι κ : Type*} [Fintype ι] [DecidableEq ι] [Fintype κ]
    (a : ι → ι → ℝ) (x : ι → κ → ℝ) (r d : ι → ℝ) :
    ∑ i, ∑ f, x i f * (r i * (d i * (r i * x i f) - ∑ j, a i j * (r j * x j f)))
      = ∑ i, ∑ f, x i f * ∑ j, ((r i * ((if i = j then d i else 0) - (a j i + a i j) * (1 / 2))) * r j) * x j f := by
  have hL : ∀ i f, x i f * (r i * (d i * (r i * x i f) - ∑ j, a i j * (r j * x j f)))
      = d i * (r i * x i f) * (r i * x i f) - ∑ j, (r i * x i f) * a i j * (r j * x j f) := by
    intro i f
    rw [show ∀ S : ℝ, x i f * (r i * (d i * (r i * x i f) - S))
        = d i * (r i * x i f) * (r i * x i f) - (r i * x i f) * S from fun S => by ring, Finset.mul_sum]
    congr 1
    exact Finset.sum_congr rfl fun j _ => by ring
  have hR : ∀ i f, x i f * ∑ j, ((r i * ((if i = j then d i else 0) - (a j i + a i j) * (1 / 2))) * r j) * x j f
      = d i * (r i * x i f) * (r i * x i f)
        - ∑ j, (r i * x i f) * ((a j i + a i j) * (1 / 2)) * (r j * x j f) := by
    intro i f
    have hj : ∀ j, ((r i * ((if i = j then d i else 0) - (a j i + a i j) * (1 / 2))) * r j) * x j f
        = (if i = j then r i * d i * r j * x j f else 0) - r i * ((a j i + a i j) * (1 / 2)) * r j * x j f := by
      intro j; split_ifs <;> ring
    rw [Finset.sum_congr rfl fun j _ => hj j, Finset.sum_sub_distrib, Finset.sum_ite_eq,
      if_pos (Finset.mem_univ i), mul_sub, Finset.mul_sum]
    congr 1
    · ring
    · exact Finset.sum_congr rfl fun j _ => by ring
  simp only [hL, hR, Finset.sum_sub_distrib]
  congr 1
  conv_lhs => rw [Finset.sum_comm]
  conv_rhs => rw [Finset.sum_comm]
  exact Finset.sum_congr rfl fun f _ => (quad_symm a (fun i => r i * x i f)).symm

theorem dKr_eq_degRr (a : Fin 8192 → Fin 8192 → ℝ) (i : Fin 8192) : dKr a i = degRr a i := by
  unfold dKr degRr rowKr colKr symRr
  have hc : (∑ s : Fin 16, ∑ r : Fin 256, a (stripRow 0 s r) i)
      + (∑ s : Fin 16, ∑ r : Fin 256, a (stripRow 1 s r) i) = ∑ j : Fin 8192, a j i := by
    rw [← sum_stripRow (fun j => a j i), Fin.sum_univ_two]
  rw [hc, zero_add, ← Finset.sum_add_distrib, Finset.mul_sum]
  exact Finset.sum_congr rfl fun j _ => by ring

theorem lossKr_eq_lossRr (ρ : ℝ → ℝ) (a : Fin 8192 → Fin 8192 → ℝ) (x : Fin 8192 → Fin 512 → ℝ) :
    lossKr ρ a x = lossRr ρ a x := by
  have hd : ∀ i, dKr a i = degRr a i := dKr_eq_degRr a
  have hr : ∀ i, rKr ρ a i = rRr ρ a i := fun i => by unfold rKr rRr; rw [hd]
  have hZ : ∀ i f, ZKr ρ a x i f = ∑ j : Fin 8192, a i j * (rKr ρ a j * x j f) := fun i f =>
    sum_blockCol (fun j => a i j * (rKr ρ a j * x j f))
  unfold lossKr lossRr outKr MRr lnormRr lapRr symRr
  simp only [hZ, hr, hd]
  rw [loss_identity a x (rRr ρ a) (degRr a)]

/-! ## The two formulas agree -/

theorem lossK_eq_lossR (A : Fin 8192 → Fin 8192 → EReal) (X : Fin 8192 → Fin 512 → EReal)
    (hA : ∀ i j, ∃ a : ℝ, A i j = (a : EReal)) (hX : ∀ i f, ∃ x : ℝ, X i f = (x : EReal)) :
    Cert.Spec.lossK A X = Cert.Spec.lossR A X := by
  obtain ⟨a, rfl⟩ : ∃ a : Fin 8192 → Fin 8192 → ℝ, A = fun i j => ((a i j : ℝ) : EReal) :=
    ⟨fun i j => Classical.choose (hA i j), funext fun i => funext fun j => Classical.choose_spec (hA i j)⟩
  obtain ⟨x, rfl⟩ : ∃ x : Fin 8192 → Fin 512 → ℝ, X = fun i f => ((x i f : ℝ) : EReal) :=
    ⟨fun i f => Classical.choose (hX i f), funext fun i => funext fun f => Classical.choose_spec (hX i f)⟩
  obtain ⟨ρ, hρ⟩ := rinvOf_coe
  rw [lossK_coe ρ hρ a x, lossR_coe ρ hρ a x, lossKr_eq_lossRr ρ a x]

end Cert.SpecLaw

end
-- ==== Proof.R1Value.lean ====
import proofs.«174135_j60627758350707_2_alg».proof.Proof.R1Frame
import proofs.«174135_j60627758350707_2_alg».proof.Proof.Payload1
import proofs.«174135_j60627758350707_2_alg».proof.Proof.SpecK
import proofs.«174135_j60627758350707_2_alg».proof.Proof.SpecLaw
import Idealize.ShloMosaic.Lib.Pipeline.Value
import Idealize.ShloMosaic.Lib.Tactic

set_option maxRecDepth 16384

noncomputable section

namespace Cert.KernelIdeal.R1V

open Cert.KernelIdeal Cert.KernelIdeal.Gen Cert.KernelIdeal.R1
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-! The second pallas_call's result, read off its frame: what each case stores as the body's arithmetic applied to
the point's blocks; the accumulator after point 16·i0 + n as the sum of the first n + 1 column blocks' products;
the stored row block as row i's share of the loss; and the array the region leaves. -/

theorem hz2 : (![0, 0] : Fin 2 → Nat) = fun _ => 0 := funext fun a => by fin_cases a <;> rfl
theorem hz1 : (![0] : Fin 1 → Nat) = fun _ => 0 := funext fun a => by fin_cases a; rfl

/-- Rows 512·i1 … 512·i1 + 511 of the feature matrix as the body loads them at a point. -/
def xsub1 (i : grid1.Coords) (x1 : Vec F S8192x512 .f32) : Vec F S512x512 .f32 :=
  View.ld x1 (Rect.unit (s := S8192x512) (k1_off1 i) S512x512.size (k1_off1_inb i))

/-- Rows 1024·i0 … 1024·i0 + 1023 of the feature matrix as the body loads them where the result is stored. -/
def xsub2 (i : grid1.Coords) (h : k1_cond2 i = 1#1) (x1 : Vec F S8192x512 .f32) : Vec F S1024x512 .f32 :=
  View.ld x1 (Rect.unit (s := S8192x512) (k1_off2 i) S1024x512.size (k1_off2_inb i h))

/-! ## What each case stores, as the body's arithmetic on the point's blocks (any float instance) -/

/-- Inner coordinate 0: the zeroed accumulator plus the point's product. -/
theorem soutA_eq (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : cond0 i) (hc2 : ¬cond2 i)
    (x0 : Vec F S1024x512 .f32) (x1 : Vec F S8192x512 .f32) (x2 : Vec F S1024 .f32) (x3 : Vec F S512 .f32) (x4 : Vec F S1024 .f32) :
    sout_A c i arg2 harg2 arg3 harg3 arg4 harg4 arg5 harg5 arg6 harg6 arg7 harg7 arg8 harg8 hc0 hc2 x0 x1 x2 x3 x4 = k1_pay2 x0 (xsub1 i x1) x3 (k1_pay1 (F := F)) := by
  unfold sout_A
  rw [View.read_writes_eq_canon _ _ _ (scover_A c i arg2 harg2 arg3 harg3 arg4 harg4 arg5 harg5 arg6 harg6 arg7 harg7 arg8 harg8 hc0 hc2 x0 x1 x2 x3 x4)]
  unfold kernelRun_A
  dsimp only
  try sl_unfold_words
  rw [View.canon_cons_unit_zero hz2, View.readCov_unit_zero (S := S1024x512) _ hz2]
  simp only [View.readAt_eq_ld, harg2.read_unread, harg3.read_unread, harg4.read_unread, harg5.read_unread, harg6.read_unread, harg8.read_unread, View.ld_unit_zero (S := S1024x512) hz2, View.ld_unit_zero (S := S512) hz1, View.ld_unit_zero (S := S1024) hz1]
  rfl

/-- Inner coordinate 1 … 14: what the point before left plus the point's product. -/
theorem soutB_eq (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : ¬cond2 i)
    (x0 : Vec F S1024x512 .f32) (x1 : Vec F S8192x512 .f32) (x2 : Vec F S1024 .f32) (x3 : Vec F S512 .f32) (x4 : Vec F S1024 .f32) (xs : Vec F S1024x512 .f32) :
    sout_B c i arg2 harg2 arg3 harg3 arg4 harg4 arg5 harg5 arg6 harg6 arg7 harg7 arg8 harg8 hc0 hc2 x0 x1 x2 x3 x4 xs = k1_pay2 x0 (xsub1 i x1) x3 xs := by
  unfold sout_B
  rw [View.read_writes_eq_canon _ _ _ (scover_B c i arg2 harg2 arg3 harg3 arg4 harg4 arg5 harg5 arg6 harg6 arg7 harg7 arg8 harg8 hc0 hc2 x0 x1 x2 x3 x4 xs)]
  unfold kernelRun_B
  dsimp only
  try sl_unfold_words
  rw [View.canon_unit_zero hz2]
  simp only [View.readAt_eq_ld, harg2.read_unread, harg3.read_unread, harg4.read_unread, harg5.read_unread, harg6.read_unread, harg8.read_unread, View.ld_unit_zero (S := S1024x512) hz2, View.ld_unit_zero (S := S512) hz1, View.ld_unit_zero (S := S1024) hz1]
  rfl

/-- Inner coordinate 15: the same, -/
theorem soutC_eq (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) :
    sout_C c i arg2 harg2 arg3 harg3 arg4 harg4 arg5 harg5 arg6 harg6 arg7 harg7 arg8 harg8 hc0 hc2 x0 x1 x2 x3 x4 xs = k1_pay2 x0 (xsub1 i x1) x3 xs := by
  unfold sout_C
  rw [View.read_writes_eq_canon _ _ _ (scover_C c i arg2 harg2 arg3 harg3 arg4 harg4 arg5 harg5 arg6 harg6 arg7 harg7 arg8 harg8 hc0 hc2 x0 x1 x2 x3 x4 xs)]
  unfold kernelRun_C
  dsimp only
  try sl_unfold_words
  rw [View.canon_unit_zero hz2]
  simp only [View.readAt_eq_ld, harg2.read_unread, harg3.read_unread, harg4.read_unread, harg5.read_unread, harg6.read_unread, harg8.read_unread, View.ld_unit_zero (S := S1024x512) hz2, View.ld_unit_zero (S := S512) hz1, View.ld_unit_zero (S := S1024) hz1]
  rfl

/-- and the row block's result computed from the finished accumulator. -/
theorem outC_eq (c : Dev nD) (i : grid1.Coords) (arg2 : Memref sig .tc .vmem S1024x512 .f32) (harg2 : arg2.IsWhole) (arg3 : Memref sig .tc .vmem S8192x512 .f32) (harg3 : arg3.IsWhole) (arg4 : Memref sig .tc .vmem S1024 .f32) (harg4 : arg4.IsWhole) (arg5 : Memref sig .tc .vmem S512 .f32) (harg5 : arg5.IsWhole) (arg6 : Memref sig .tc .vmem S1024 .f32) (harg6 : arg6.IsWhole) (arg7 : Memref sig .tc .vmem S1024 .f32) (harg7 : arg7.IsWhole) (arg8 : Memref sig .tc .vmem S1024x512 .f32) (harg8 : arg8.IsWhole) (hc0 : ¬cond0 i) (hc2 : cond2 i)
    (x0 : Vec F S1024x512 .f32) (x1 : Vec F S8192x512 .f32) (x2 : Vec F S1024 .f32) (x3 : Vec F S512 .f32) (x4 : Vec F S1024 .f32) (xs : Vec F S1024x512 .f32) :
    out_C_5 c i arg2 harg2 arg3 harg3 arg4 harg4 arg5 harg5 arg6 harg6 arg7 harg7 arg8 harg8 hc0 hc2 x0 x1 x2 x3 x4 xs = k1_pay3 x2 x4 (xsub2 i hc2 x1) (k1_pay2 x0 (xsub1 i x1) x3 xs) := by
  unfold out_C_5
  rw [View.read_writes_eq_canon _ _ _ (cover_C_5 c i arg2 harg2 arg3 harg3 arg4 harg4 arg5 harg5 arg6 harg6 arg7 harg7 arg8 harg8 hc0 hc2 x0 x1 x2 x3 x4 xs)]
  unfold kernelRun_C
  dsimp only
  try sl_unfold_words
  rw [View.canon_unit_zero hz1, View.readCov_unit_zero (S := S1024x512) _ hz2]
  simp only [View.readAt_eq_ld, harg2.read_unread, harg3.read_unread, harg4.read_unread, harg5.read_unread, harg6.read_unread, harg8.read_unread, View.ld_unit_zero (S := S1024x512) hz2, View.ld_unit_zero (S := S512) hz1, View.ld_unit_zero (S := S1024) hz1]
  rfl

/-! ## The blocks' positions, decided over the grid: point t = 16·i0 + i1 -/

theorem idx0 : ∀ t : Fin cfg1.N, win1_0.index t 0 = t.val / 16 ∧ win1_0.index t 1 = t.val % 16 :=
  (by decide +kernel : ∀ t : Fin grid1.N, win1_0.index t 0 = t.val / 16 ∧ win1_0.index t 1 = t.val % 16)
theorem idx1 : ∀ t : Fin cfg1.N, win1_1.index t 0 = 0 ∧ win1_1.index t 1 = 0 :=
  (by decide +kernel : ∀ t : Fin grid1.N, win1_1.index t 0 = 0 ∧ win1_1.index t 1 = 0)
theorem idx2 : ∀ t : Fin cfg1.N, win1_2.index t 0 = t.val / 16 :=
  (by decide +kernel : ∀ t : Fin grid1.N, win1_2.index t 0 = t.val / 16)
theorem idx3 : ∀ t : Fin cfg1.N, win1_3.index t 0 = t.val % 16 :=
  (by decide +kernel : ∀ t : Fin grid1.N, win1_3.index t 0 = t.val % 16)
theorem idx4 : ∀ t : Fin cfg1.N, win1_4.index t 0 = t.val / 16 :=
  (by decide +kernel : ∀ t : Fin grid1.N, win1_4.index t 0 = t.val / 16)
theorem idx5 : ∀ t : Fin cfg1.N, win1_5.index t 0 = t.val / 16 :=
  (by decide +kernel : ∀ t : Fin grid1.N, win1_5.index t 0 = t.val / 16)
theorem off1 : ∀ t : Fin cfg1.N, k1_off1 (grid1.coords t) 0 = 512 * (t.val % 16) ∧ k1_off1 (grid1.coords t) 1 = 0 :=
  (by decide +kernel : ∀ t : Fin grid1.N, k1_off1 (grid1.coords t) 0 = 512 * (t.val % 16) ∧ k1_off1 (grid1.coords t) 1 = 0)
theorem off2 : ∀ t : Fin cfg1.N, k1_off2 (grid1.coords t) 0 = 1024 * (t.val / 16) ∧ k1_off2 (grid1.coords t) 1 = 0 :=
  (by decide +kernel : ∀ t : Fin grid1.N, k1_off2 (grid1.coords t) 0 = 1024 * (t.val / 16) ∧ k1_off2 (grid1.coords t) 1 = 0)

/-! ## The body's own sub-blocks of the feature matrix -/

theorem xsub1_apply (i : grid1.Coords) (x1 : Vec F S8192x512 .f32) (l : Fin 512) (q : Fin 512) (a : Fin 8192)
    (ha : a.val = k1_off1 i 0 + l.val) (h1 : k1_off1 i 1 = 0) : xsub1 i x1 (ix2 l q) = x1 (ix2 a q) := by
  unfold xsub1
  show x1 ((Rect.unit (s := S8192x512) (k1_off1 i) S512x512.size (k1_off1_inb i)).emb (ix2 l q)) = _
  refine congrArg _ ?_
  funext ax
  apply Fin.ext
  rw [Rect.emb_apply]
  match ax with
  | ⟨0, _⟩ => show k1_off1 i 0 + 1 * l.val = a.val; omega
  | ⟨1, _⟩ => show k1_off1 i 1 + 1 * q.val = q.val; omega

theorem xsub2_apply (i : grid1.Coords) (h : k1_cond2 i = 1#1) (x1 : Vec F S8192x512 .f32) (p : Fin 1024) (f : Fin 512) (a : Fin 8192)
    (ha : a.val = k1_off2 i 0 + p.val) (h1 : k1_off2 i 1 = 0) : xsub2 i h x1 (ix2 p f) = x1 (ix2 a f) := by
  unfold xsub2
  show x1 ((Rect.unit (s := S8192x512) (k1_off2 i) S1024x512.size (k1_off2_inb i h)).emb (ix2 p f)) = _
  refine congrArg _ ?_
  funext ax
  apply Fin.ext
  rw [Rect.emb_apply]
  match ax with
  | ⟨0, _⟩ => show k1_off2 i 0 + 1 * p.val = a.val; omega
  | ⟨1, _⟩ => show k1_off2 i 1 + 1 * f.val = f.val; omega

/-! ## The blocks as entries of the arrays (extended reals) -/

section Ideal

variable (V : (c : Dev nD) → (b : Ref sig .tc) → Buf (Elt Ideal) ((c : Thread nD τ).loc b))

/-- The adjacency block: rows 1024·i0 + p, columns 512·i1 + q. -/
theorem iblk0_apply (c : Dev nD) (t : Fin cfg1.N) (p : Fin 1024) (q : Fin 512) (a b : Fin 8192)
    (ha : a.val = 1024 * (t.val / 16) + p.val) (hb : b.val = 512 * (t.val % 16) + q.val) :
    (iblk V c 0 t : Vec Ideal S1024x512 .f32) (ix2 p q) = (V c main_arg0 : S8192x8192.Idx → EReal) (ix2 a b) := by
  obtain ⟨h0, h1⟩ := idx0 t
  unfold iblk
  rw [View.read_apply]
  show V c main_arg0 _ = V c main_arg0 _
  refine congrArg _ ?_
  funext ax
  apply Fin.ext
  match ax with
  | ⟨0, _⟩ => show win1_0.index t 0 * 1024 + 1 * p.val = a.val; rw [h0, ha]; omega
  | ⟨1, _⟩ => show win1_0.index t 1 * 512 + 1 * q.val = b.val; rw [h1, hb]; omega

/-- The feature matrix, staged whole. -/
theorem iblk1_apply (c : Dev nD) (t : Fin cfg1.N) (a : Fin 8192) (f : Fin 512) :
    (iblk V c 1 t : Vec Ideal S8192x512 .f32) (ix2 a f) = (V c main_arg1 : S8192x512.Idx → EReal) (ix2 a f) := by
  obtain ⟨h0, h1⟩ := idx1 t
  unfold iblk
  rw [View.read_apply]
  show V c main_arg1 _ = V c main_arg1 _
  refine congrArg _ ?_
  funext ax
  apply Fin.ext
  match ax with
  | ⟨0, _⟩ => show win1_1.index t 0 * 8192 + 1 * a.val = a.val; rw [h0]; omega
  | ⟨1, _⟩ => show win1_1.index t 1 * 512 + 1 * f.val = f.val; rw [h1]; omega

/-- The scale vector by row block: entries 1024·i0 + p. -/
theorem iblk2_apply (c : Dev nD) (t : Fin cfg1.N) (p : Fin 1024) (a : Fin 8192) (ha : a.val = 1024 * (t.val / 16) + p.val) :
    (iblk V c 2 t : Vec Ideal S1024 .f32) (ix1 p) = (V c main_v14 : S8192.Idx → EReal) (ix1 a) := by
  have h0 := idx2 t
  unfold iblk
  rw [View.read_apply]
  show V c main_v14 _ = V c main_v14 _
  refine congrArg _ ?_
  funext ax
  apply Fin.ext
  match ax with
  | ⟨0, _⟩ => show win1_2.index t 0 * 1024 + 1 * p.val = a.val; rw [h0, ha]; omega

/-- The scale vector by column block: entries 512·i1 + l. -/
theorem iblk3_apply (c : Dev nD) (t : Fin cfg1.N) (l : Fin 512) (a : Fin 8192) (ha : a.val = 512 * (t.val % 16) + l.val) :
    (iblk V c 3 t : Vec Ideal S512 .f32) (ix1 l) = (V c main_v14 : S8192.Idx → EReal) (ix1 a) := by
  have h0 := idx3 t
  unfold iblk
  rw [View.read_apply]
  show V c main_v14 _ = V c main_v14 _
  refine congrArg _ ?_
  funext ax
  apply Fin.ext
  match ax with
  | ⟨0, _⟩ => show win1_3.index t 0 * 512 + 1 * l.val = a.val; rw [h0, ha]; omega

/-- The degree vector by row block: entries 1024·i0 + p. -/
theorem iblk4_apply (c : Dev nD) (t : Fin cfg1.N) (p : Fin 1024) (a : Fin 8192) (ha : a.val = 1024 * (t.val / 16) + p.val) :
    (iblk V c 4 t : Vec Ideal S1024 .f32) (ix1 p) = (V c main_v8 : S8192.Idx → EReal) (ix1 a) := by
  have h0 := idx4 t
  unfold iblk
  rw [View.read_apply]
  show V c main_v8 _ = V c main_v8 _
  refine congrArg _ ?_
  funext ax
  apply Fin.ext
  match ax with
  | ⟨0, _⟩ => show win1_4.index t 0 * 1024 + 1 * p.val = a.val; rw [h0, ha]; omega

end Ideal

/-! ## The accumulator's partial sums, and one point's step, over any matrices -/

section Pure

open Cert.Spec

variable (A : Fin 8192 → Fin 8192 → EReal) (X : Fin 8192 → Fin 512 → EReal) (r d : Fin 8192 → EReal)

/-- Column block k's share of (A · diag r · X) at (row, q); zero from k = 16 on. -/
def term (row : Fin 8192) (q : Fin 512) (k : ℕ) : EReal :=
  if h : k < 16 then ∑ l : Fin 512, A row (blockCol ⟨k, h⟩ l) * (r (blockCol ⟨k, h⟩ l) * X (blockCol ⟨k, h⟩ l) q) else 0

/-- The first n + 1 column blocks' shares, summed. -/
def partZ (row : Fin 8192) (q : Fin 512) (n : ℕ) : EReal := ∑ k ∈ Finset.range (n + 1), term A X r row q k

/-- All sixteen are the whole contraction. -/
theorem partZ_last (row : Fin 8192) (q : Fin 512) : partZ A X r row q 15 = ZOf A X r row q := by
  unfold partZ ZOf
  rw [Finset.sum_range]
  refine Finset.sum_congr rfl fun k _ => ?_
  unfold term
  rw [dif_pos k.isLt]

/-- One point adds its column block's share to what the accumulator held. -/
theorem pay2_step (x0 : Vec Ideal S1024x512 .f32) (xb : Vec Ideal S512x512 .f32) (x3 : Vec Ideal S512 .f32) (acc : Vec Ideal S1024x512 .f32)
    (row : Fin 8192) (k : ℕ) (hk : k < 16) (p : Fin 1024) (q : Fin 512)
    (h0 : ∀ l : Fin 512, x0 (ix2 p l) = A row (blockCol ⟨k, hk⟩ l))
    (h3 : ∀ l : Fin 512, x3 (ix1 l) = r (blockCol ⟨k, hk⟩ l))
    (hb : ∀ l : Fin 512, xb (ix2 l q) = X (blockCol ⟨k, hk⟩ l) q) :
    k1_pay2 (F := Ideal) x0 xb x3 acc (ix2 p q) = acc (ix2 p q) + term A X r row q k := by
  refine (Cert.KernelIdeal.Pay.k1_pay2_apply x0 xb x3 acc p q).trans ?_
  unfold term
  rw [dif_pos hk]
  refine congrArg (acc (ix2 p q) + ·) (Finset.sum_congr rfl fun l _ => ?_)
  rw [h0 l, h3 l, hb l]

/-- The stored entry from the finished accumulator is the row's share of the loss. -/
theorem pay3_step (x2 x4 : Vec Ideal S1024 .f32) (xb : Vec Ideal S1024x512 .f32) (acc : Vec Ideal S1024x512 .f32)
    (row : Fin 8192) (p : Fin 1024)
    (h2 : x2 (ix1 p) = r row) (h4 : x4 (ix1 p) = d row)
    (hb : ∀ f : Fin 512, xb (ix2 p f) = X row f)
    (hacc : ∀ f : Fin 512, acc (ix2 p f) = ZOf A X r row f) :
    k1_pay3 (F := Ideal) x2 x4 xb acc (ix1 p) = outOf A X r d row := by
  refine (Cert.KernelIdeal.Pay.k1_pay3_apply x2 x4 xb acc p).trans ?_
  unfold outOf
  refine Finset.sum_congr rfl fun f _ => ?_
  rw [h2, h4, hb f, hacc f]

end Pure

/-! ## The accumulator and the stored block at every point; the array the region leaves -/

section Ideal2

open Cert.Spec

variable (V : (c : Dev nD) → (b : Ref sig .tc) → Buf (Elt Ideal) ((c : Thread nD τ).loc b))

/-- The arrays as the region finds them, entry by entry. -/
abbrev Aof (c : Dev nD) : Fin 8192 → Fin 8192 → EReal := fun a b => (V c main_arg0 : S8192x8192.Idx → EReal) (ix2 a b)
abbrev Xof (c : Dev nD) : Fin 8192 → Fin 512 → EReal := fun a f => (V c main_arg1 : S8192x512.Idx → EReal) (ix2 a f)
abbrev rof (c : Dev nD) : Fin 8192 → EReal := fun a => (V c main_v14 : S8192.Idx → EReal) (ix1 a)
abbrev dof (c : Dev nD) : Fin 8192 → EReal := fun a => (V c main_v8 : S8192.Idx → EReal) (ix1 a)

/-- Row 1024·i0 + p of the arrays, at point t = 16·i0 + i1. -/
def rowOf (t : Fin cfg1.N) (p : Fin 1024) : Fin 8192 :=
  ⟨1024 * (t.val / 16) + p.val, by have := t.isLt; have hN : cfg1.N = 128 := N_1; have := p.isLt; omega⟩

/-- The accumulator after a point's body, whatever it held before: that plus the point's column block's share. -/
theorem step_at (c : Dev nD) (t : Fin cfg1.N) (acc : Vec Ideal S1024x512 .f32) (p : Fin 1024) (q : Fin 512) :
    k1_pay2 (F := Ideal) (iblk V c 0 t) (xsub1 (grid1.coords t) (iblk V c 1 t)) (iblk V c 3 t) acc (ix2 p q)
      = acc (ix2 p q) + term (Aof V c) (Xof V c) (rof V c) (rowOf t p) q (t.val % 16) :=
  pay2_step (Aof V c) (Xof V c) (rof V c) (iblk V c 0 t) (xsub1 (grid1.coords t) (iblk V c 1 t)) (iblk V c 3 t) acc
    (rowOf t p) (t.val % 16) (Nat.mod_lt _ (by decide)) p q
    (fun l => iblk0_apply V c t p l (rowOf t p) (blockCol ⟨t.val % 16, Nat.mod_lt _ (by decide)⟩ l) rfl rfl)
    (fun l => iblk3_apply V c t l (blockCol ⟨t.val % 16, Nat.mod_lt _ (by decide)⟩ l) rfl)
    (fun l => (xsub1_apply (grid1.coords t) (iblk V c 1 t) l q (blockCol ⟨t.val % 16, Nat.mod_lt _ (by decide)⟩ l)
        (by rw [(off1 t).1]; rfl) (off1 t).2).trans (iblk1_apply V c t _ q))

/-- THE INVARIANT: after point t = 16·i0 + n the accumulator holds, at (p, q), the first n + 1 column blocks'
    shares of (A · diag r · X) at row 1024·i0 + p. -/
theorem acc_inv (c : Dev nD) (n : ℕ) : ∀ t : Fin cfg1.N, t.val = n → ∀ (p : Fin 1024) (q : Fin 512),
    (outsAt V c t.val t.isLt).2 (ix2 p q) = partZ (Aof V c) (Xof V c) (rof V c) (rowOf t p) q (t.val % 16) := by
  induction n using Nat.strong_induction_on with
  | _ n IH =>
    intro t ht p q
    have hN : t.val < 128 := lt_of_lt_of_eq t.isLt (show cfg1.N = 128 from N_1)
    by_cases h0 : t.val % 16 = 0
    · have h2 : ¬t.val % 16 = 15 := by omega
      rw [outsAt_A V c t h0 h2]
      dsimp only
      unfold soutA_at
      rw [soutA_eq]
      refine (step_at V c t _ p q).trans ?_
      rw [Cert.KernelIdeal.Pay.k1_pay1_apply, h0, zero_add]
      unfold partZ
      rw [Finset.sum_range_one]
    · have hlt : t.val - 1 < cfg1.N := Nat.lt_of_le_of_lt (Nat.sub_le _ _) t.isLt
      have ih : (outsAt V c (t.val - 1) hlt).2 (ix2 p q)
          = partZ (Aof V c) (Xof V c) (rof V c) (rowOf ⟨t.val - 1, hlt⟩ p) q ((t.val - 1) % 16) :=
        IH (t.val - 1) (by omega) ⟨t.val - 1, hlt⟩ rfl p q
      have hr : rowOf ⟨t.val - 1, hlt⟩ p = rowOf t p :=
        Fin.ext (by show 1024 * ((t.val - 1) / 16) + p.val = 1024 * (t.val / 16) + p.val; omega)
      have hm : t.val % 16 = (t.val - 1) % 16 + 1 := by omega
      have fin : (outsAt V c (t.val - 1) hlt).2 (ix2 p q) + term (Aof V c) (Xof V c) (rof V c) (rowOf t p) q (t.val % 16)
          = partZ (Aof V c) (Xof V c) (rof V c) (rowOf t p) q (t.val % 16) := by
        rw [ih, hr, hm]
        unfold partZ
        exact (Finset.sum_range_succ _ _).symm
      by_cases h2 : t.val % 16 = 15
      · rw [outsAt_C V c t h0 h2]
        dsimp only
        unfold soutC_at
        rw [soutC_eq]
        exact (step_at V c t _ p q).trans fin
      · rw [outsAt_B V c t h0 h2]
        dsimp only
        unfold soutB_at
        rw [soutB_eq]
        exact (step_at V c t _ p q).trans fin

/-- What the region leaves in the result array: entry i is row i's share of the loss, from the arrays r and d as
    the region finds them. -/
def Gout (c : Dev nD) : S8192.Idx → EReal :=
  fun j => outOf (Aof V c) (Xof V c) (rof V c) (dof V c) (j 0)

/-- The row block stored at a point with inner coordinate 15. -/
theorem out_at (c : Dev nD) (t : Fin cfg1.N) (h0 : ¬t.val % 16 = 0) (h2 : t.val % 16 = 15) (p : Fin 1024) :
    (outsAt V c t.val t.isLt).1 (ix1 p) = outOf (Aof V c) (Xof V c) (rof V c) (dof V c) (rowOf t p) := by
  have hacc : ∀ f : Fin 512, (outsAt V c t.val t.isLt).2 (ix2 p f) = ZOf (Aof V c) (Xof V c) (rof V c) (rowOf t p) f := fun f => by
    rw [acc_inv V c t.val t rfl p f, h2, partZ_last]
  rw [outsAt_C V c t h0 h2] at hacc ⊢
  dsimp only at hacc ⊢
  unfold soutC_at at hacc
  rw [soutC_eq] at hacc
  unfold outC_at
  rw [outC_eq]
  exact pay3_step (Aof V c) (Xof V c) (rof V c) (dof V c) (iblk V c 2 t) (iblk V c 4 t)
    (xsub2 (grid1.coords t) ((hcond2 t).mpr h2) (iblk V c 1 t)) _ (rowOf t p) p
    (iblk2_apply V c t p (rowOf t p) rfl) (iblk4_apply V c t p (rowOf t p) rfl)
    (fun f => (xsub2_apply (grid1.coords t) ((hcond2 t).mpr h2) (iblk V c 1 t) p f (rowOf t p)
        (by rw [(off2 t).1]; rfl) (off2 t).2).trans (iblk1_apply V c t _ f))
    hacc

end Ideal2

/-! ## What the region leaves in the result array -/

section Ideal3

open Cert.Spec

variable (V : (c : Dev nD) → (b : Ref sig .tc) → Buf (Elt Ideal) ((c : Thread nD τ).loc b))

/-- What a point with inner coordinate 15 writes back is its block (rows 1024·i0 …) of `Gout`. -/
theorem flushed_eq (c : Dev nD) (t : Fin cfg1.N) (hf : (cfg1.win 5).flush t = true) :
    (dat V c).flushed 5 t = ((cfg1.win 5).blk t).view.read (Elt Ideal) (Gout V c) := by
  have h2 : t.val % 16 = 15 := (flush1_5 t).mp hf
  have h0 : ¬t.val % 16 = 0 := by omega
  show (cfg1.win 5).cut (grid1.coords t) ((dat V c).after 5 t) = _
  rw [after_5]
  funext j
  obtain ⟨p, rfl⟩ : ∃ p : Fin 1024, j = ix1 p := ⟨j 0, eq_ix1 (n := 1024) j⟩
  show (outsAt V c t.val t.isLt).1 (ix1 p) = Gout V c (((cfg1.win 5).blk t).view.emb (ix1 p))
  rw [out_at V c t h0 h2 p]
  unfold Gout
  refine congrArg (outOf (Aof V c) (Xof V c) (rof V c) (dof V c)) (Fin.ext ?_)
  show 1024 * (t.val / 16) + p.val = win1_5.index t 0 * 1024 + 1 * p.val
  rw [idx5 t]; omega

/-- Every entry of the result array lies in the block written back at the last point of its row block. -/
theorem cover (i : S8192.Idx) :
    ∃ t : Fin cfg1.N, (cfg1.win 5).flush t = true ∧ i ∈ ((cfg1.win 5).blk t).view.set := by
  have hi : (i 0).val < 8192 := (i 0).isLt
  have hN : cfg1.N = 128 := N_1
  have hlt : 16 * ((i 0).val / 1024) + 15 < cfg1.N := by omega
  have key : win1_5.index ⟨16 * ((i 0).val / 1024) + 15, hlt⟩ 0 = (i 0).val / 1024 := by
    rw [idx5 ⟨16 * ((i 0).val / 1024) + 15, hlt⟩]
    show (16 * ((i 0).val / 1024) + 15) / 16 = (i 0).val / 1024
    omega
  refine ⟨⟨16 * ((i 0).val / 1024) + 15, hlt⟩, (flush1_5 _).mpr (by show (16 * ((i 0).val / 1024) + 15) % 16 = 15; omega), ?_⟩
  show i ∈ ((View.whole main_v15).slice (win1_5.rect ⟨16 * ((i 0).val / 1024) + 15, hlt⟩)).set
  rw [View.set_slice_whole, Rect.mem_set_unit]
  intro a
  match a with
  | ⟨0, _⟩ =>
    show win1_5.index ⟨16 * ((i 0).val / 1024) + 15, hlt⟩ 0 * 1024 ≤ (i 0).val
      ∧ (i 0).val < win1_5.index ⟨16 * ((i 0).val / 1024) + 15, hlt⟩ 0 * 1024 + 1024
    rw [key]; omega

/-- The result array after the region: entry i is row i's share of the loss. -/
theorem final (c : Dev nD) : (dat V c).arrAt 5 cfg1.N = Gout V c :=
  (dat V c).arrAt_eq_of_cover 5 (Gout V c) (fun t hf => flushed_eq V c t hf) (fun i => cover i)

theorem out_final (c : Dev nD) (i : Fin 8192) :
    ((dat V c).arrAt 5 cfg1.N : S8192.Idx → EReal) (ix1 i)
      = Cert.Spec.outOf (fun a b => (V c main_arg0 : S8192x8192.Idx → EReal) (ix2 a b)) (fun a f => (V c main_arg1 : S8192x512.Idx → EReal) (ix2 a f))
          (fun a => (V c main_v14 : S8192.Idx → EReal) (ix1 a)) (fun a => (V c main_v8 : S8192.Idx → EReal) (ix1 a)) i := by
  rw [final V c]
  rfl

end Ideal3

end Cert.KernelIdeal.R1V

end
-- ==== Proof.KernelValues.lean ====
/-
  What the two pallas_calls' output arrays hold, for the proof data of this certificate: the row sums and the halves'
  column sums of A after the first, each row's share of the loss after the second.
-/
import proofs.«174135_j60627758350707_2_alg».proof.Proof.KernelValue
import proofs.«174135_j60627758350707_2_alg».proof.Proof.KernelRegions
import proofs.«174135_j60627758350707_2_alg».proof.Proof.R0Value
import proofs.«174135_j60627758350707_2_alg».proof.Proof.R1Value

noncomputable section

namespace Cert.KernelIdeal.KValue

open Cert.KernelIdeal Cert.KernelIdeal.Gen
open Idealize.ShloMosaic

theorem values : Values (Asm.regs (F := Ideal)) :=
  ⟨fun V c i => R0.rowsum_final V c i, fun V c h j => R0.colsum_final V c h j, fun V c i => R1V.out_final V c i⟩

end Cert.KernelIdeal.KValue

end
-- ==== Proof.RefRun.lean ====
/-
  The reference program's @main as the list of its host operations, the three module-local functions
  (the diagonal matrix of a vector, the test for an infinite entry, the entrywise choice) written out at
  their call sites over each call's own buffers, and the run of that list: every weakly fair execution
  ends with the scalar result at the operations' composed term of the two argument matrices and the
  arguments unchanged.

  The composed term is named in stages, each a matrix or vector as a function of the adjacency matrix A:
  S = (Aᵀ + A)·(1/2); d = the row sums of S; D = the matrix with d on the diagonal and 0 elsewhere (the
  comparison of a row-index table with a column-index table choosing between d's broadcast along rows and 0);
  L = D − S; p = (d + ε)^(−1/2); r = p with 0 where |p| = +∞; Ln = (r ⊗ 1)·L·(1 ⊗ r) entrywise; and the
  result Σ_{i,f} X_if · (Ln · X)_if.
-/
import proofs.«174135_j60627758350707_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The result as a term of the two arguments, stage by stage -/

/-- S = (Aᵀ + A)·(1/2). -/
def symT (adj : FVec F S8192x8192 .f32) : FVec F S8192x8192 .f32 :=
  mulf (addf (transpose S8192x8192 [1, 0] adj transposes_S8192x8192_S8192x8192_1_0) adj)
    (broadcastInDim S8192x8192 ![] bcast_S_S8192x8192 (constant S_ .f32 0x3F000000#32))

/-- d = the row sums of S, from 0. -/
def degT (adj : FVec F S8192x8192 .f32) : FVec F S8192 .f32 :=
  Host.reduceAdd (symT adj) (constant S_ .f32 0x00000000#32) reducesTo_S8192x8192_S8192_d1 h_S_

/-- D: d_i where the row index equals the column index, 0 elsewhere. -/
def diagT (adj : FVec F S8192x8192 .f32) : FVec F S8192x8192 .f32 :=
  select
    (cmpi .eq (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] (degT adj) (constant S_ .f32 0x00000000#32) pads_S8192_S8192_000 h_S_)))
    (broadcastInDim S8192x8192 ![] bcast_S_S8192x8192 (constant S_ .f32 0x00000000#32))

/-- L = D − S. -/
def lapT (adj : FVec F S8192x8192 .f32) : FVec F S8192x8192 .f32 := subf (diagT adj) (symT adj)

/-- p = (d + ε)^(−1/2). -/
def powT (adj : FVec F S8192x8192 .f32) : FVec F S8192 .f32 :=
  Host.powf (addf (degT adj) (broadcastInDim S8192 ![] bcast_S_S8192 (constant S_ .f32 0x3727C5AC#32)))
    (broadcastInDim S8192 ![] bcast_S_S8192 (constant S_ .f32 0xBF000000#32))

/-- r = p, with 0 where |p| = +∞. -/
def rT (adj : FVec F S8192x8192 .f32) : FVec F S8192 .f32 :=
  select (cmpf .oeq (Host.absf (powT adj)) (broadcastInDim S8192 ![] bcast_S_S8192 (constant S_ .f32 0x7F800000#32)))
    (broadcastInDim S8192 ![] bcast_S_S8192 (constant S_ .f32 0x00000000#32)) (powT adj)

/-- Ln_ij = (r_i · L_ij) · r_j. -/
def lnormT (adj : FVec F S8192x8192 .f32) : FVec F S8192x8192 .f32 :=
  mulf
    (mulf (broadcastInDim S8192x8192 ![0, 1] bcast_S8192x1_S8192x8192_0_1 (broadcastInDim S8192x1 ![0] bcast_S8192_S8192x1_0 (rT adj)))
      (lapT adj))
    (broadcastInDim S8192x8192 ![0, 1] bcast_S1x8192_S8192x8192_0_1 (broadcastInDim S1x8192 ![1] bcast_S8192_S1x8192_1 (rT adj)))

/-- The result: the sum over all (i, f), from 0, of X_if · (Ln · X)_if. -/
def refOut (adj : FVec F S8192x8192 .f32) (X : FVec F S8192x512 .f32) : FVec F S_ .f32 :=
  Host.reduceAdd (mulf X (Host.dotGeneral dot_S8192x8192_S8192x512_S8192x512_1_0_0_1_n_n none (lnormT adj) X))
    (constant S_ .f32 0x00000000#32) reducesTo_S8192x512_S_d0_1 h_S_

/-! ## The operations -/

/-- @main's forty-five operations in order, the calls unfolded: the diagonal matrix is ten operations and,
    inside it, the entrywise choice three more; the test for an infinite entry four; the second entrywise
    choice three. -/
abbrev ops : List (HloOp τ sig (Elt F)) :=
  [ unary main_arg0 main_v0 ((transpose S8192x8192 [1, 0] · transposes_S8192x8192_S8192x8192_1_0) : (⟨S8192x8192, .f32⟩ : BufTy).Contents (Elt F) → (⟨S8192x8192, .f32⟩ : BufTy).Contents (Elt F)),
    binary main_v0 main_arg0 main_v1 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3F000000#32),
    unary main_cst main_v2 (broadcastInDim S8192x8192 ![] bcast_S_S8192x8192 : (⟨S_, .f32⟩ : BufTy).Contents (Elt F) → (⟨S8192x8192, .f32⟩ : BufTy).Contents (Elt F)),
    binary main_v1 main_v2 main_v3 (mulf : (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    binary main_v3 main_cst_0 main_v4 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    TRef.nullary main_call0.cst (constant S_ .f32 0x00000000#32),
    TRef.binary (.of main_v4) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    binary main_v5 main_v3 main_v6 (subf : (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x3727C5AC#32),
    unary main_cst_1 main_v7 (broadcastInDim S8192 ![] bcast_S_S8192 : (⟨S_, .f32⟩ : BufTy).Contents (Elt F) → (⟨S8192, .f32⟩ : BufTy).Contents (Elt F)),
    binary main_v4 main_v7 main_v8 (addf : (⟨S8192, .f32⟩ : BufTy).Contents (Elt F) → (⟨S8192, .f32⟩ : BufTy).Contents (Elt F) → (⟨S8192, .f32⟩ : BufTy).Contents (Elt F)),
    nullary main_cst_2 (constant S_ .f32 0xBF000000#32),
    unary main_cst_2 main_v9 (broadcastInDim S8192 ![] bcast_S_S8192 : (⟨S_, .f32⟩ : BufTy).Contents (Elt F) → (⟨S8192, .f32⟩ : BufTy).Contents (Elt F)),
    binary main_v8 main_v9 main_v10 (Host.powf : (⟨S8192, .f32⟩ : BufTy).Contents (Elt F) → (⟨S8192, .f32⟩ : BufTy).Contents (Elt F) → (⟨S8192, .f32⟩ : BufTy).Contents (Elt F)),
    TRef.unary (.of main_v10) main_call1.v0 Host.absf,
    TRef.nullary main_call1.cst (constant S_ .f32 0x7F800000#32),
    TRef.unary main_call1.cst main_call1.v1 (broadcastInDim S8192 ![] bcast_S_S8192),
    TRef.binary main_call1.v0 main_call1.v1 main_call1.v2 (cmpf .oeq),
    nullary main_cst_3 (constant S_ .f32 0x00000000#32),
    TRef.unary (.of main_cst_3) main_call2.v0 id,
    TRef.unary main_call2.v0 main_call2.v1 (broadcastInDim S8192 ![] bcast_S_S8192),
    TRef.ternary (.of main_v11) main_call2.v1 (.of main_v10) main_call2.v2 select,
    unary main_v12 main_v13 (broadcastInDim S8192x1 ![0] bcast_S8192_S8192x1_0 : (⟨S8192, .f32⟩ : BufTy).Contents (Elt F) → (⟨S8192x1, .f32⟩ : BufTy).Contents (Elt F)),
    unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    binary main_v14 main_v6 main_v15 (mulf : (⟨S8192x8192, .f32⟩ : BufTy).Contents (Elt F) → (⟨S8192x8192, .f32⟩ : BufTy).Contents (Elt F) → (⟨S8192x8192, .f32⟩ : BufTy).Contents (Elt F)),
    unary main_v12 main_v16 (broadcastInDim S1x8192 ![1] bcast_S8192_S1x8192_1 : (⟨S8192, .f32⟩ : BufTy).Contents (Elt F) → (⟨S1x8192, .f32⟩ : BufTy).Contents (Elt F)),
    unary main_v16 main_v17 (broadcastInDim S8192x8192 ![0, 1] bcast_S1x8192_S8192x8192_0_1 : (⟨S1x8192, .f32⟩ : BufTy).Contents (Elt F) → (⟨S8192x8192, .f32⟩ : BufTy).Contents (Elt F)),
    binary main_v15 main_v17 main_v18 (mulf : (⟨S8192x8192, .f32⟩ : BufTy).Contents (Elt F) → (⟨S8192x8192, .f32⟩ : BufTy).Contents (Elt F) → (⟨S8192x8192, .f32⟩ : BufTy).Contents (Elt F)),
    binary main_v18 main_arg1 main_v19 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_arg1 main_v19 main_v20 (mulf : (⟨S8192x512, .f32⟩ : BufTy).Contents (Elt F) → (⟨S8192x512, .f32⟩ : BufTy).Contents (Elt F) → (⟨S8192x512, .f32⟩ : BufTy).Contents (Elt F)),
    nullary main_cst_4 (constant S_ .f32 0x00000000#32),
    binary main_v20 main_cst_4 main_v21 ((fun x v => Host.reduceAdd x v reducesTo_S8192x512_S_d0_1 h_S_) : (⟨S8192x512, .f32⟩ : BufTy).Contents (Elt F) → (⟨S_, .f32⟩ : BufTy).Contents (Elt F) → (⟨S_, .f32⟩ : BufTy).Contents (Elt F)) ]

-- forty-five operations in sequence
set_option maxRecDepth 4096 in
/-- @main is that straight line: the functions' bodies unfolded at their calls, sequencing reassociated. -/
theorem main_eq (c : Dev nD) : main (F := F) c = seq ops := by
  simp only [main, fn_diag.body, fn_where.body, fn_isinf.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., unary_bufs_sub .., binary_bufs_sub .., nullary_bufs_sub .., binary_bufs_sub .., nullary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., binary_bufs_sub .., binary_bufs_sub .., nullary_bufs_sub .., binary_bufs_sub ..⟩

/-! ## The run -/

/-- The fold of the operations at the result buffer is the staged term: each operation's result read at its own
    buffer is its function of its operands' contents, at any other buffer what was there. -/
theorem out_eq (V : Valuation τ sig (Elt F)) :
    after ops V (main_v21 : DevRef τ sig) = refOut (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of
    @main terminates with the result at the staged term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's staged term read entry by entry on the extended reals: each stage of the composed term is,
  at an index, the corresponding entry of the specification's formula. With A_ij the adjacency matrix's entry
  and X_if the feature matrix's:
    S_ij = (A_ji + A_ij)·(1/2);  d_i = 0 + Σ_j S_ij;  D_ij = d_i if i = j, else 0;  L = D − S;
    p_i = (d_i + ε)^(−1/2);  r_i = 0 if |p_i| = +∞, else p_i;  Ln_ij = (r_i·L_ij)·r_j;
    result = 0 + Σ_i Σ_f X_if · Σ_j Ln_ij · X_jf.
  The transposition reads (j, i) for (i, j); a padding of width zero reads the operand; the comparison of the
  row-index table with the column-index table is 1 exactly on the diagonal (indices below 8192 are distinct as
  32-bit words exactly when they are distinct numbers); a vector broadcast along rows (columns) reads its i-th
  (j-th) entry; the contraction over the one shared axis is the sum over j; the sum over both axes of an
  N×C array is the double sum.
-/
import proofs.«174135_j60627758350707_2_alg».proof.Proof.RefRun
import proofs.«174135_j60627758350707_2_alg».proof.Proof.Spec
import Idealize.ShloMosaic.Lib.ValueIdx
import Idealize.ShloMosaic.Lib.ValueLayout
import Idealize.ShloMosaic.PureOps.Ideal.Laws

noncomputable section

namespace Cert.ReferenceIdeal.RefRun

open Cert.ReferenceIdeal Cert.ReferenceIdeal.Gen Idealize.ShloMosaic Idealize.ShloMosaic.ValueIdx Cert.Spec

/-- The adjacency array as a matrix of its two coordinates. -/
abbrev matA (adj : S8192x8192.Idx → EReal) : Fin 8192 → Fin 8192 → EReal := fun i j => adj (ix2 i j)
/-- The feature array as a matrix of its two coordinates. -/
abbrev matX (X : S8192x512.Idx → EReal) : Fin 8192 → Fin 512 → EReal := fun i f => X (ix2 i f)

/-! ## Layout operations at an index -/

/-- A vector made a column and repeated along rows reads, at (i, j), its i-th entry. -/
theorem colBcast_apply {α : Type} (v : S8192.Idx → α) (i j : Fin 8192) :
    broadcastInDim S8192x8192 ![0, 1] bcast_S8192x1_S8192x8192_0_1
        (broadcastInDim S8192x1 ![0] bcast_S8192_S8192x1_0 v) (ix2 i j) = v (ix1 i) := by
  rw [broadcastInDim_apply _ _ _ (ix2 i j) (ix2 i (0 : Fin 1))
        (fun a => by match a with | ⟨0, _⟩ => rfl | ⟨1, _⟩ => rfl),
      broadcastInDim_apply _ _ _ (ix2 i (0 : Fin 1)) (ix1 i) (fun a => by match a with | ⟨0, _⟩ => rfl)]

/-- A vector made a row and repeated along columns reads, at (i, j), its j-th entry. -/
theorem rowBcast_apply {α : Type} (v : S8192.Idx → α) (i j : Fin 8192) :
    broadcastInDim S8192x8192 ![0, 1] bcast_S1x8192_S8192x8192_0_1
        (broadcastInDim S1x8192 ![1] bcast_S8192_S1x8192_1 v) (ix2 i j) = v (ix1 j) := by
  rw [broadcastInDim_apply _ _ _ (ix2 i j) (ix2 (0 : Fin 1) j)
        (fun a => by match a with | ⟨0, _⟩ => rfl | ⟨1, _⟩ => rfl),
      broadcastInDim_apply _ _ _ (ix2 (0 : Fin 1) j) (ix1 j) (fun a => by match a with | ⟨0, _⟩ => rfl)]

/-- A padding of width zero on both sides and between entries reads the operand. -/
theorem pad_zero_apply {α : Type} (x : S8192.Idx → α) (v : S_.Idx → α) (j : S8192.Idx) :
    pad S8192 ![0] ![0] ![0] x v pads_S8192_S8192_000 h_S_ j = x j := by
  unfold pad
  split
  · exact congrArg x (funext fun a => Fin.ext (by
      match a with
      | ⟨0, _⟩ =>
        show ((j 0).val - 0) / (0 + 1) = (j 0).val
        rw [Nat.sub_zero, Nat.zero_add, Nat.div_one]))
  · next hin =>
    exact absurd (fun a => by
      match a with
      | ⟨0, _⟩ =>
        refine ⟨Nat.zero_le _, Nat.mod_one _, ?_⟩
        show ((j 0).val - 0) / (0 + 1) < 8192
        rw [Nat.sub_zero, Nat.zero_add, Nat.div_one]
        exact (j 0).isLt) hin

/-- The row-index table, plus zero, compared for equality with the column-index table: 1 on the diagonal,
    0 off it. -/
theorem eqMask_apply (i j : Fin 8192) :
    cmpi .eq (addi (iotaInDim S8192x8192 32 0) (broadcastInDim S8192x8192 ![] bcast_S_S8192x8192 (constantI S_ 32 0#32)))
        (iotaInDim S8192x8192 32 1) (ix2 i j) = if i = j then 1#1 else 0#1 := by
  show BitVec.ofBool ((BitVec.ofNat 32 i.val + 0#32) == BitVec.ofNat 32 j.val) = _
  rw [BitVec.add_zero]
  by_cases h : i = j
  · subst h
    rw [if_pos rfl, beq_self_eq_true]
    rfl
  · rw [if_neg h]
    have hne : ¬ BitVec.ofNat 32 i.val = BitVec.ofNat 32 j.val := fun e => h (Fin.ext (by
      have e' := congrArg BitVec.toNat e
      rw [BitVec.toNat_ofNat, BitVec.toNat_ofNat, Nat.mod_eq_of_lt (by have := i.isLt; omega),
        Nat.mod_eq_of_lt (by have := j.isLt; omega)] at e'
      exact e'))
    rw [beq_eq_false_iff_ne.mpr hne]
    rfl

/-! ## The stages at an index -/

variable (adj : S8192x8192.Idx → EReal) (X : S8192x512.Idx → EReal)

theorem symT_apply (i j : Fin 8192) : symT (F := Ideal) adj (ix2 i j) = symR (matA adj) i j := by
  unfold symT symR
  rw [mulf_apply, addf_apply, transpose_ix2_apply adj transposes_S8192x8192_S8192x8192_1_0 i j]
  rfl

theorem degT_apply (i : Fin 8192) : degT (F := Ideal) adj (ix1 i) = degR (matA adj) i := by
  unfold degT degR Host.reduceAdd
  rw [Ideal.hostReduceAdd_def, Ideal.hostReduceAdd_single reducesTo_S8192x8192_S8192_d1 (by decide)]
  refine congrArg (_ + ·) (Finset.sum_congr rfl fun k _ => ?_)
  refine Eq.trans (congrArg (symT (F := Ideal) adj) (funext fun a => Fin.ext ?_)) (symT_apply adj i k)
  match a with
  | ⟨0, _⟩ => rfl
  | ⟨1, _⟩ => rfl

theorem diagT_apply (i j : Fin 8192) :
    diagT (F := Ideal) adj (ix2 i j) = if i = j then degR (matA adj) i else zeroW := by
  unfold diagT
  rw [select_apply, eqMask_apply]
  by_cases h : i = j
  · rw [if_pos h, if_pos h, select_one, colBcast_apply, pad_zero_apply, degT_apply]
  · rw [if_neg h, if_neg h, select_zero]
    rfl

theorem lapT_apply (i j : Fin 8192) : lapT (F := Ideal) adj (ix2 i j) = lapR (matA adj) i j := by
  unfold lapT lapR
  rw [subf_apply, diagT_apply, symT_apply]

theorem powT_apply (i : Fin 8192) :
    powT (F := Ideal) adj (ix1 i) = Ideal.pow (degR (matA adj) i + epsW) mhalfW := by
  unfold powT
  show Ideal.pow (degT (F := Ideal) adj (ix1 i) + epsW) mhalfW = _
  rw [degT_apply]

theorem rT_apply (i : Fin 8192) : rT (F := Ideal) adj (ix1 i) = rR (matA adj) i := by
  unfold rT
  rw [select_apply]
  show Scalar.select (Ideal.cmp .oeq (max (powT (F := Ideal) adj (ix1 i)) (-(powT (F := Ideal) adj (ix1 i)))) infW) zeroW
      (powT (F := Ideal) adj (ix1 i)) = _
  rw [powT_apply]
  rfl

theorem lnormT_apply (i j : Fin 8192) : lnormT (F := Ideal) adj (ix2 i j) = lnormR (matA adj) i j := by
  unfold lnormT lnormR
  rw [mulf_apply, mulf_apply, colBcast_apply, rowBcast_apply, rT_apply, rT_apply, lapT_apply]

/-! ## The contraction -/

theorem lhs_0 (i : S8192x512.Idx) (q : dot_S8192x8192_S8192x512_S8192x512_1_0_0_1_n_n.contr.Idx) :
    (dot_S8192x8192_S8192x512_S8192x512_1_0_0_1_n_n.lhsIdx i q 0).val = (i 0).val := by
  unfold DotDims.lhsIdx
  rw [dif_neg (show ¬(0 : Fin S8192x8192.rank) ∈ dot_S8192x8192_S8192x512_S8192x512_1_0_0_1_n_n.lhsBatch by decide),
    dif_pos (show (0 : Fin S8192x8192.rank) ∈ dot_S8192x8192_S8192x512_S8192x512_1_0_0_1_n_n.lhsNonContracting by decide)]
  rfl
theorem lhs_1 (i : S8192x512.Idx) (q : dot_S8192x8192_S8192x512_S8192x512_1_0_0_1_n_n.contr.Idx) :
    (dot_S8192x8192_S8192x512_S8192x512_1_0_0_1_n_n.lhsIdx i q 1).val = (q ⟨0, by decide⟩).val :=
  dot_S8192x8192_S8192x512_S8192x512_1_0_0_1_n_n.lhsIdx_val_of_single rfl i q
theorem rhs_0 (i : S8192x512.Idx) (q : dot_S8192x8192_S8192x512_S8192x512_1_0_0_1_n_n.contr.Idx) :
    (dot_S8192x8192_S8192x512_S8192x512_1_0_0_1_n_n.rhsIdx i q 0).val = (q ⟨0, by decide⟩).val :=
  dot_S8192x8192_S8192x512_S8192x512_1_0_0_1_n_n.rhsIdx_val_of_single rfl i q
theorem rhs_1 (i : S8192x512.Idx) (q : dot_S8192x8192_S8192x512_S8192x512_1_0_0_1_n_n.contr.Idx) :
    (dot_S8192x8192_S8192x512_S8192x512_1_0_0_1_n_n.rhsIdx i q 1).val = (i 1).val := by
  unfold DotDims.rhsIdx
  rw [dif_neg (show ¬(1 : Fin S8192x512.rank) ∈ dot_S8192x8192_S8192x512_S8192x512_1_0_0_1_n_n.rhsBatch by decide),
    dif_pos (show (1 : Fin S8192x512.rank) ∈ dot_S8192x8192_S8192x512_S8192x512_1_0_0_1_n_n.rhsNonContracting by decide)]
  rfl

/-- The product of an N×N array with the N×C array, at (i, f): the sum over the shared coordinate j. -/
theorem dot_apply (L : FVec Ideal S8192x8192 .f32) (Y : FVec Ideal S8192x512 .f32) (i : Fin 8192) (f : Fin 512) :
    Host.dotGeneral (F := Ideal) dot_S8192x8192_S8192x512_S8192x512_1_0_0_1_n_n none L Y (ix2 i f) = ∑ j : Fin 8192, L (ix2 i j) * Y (ix2 j f) := by
  simp only [Host.dotGeneral]
  rw [Ideal.dotGeneral_apply, ← Equiv.sum_comp (contrEquiv1 dot_S8192x8192_S8192x512_S8192x512_1_0_0_1_n_n 8192 rfl rfl).symm]
  refine Finset.sum_congr rfl fun k _ => ?_
  have hk := contrEquiv1_symm_val dot_S8192x8192_S8192x512_S8192x512_1_0_0_1_n_n 8192 rfl rfl k
  have el : dot_S8192x8192_S8192x512_S8192x512_1_0_0_1_n_n.lhsIdx (ix2 i f) ((contrEquiv1 dot_S8192x8192_S8192x512_S8192x512_1_0_0_1_n_n 8192 rfl rfl).symm k) = ix2 i k :=
    funext fun a => Fin.ext (by
      match a with
      | ⟨0, _⟩ => exact lhs_0 _ _
      | ⟨1, _⟩ => exact (lhs_1 _ _).trans hk)
  have er : dot_S8192x8192_S8192x512_S8192x512_1_0_0_1_n_n.rhsIdx (ix2 i f) ((contrEquiv1 dot_S8192x8192_S8192x512_S8192x512_1_0_0_1_n_n 8192 rfl rfl).symm k) = ix2 k f :=
    funext fun a => Fin.ext (by
      match a with
      | ⟨0, _⟩ => exact (rhs_0 _ _).trans hk
      | ⟨1, _⟩ => exact rhs_1 _ _)
  rw [el, er]

/-! ## The result -/

theorem refOut_eq' : refOut (F := Ideal) adj X = fun _ => lossR (matA adj) (matX X) := by
  funext z
  unfold refOut lossR Host.reduceAdd
  rw [Ideal.hostReduceAdd_def, Ideal.hostReduceAdd_total reducesTo_S8192x512_S_d0_1 (fun b => b.elim0), sum_idx2]
  refine congrArg (_ + ·) (Finset.sum_congr rfl fun i _ => Finset.sum_congr rfl fun f _ => ?_)
  rw [mulf_apply, dot_apply]
  unfold MR
  refine congrArg (_ * ·) (Finset.sum_congr rfl fun j _ => ?_)
  rw [lnormT_apply]

/-- The reference's result is the specification's loss of the two argument matrices. -/
theorem refOut_eq (adj : S8192x8192.Idx → EReal) (X : S8192x512.Idx → EReal) :
    refOut (F := Ideal) adj X
      = fun _ => Cert.Spec.lossR (fun i j => adj (ValueIdx.ix2 i j)) (fun i f => X (ValueIdx.ix2 i f)) :=
  refOut_eq' adj X

end Cert.ReferenceIdeal.RefRun

end
-- ==== Proof.RefFrame.lean ====
/-
  The reference program's frame: under the precondition every weakly fair execution of @main terminates without a
  fault and the two argument arrays end unchanged — the run of its operations with the result's value dropped.
-/
import proofs.«174135_j60627758350707_2_alg».proof.Defs
import proofs.«174135_j60627758350707_2_alg».proof.Proof.RefRun
import proofs.«174135_j60627758350707_2_alg».proof.Proof.Gen.Pre_finite_inputs

noncomputable section

namespace Cert.ReferenceIdeal.RefRun

open Idealize.ShloMosaic Idealize.SL.Sem

theorem frame_ri :
    Cert.frame_ReferenceIdeal (hReferenceIdeal := Cert.ReferenceIdeal.Gen.facts)
      (hPre_finite_inputs := Cert.Pre_finite_inputs.Gen.facts) :=
  fun m ρ _ => (θ_run Cert.ReferenceIdeal.defs _ _).mono (fun _ h c => (h c).2) (run (F := Ideal) m ρ)

end Cert.ReferenceIdeal.RefRun

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.Finite.lean ====
/-
  The precondition decoded: where the predicate "every entry of both argument arrays has absolute value below +∞"
  holds — printed as two conjunctions over all entries of an ordered comparison, joined by a conjunction — every
  entry of the adjacency array and of the feature array is a real number.
-/
import proofs.«174135_j60627758350707_2_alg».proof.Defs
import proofs.«174135_j60627758350707_2_alg».proof.Proof.Gen.Pre_finite_inputs
import proofs.«174135_j60627758350707_2_alg».proof.Proof.LibRealEntry
import Idealize.ShloMosaic.Lib.ReduceAll
import Idealize.ShloMosaic.Lib.ValueIdx

noncomputable section

namespace Cert.Finite

open Idealize.ShloMosaic Idealize.SL.Sem

/-- The scalar shape has one index. -/
instance : Subsingleton Cert.Pre_finite_inputs.S_.Idx := ⟨fun _ _ => funext fun d => d.elim0⟩

/-- Two arrays of which the predicate is all ones have real entries: the conjunction of the two reductions is 1, so
    each is; a conjunction over all entries that is 1 met only 1s; and an entry whose absolute value compares below
    +∞ is a real number. -/
theorem real_entries (A : FVec Ideal Cert.Pre_finite_inputs.S8192x8192 .f32) (B : FVec Ideal Cert.Pre_finite_inputs.S8192x512 .f32)
    (h : Cert.Pre_finite_inputs.fn (F := Ideal) A B = fun _ => 1#1) :
    (∀ i, ∃ a : ℝ, A i = (a : EReal)) ∧ (∀ i, ∃ x : ℝ, B i = (x : EReal)) := by
  have h0 := congrFun h ValueIdx.ix0
  dsimp only [Cert.Pre_finite_inputs.fn] at h0
  obtain ⟨hA, hB⟩ := IntOp.andi_eq_one.1 (show IntOp.andi _ _ = 1#1 from h0)
  exact ⟨fun i => Cert.LibRealEntry.real_of_abs_lt (A i) (Host.reduce_andi_all _ _ _ _ _ hA i),
    fun i => Cert.LibRealEntry.real_of_abs_lt (B i) (Host.reduce_andi_all _ _ _ _ _ hB i)⟩

/-- Under the precondition, on every core, every entry of the two argument arrays of the idealized kernel is a
    real number. -/
theorem real_inputs (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i : Cert.KernelIdeal.S8192x8192.Idx, ∃ a : ℝ,
        m ((c.tc : Thread Cert.KernelIdeal.nD Cert.KernelIdeal.τ).loc Cert.KernelIdeal.main_arg0) i = (a : EReal))
      ∧ (∀ i : Cert.KernelIdeal.S8192x512.Idx, ∃ x : ℝ,
        m ((c.tc : Thread Cert.KernelIdeal.nD Cert.KernelIdeal.τ).loc Cert.KernelIdeal.main_arg1) i = (x : EReal)) :=
  real_entries _ _ (h c)

end Cert.Finite

end
-- ==== Proof.lean ====
/-
  The certificate. The kernel program is two pallas_calls around host lines: the first leaves the row sums and the
  column sums (by halves) of the adjacency matrix A, the host forms the degree d = (rowsum + colsum)/2 and the scale
  r = (d + ε)^(-1/2), the second leaves row i's share Σ_f X_if · r_i · (d_i · r_i · X_if − (A · diag r · X)_if), and
  the host adds the shares. The reference forms S = (Aᵀ + A)/2, its degrees, L = diag d − S, and
  Σ_if X_if · (diag r · L · diag r · X)_if. Both degrees are the same real numbers when A is real, and the two
  losses differ by Σ_ij u_i (S_ij − A_ij) u_j summed over the feature columns u = r ⊙ X_·f, which vanishes because
  the summand is antisymmetric in (i, j). Finiteness of the inputs is used exactly there: the sums are rearranged
  in the real numbers.
-/
import proofs.«174135_j60627758350707_2_alg».proof.Defs
import proofs.«174135_j60627758350707_2_alg».proof.Proof.Gen.Kernel
import proofs.«174135_j60627758350707_2_alg».proof.Proof.Gen.KernelIdeal
import proofs.«174135_j60627758350707_2_alg».proof.Proof.Gen.ReferenceIdeal
import proofs.«174135_j60627758350707_2_alg».proof.Proof.Gen.Pre_finite_inputs
import proofs.«174135_j60627758350707_2_alg».proof.Proof.KernelRegionsB
import proofs.«174135_j60627758350707_2_alg».proof.Proof.KernelValues
import proofs.«174135_j60627758350707_2_alg».proof.Proof.RefValue
import proofs.«174135_j60627758350707_2_alg».proof.Proof.RefFrame
import proofs.«174135_j60627758350707_2_alg».proof.Proof.Finite
import proofs.«174135_j60627758350707_2_alg».proof.Proof.SpecLaw
import Idealize.ShloMosaic.Adequacy
import Idealize.ShloMosaic.Init

noncomputable section

namespace Cert.Proof

open Idealize.ShloMosaic Idealize.ShloMosaic.ValueIdx Idealize.SL.Sem

theorem frame_p : Cert.frame_Kernel (hKernel := Cert.Kernel.Gen.facts) (hPre_finite_inputs := Cert.Pre_finite_inputs.Gen.facts) :=
  fun m ρ _ => Cert.Kernel.Asm.frame m ρ Cert.Kernel.Asm.regs

theorem frame_pi : Cert.frame_KernelIdeal (hKernelIdeal := Cert.KernelIdeal.Gen.facts) (hPre_finite_inputs := Cert.Pre_finite_inputs.Gen.facts) :=
  fun m ρ _ => Cert.KernelIdeal.Asm.frame m ρ Cert.KernelIdeal.Asm.regs

/-- Both programs end at the same loss: the kernel side's formula of the argument matrices equals the reference
    side's on real matrices. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.lossK (Cert.KernelIdeal.KValue.A m c) (Cert.KernelIdeal.KValue.X m c), ?_, ?_⟩
  · exact (θ_run Cert.KernelIdeal.defs _ _).mono
      (fun _ h c => ⟨(h c).1.trans (Cert.KernelIdeal.KValue.result_eq m ρ Cert.KernelIdeal.KValue.values c), (h c).2⟩)
      (Cert.KernelIdeal.Asm.run_result m ρ Cert.KernelIdeal.Asm.regs)
  · refine (θ_run Cert.ReferenceIdeal.defs _ _).mono (fun _ h c => ⟨(h c).1.trans ?_, (h c).2⟩)
      (Cert.ReferenceIdeal.RefRun.run (F := Ideal) m' ρ')
    rw [(hagree c).1, (hagree c).2, Cert.ReferenceIdeal.RefRun.refOut_eq]
    funext _
    have hfin := Cert.Finite.real_inputs m hpre c
    exact (Cert.SpecLaw.lossK_eq_lossR _ _ (fun i j => hfin.1 (ix2 i j)) (fun i f => hfin.2 (ix2 i f))).symm

theorem claim : Cert.Claim := ⟨Cert.Kernel.Gen.facts, Cert.KernelIdeal.Gen.facts, Cert.ReferenceIdeal.Gen.facts, Cert.Pre_finite_inputs.Gen.facts,
  frame_p, frame_pi, Cert.ReferenceIdeal.RefRun.frame_ri, trivial, algebraic⟩

end Cert.Proof

end
